-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S4096x4096 : Shape := ⟨2, ![4096, 4096]⟩
abbrev S1024x1024 : Shape := ⟨2, ![1024, 1024]⟩
abbrev S1024 : Shape := ⟨1, ![1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part2 {F : FTy → Type} [FloatOps F] (main_arg7 : FVec F S1024 .f32) (main_v33 : IVec S_ 1) : IVec S_ 1 :=
  let main_v34 : FVec F S1024 .f32 := Host.absf main_arg7
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  main_v38

def fn_part1 {F : FTy → Type} [FloatOps F] (main_arg4 : FVec F S1024x1024 .f32) (main_arg5 : FVec F S1024 .f32) (main_arg6 : FVec F S1024x1024 .f32) (main_arg7 : FVec F S1024 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S1024x1024 .f32 := Host.absf main_arg6
  let main_cst_10 : FVec F S_ .f32 := constant S_ .f32 0x7F800000#32
  let main_v30 : FVec F S1024x1024 .f32 := broadcastInDim S1024x1024 ![] bcast_S_S1024x1024 main_cst_10
  let main_v31 : IVec S1024x1024 1 := cmpf .olt main_v29 main_v30
  let main_c_11 : IVec S_ 1 := constantI S_ 1 1#1
  let main_v32 : IVec S_ 1 := (fun x v => Host.reduce IntOp.andi x v reducesTo_S1024x1024_S_d0_1 h_S_) main_v31 main_c_11
  let main_v33 : IVec S_ 1 := andi main_v28 main_v32
  fn_part2 (F := F) main_arg7 main_v33

def fn {F : FTy → Type} [FloatOps F] (main_arg0 : FVec F S4096x1024 .f32) (main_arg1 : FVec F S4096x4096 .f32) (main_arg2 : FVec F S1024x1024 .f32) (main_arg3 : FVec F S1024 .f32) (main_arg4 : FVec F S1024x1024 .f32) (main_arg5 : FVec F S1024 .f32) (main_arg6 : FVec F S1024x1024 .f32) (main_arg7 : FVec F S1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_arg5 main_arg6 main_arg7 main_v13 main_v16
-- ==== Kernel.lean ====
abbrev S4096x1024 : Shape := ⟨2, ![4096, 1024]⟩
abbrev S4096x4096 : Shape := ⟨2, ![4096, 4096]⟩
abbrev S1024x1024 : Shape := ⟨2, ![1024, 1024]⟩
abbrev S1024 : Shape := ⟨1, ![1024]⟩
abbrev S1024x3072 : Shape := ⟨2, ![1024, 3072]⟩
abbrev S3072 : Shape := ⟨1, ![3072]⟩
abbrev S1x3072 : Shape := ⟨2, ![1, 3072]⟩
abbrev S512x1024 : Shape := ⟨2, ![512, 1024]⟩
abbrev S512x3072 : Shape := ⟨2, ![512, 3072]⟩
abbrev S512x512 : Shape := ⟨2, ![512, 512]⟩
abbrev S512x1 : Shape := ⟨2, ![512, 1]⟩
abbrev S1024x512 : Shape := ⟨2, ![1024, 512]⟩
abbrev S512 : Shape := ⟨1, ![512]⟩

abbrev nBuf : Space → Nat
  | .hbm => 18
  | .vmem => 30
  | .smem => 0
  | _ => 0

abbrev bufTy : (tb : Table) → Fin (tcTables nBuf tb) → BufTy
  | .hbm, ⟨0, _⟩ => ⟨S4096x1024, .f32⟩
  | .hbm, ⟨1, _⟩ => ⟨S4096x4096, .f32⟩
  | .hbm, ⟨2, _⟩ => ⟨S1024x1024, .f32⟩
  | .hbm, ⟨3, _⟩ => ⟨S1024, .f32⟩
  | .hbm, ⟨4, _⟩ => ⟨S1024x1024, .f32⟩
  | .hbm, ⟨5, _⟩ => ⟨S1024, .f32⟩
  | .hbm, ⟨6, _⟩ => ⟨S1024x1024, .f32⟩
  | .hbm, ⟨7, _⟩ => ⟨S1024, .f32⟩
  | .hbm, ⟨8, _⟩ => ⟨S1024x3072, .f32⟩
  | .hbm, ⟨9, _⟩ => ⟨S1024x3072, .bf16⟩
  | .hbm, ⟨10, _⟩ => ⟨S3072, .f32⟩
  | .hbm, ⟨11, _⟩ => ⟨S1x3072, .f32⟩
  | .hbm, ⟨12, _⟩ => ⟨S4096x1024, .bf16⟩
  | .hbm, ⟨13, _⟩ => ⟨S4096x1024, .bf16⟩
  | .hbm, ⟨14, _⟩ => ⟨S4096x1024, .bf16⟩
  | .hbm, ⟨15, _⟩ => ⟨S4096x4096, .bf16⟩
  | .hbm, ⟨16, _⟩ => ⟨S4096x1024, .bf16⟩
  | .hbm, ⟨17, _⟩ => ⟨S4096x1024, .f32⟩
  | .local _ .vmem, ⟨0, _⟩ => ⟨S512x1024, .f32⟩
  | .local _ .vmem, ⟨1, _⟩ => ⟨S512x1024, .f32⟩
  | .local _ .vmem, ⟨2, _⟩ => ⟨S1024x3072, .bf16⟩
  | .local _ .vmem, ⟨3, _⟩ => ⟨S1x3072, .f32⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x512, .f32⟩
  | .local _ .vmem, ⟨17, _⟩ => ⟨S512x512, .f32⟩
  | .local _ .vmem, ⟨18, _⟩ => ⟨S512x512, .bf16⟩
  | .local _ .vmem, ⟨19, _⟩ => ⟨S512x512, .bf16⟩
  | .local _ .vmem, ⟨20, _⟩ => ⟨S512x1024, .bf16⟩
  | .local _ .vmem, ⟨21, _⟩ => ⟨S512x1024, .bf16⟩
  | .local _ .vmem, ⟨22, _⟩ => ⟨S512x1, .f32⟩
  | .local _ .vmem, ⟨23, _⟩ => ⟨S512x512, .bf16⟩
  | .local _ .vmem, ⟨24, _⟩ => ⟨S512x512, .bf16⟩
  | .local _ .vmem, ⟨25, _⟩ => ⟨S512x1024, .bf16⟩
  | .local _ .vmem, ⟨26, _⟩ => ⟨S512x1024, .bf16⟩
  | .local _ .vmem, ⟨27, _⟩ => ⟨S512x1024, .f32⟩
  | .local _ .vmem, ⟨28, _⟩ => ⟨S512x1024, .f32⟩
  | .local _ .vmem, ⟨29, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4_0 : Ref sig .tc := ⟨.hbm, 12, rfl⟩
abbrev main_v4_1 : Ref sig .tc := ⟨.hbm, 13, rfl⟩
abbrev main_v4_2 : Ref sig .tc := ⟨.hbm, 14, rfl⟩
abbrev main_v5_0 : Ref sig .tc := ⟨.hbm, 15, rfl⟩
abbrev main_v5_1 : Ref sig .tc := ⟨.hbm, 16, rfl⟩
abbrev main_v6 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg4_1 : Ref sig .tc := ⟨.vmem, 19, rfl⟩
abbrev cc1_stg5_0 : Ref sig .tc := ⟨.vmem, 20, rfl⟩
abbrev cc1_stg5_1 : Ref sig .tc := ⟨.vmem, 21, rfl⟩
abbrev cc1_scratch0 : Ref sig .tc := ⟨.vmem, 22, rfl⟩
abbrev cc2_stg0_0 : Ref sig .tc := ⟨.vmem, 23, rfl⟩
abbrev cc2_stg0_1 : Ref sig .tc := ⟨.vmem, 24, rfl⟩
abbrev cc2_stg1_0 : Ref sig .tc := ⟨.vmem, 25, rfl⟩
abbrev cc2_stg1_1 : Ref sig .tc := ⟨.vmem, 26, rfl⟩
abbrev cc2_stg2_0 : Ref sig .tc := ⟨.vmem, 27, rfl⟩
abbrev cc2_stg2_1 : Ref sig .tc := ⟨.vmem, 28, rfl⟩
abbrev cc2_scratch0 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem4_1 : DmaSem sig := 19
abbrev cc1_sem5_0 : DmaSem sig := 20
abbrev cc1_sem5_1 : DmaSem sig := 21
abbrev cc2_sem0_0 : DmaSem sig := 22
abbrev cc2_sem0_1 : DmaSem sig := 23
abbrev cc2_sem1_0 : DmaSem sig := 24
abbrev cc2_sem1_1 : DmaSem sig := 25
abbrev cc2_sem2_0 : DmaSem sig := 26
abbrev cc2_sem2_1 : DmaSem sig := 27

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨2, ![8, 8], ![false, false]⟩

def k1_cond2 (i : grid1.Coords) : BitVec 1 :=
  let arg1 : BitVec 32 := BitVec.ofNat 32 (i 1).val
  let c7_i32 : BitVec 32 := 7#32
  let v21 : BitVec 1 := Scalar.cmpi .eq arg1 c7_i32
  let v22 : BitVec 32 := Scalar.extui v21
  let c0_i32_13 : BitVec 32 := 0#32
  let v23 : BitVec 1 := Scalar.cmpi .ne v22 c0_i32_13
  v23

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S512x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S512x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S512x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S512x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S512x512 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S512x1024 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

abbrev grid2 : Pipeline.Grid := ⟨2, ![8, 8], ![false, false]⟩

def k2_cond2 (i : grid2.Coords) : BitVec 1 :=
  let arg1 : BitVec 32 := BitVec.ofNat 32 (i 1).val
  let c7_i32 : BitVec 32 := 7#32
  let v13 : BitVec 1 := Scalar.cmpi .eq arg1 c7_i32
  let v14 : BitVec 32 := Scalar.extui v13
  let c0_i32_8 : BitVec 32 := 0#32
  let v15 : BitVec 1 := Scalar.cmpi .ne v14 c0_i32_8
  v15

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S512x512 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S512x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S512x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

class Facts₀ : Prop where
  concatenates_S1024x1024_S1024x1024_S1024x1024_S1024x3072_d1 : Shape.Concatenates [S1024x1024, S1024x1024, S1024x1024] S1024x3072 1
  bitsLt_bf16_f32 : FTy.bits .bf16 < FTy.bits .f32
  concatenates_S1024_S1024_S1024_S3072_d0 : Shape.Concatenates [S1024, S1024, S1024] S3072 0
  shapeCasts_S3072_S1x3072 : S3072.ShapeCasts S1x3072
  inb_S512x1024_S512x1024_0_0 : ∀ a, (![0, 0] : Fin 2 → Nat) a + S512x1024.size a ≤ S512x1024.size a
  h_S512x1024 : 0 < S512x1024.numel
  inb_S1024x3072_S1024x3072_0_0 : ∀ a, (![0, 0] : Fin 2 → Nat) a + S1024x3072.size a ≤ S1024x3072.size a
  h_S1024x3072 : 0 < S1024x3072.numel
  shapeCasts_S1024x3072_S1024x3072 : S1024x3072.ShapeCasts S1024x3072
  inb_S1x3072_S1x3072_0_0 : ∀ a, (![0, 0] : Fin 2 → Nat) a + S1x3072.size a ≤ S1x3072.size a
  h_S1x3072 : 0 < S1x3072.numel
  shapeCasts_S1x3072_S1x3072 : S1x3072.ShapeCasts S1x3072
  broadcasts_S1x3072_S512x3072 : S1x3072.Broadcasts S512x3072
  slices_S512x3072_o0_0_S512x1024 : S512x3072.Slices ![0, 0] S512x1024
  packedbf16_S512x1024_S512x1024_0_0 : (Rect.unit (s := S512x1024) ![0, 0] S512x1024.size inb_S512x1024_S512x1024_0_0).PackedRows (EltTy.packing .bf16)
  slices_S512x3072_o0_1024_S512x1024 : S512x3072.Slices ![0, 1024] S512x1024
  slices_S512x3072_o0_2048_S512x1024 : S512x3072.Slices ![0, 2048] S512x1024
  inb_S512x1_S512x1_0_0 : ∀ a, (![0, 0] : Fin 2 → Nat) a + S512x1.size a ≤ S512x1.size a
  h_S512x1 : 0 < S512x1.numel
  shapeCasts_S512x1_S512x1 : S512x1.ShapeCasts S512x1
  shapeCasts_S512x1024_S512x1024 : S512x1024.ShapeCasts S512x1024
  transposes_S512x1024_p1_0_S1024x512 : S512x1024.Transposes [1, 0] S1024x512
  inb_S512x512_S512x512_0_0 : ∀ a, (![0, 0] : Fin 2 → Nat) a + S512x512.size a ≤ S512x512.size a
  h_S512x512 : 0 < S512x512.numel
  reduces_S512x512_S512 : S512x512.Reduces [1] S512
  shapeCasts_S512_S512x1 : S512.ShapeCasts S512x1
  packedbf16_S512x512_S512x512_0_0 : (Rect.unit (s := S512x512) ![0, 0] S512x512.size inb_S512x512_S512x512_0_0).PackedRows (EltTy.packing .bf16)
  broadcasts_S512x1_S512x1024 : S512x1.Broadcasts S512x1024
  shapeCasts_S512x512_S512x512 : S512x512.ShapeCasts S512x512
  dot_S512x1024_S1024x3072_S512x3072_1_0_0_1_n_n_wf : DotDims.WF S512x1024 S1024x3072 S512x3072 [1] [0] [0] [1] [] []
  dot_S512x1024_S1024x512_S512x512_1_0_0_1_n_n_wf : DotDims.WF S512x1024 S1024x512 S512x512 [1] [0] [0] [1] [] []
  dot_S512x512_S512x1024_S512x1024_1_0_0_1_n_n_wf : DotDims.WF S512x512 S512x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S4096x1024.size a
  hwx0_0 : ∀ i : grid0.Coords, EltTy.bits .f32 = 32 ∨ (Rect.block (s := S4096x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x3072.size a ≤ S1024x3072.size a
  hwx0_1 : ∀ i : grid0.Coords, EltTy.bits .bf16 = 32 ∨ (Rect.block (s := S1024x3072) S1024x3072.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x3072.size a ≤ S1x3072.size a
  hwx0_2 : ∀ i : grid0.Coords, EltTy.bits .f32 = 32 ∨ (Rect.block (s := S1x3072) S1x3072.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S4096x1024.size a
  hwx0_3 : ∀ i : grid0.Coords, EltTy.bits .bf16 = 32 ∨ (Rect.block (s := S4096x1024) S512x1024.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1024.size a ≤ S4096x1024.size a
  hwx0_4 : ∀ i : grid0.Coords, EltTy.bits .bf16 = 32 ∨ (Rect.block (s := S4096x1024) S512x1024.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x1024.size a ≤ S4096x1024.size a
  hwx0_5 : ∀ i : grid0.Coords, EltTy.bits .bf16 = 32 ∨ (Rect.block (s := S4096x1024) S512x1024.size (cc0_transform_5 i) (hinb0_5 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x1024.size a ≤ S4096x1024.size a
  hwx1_0 : ∀ i : grid1.Coords, EltTy.bits .bf16 = 32 ∨ (Rect.block (s := S4096x1024) S512x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x1024.size a ≤ S4096x1024.size a
  hwx1_1 : ∀ i : grid1.Coords, EltTy.bits .bf16 = 32 ∨ (Rect.block (s := S4096x1024) S512x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x1024.size a ≤ S4096x1024.size a
  hwx1_2 : ∀ i : grid1.Coords, EltTy.bits .bf16 = 32 ∨ (Rect.block (s := S4096x1024) S512x1024.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x512.size a ≤ S4096x4096.size a
  hwx1_3 : ∀ i : grid1.Coords, EltTy.bits .f32 = 32 ∨ (Rect.block (s := S4096x4096) S512x512.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S512x512.size a ≤ S4096x4096.size a
  hwx1_4 : ∀ i : grid1.Coords, EltTy.bits .bf16 = 32 ∨ (Rect.block (s := S4096x4096) S512x512.size (cc1_transform_4 i) (hinb1_4 i)).WholeWords (EltTy.packing .bf16)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S512x1024.size a ≤ S4096x1024.size a
  hwx1_5 : ∀ i : grid1.Coords, EltTy.bits .bf16 = 32 ∨ (Rect.block (s := S4096x1024) S512x1024.size (cc1_transform_5 i) (hinb1_5 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x512.size a ≤ S4096x4096.size a
  hwx2_0 : ∀ i : grid2.Coords, EltTy.bits .bf16 = 32 ∨ (Rect.block (s := S4096x4096) S512x512.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S512x1024.size a ≤ S4096x1024.size a
  hwx2_1 : ∀ i : grid2.Coords, EltTy.bits .bf16 = 32 ∨ (Rect.block (s := S4096x1024) S512x1024.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S512x1024.size a ≤ S4096x1024.size a
  hwx2_2 : ∀ i : grid2.Coords, EltTy.bits .f32 = 32 ∨ (Rect.block (s := S4096x1024) S512x1024.size (cc2_transform_2 i) (hinb2_2 i)).WholeWords (EltTy.packing .f32)

variable [Facts₀]

def dot_S512x1024_S1024x3072_S512x3072_1_0_0_1_n_n : DotDims S512x1024 S1024x3072 S512x3072 where
  lhsContracting := [1]
  rhsContracting := [0]
  lhsNonContracting := [0]
  rhsNonContracting := [1]
  lhsBatch := []
  rhsBatch := []
  wf := dot_S512x1024_S1024x3072_S512x3072_1_0_0_1_n_n_wf
def dot_S512x1024_S1024x512_S512x512_1_0_0_1_n_n : DotDims S512x1024 S1024x512 S512x512 where
  lhsContracting := [1]
  rhsContracting := [0]
  lhsNonContracting := [0]
  rhsNonContracting := [1]
  lhsBatch := []
  rhsBatch := []
  wf := dot_S512x1024_S1024x512_S512x512_1_0_0_1_n_n_wf
def dot_S512x512_S512x1024_S512x1024_1_0_0_1_n_n : DotDims S512x512 S512x1024 S512x1024 where
  lhsContracting := [1]
  rhsContracting := [0]
  lhsNonContracting := [0]
  rhsNonContracting := [1]
  lhsBatch := []
  rhsBatch := []
  wf := dot_S512x512_S512x1024_S512x1024_1_0_0_1_n_n_wf

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x3072.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x3072.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4_0) S512x1024.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4_1) S512x1024.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v4_2) S512x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v4_0) S512x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4_1) S512x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v4_2) S512x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg1) S512x512.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v5_0) S512x512.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v5_1) S512x1024.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev idle1 : Fin 6 → grid1.Coords → Bool := fun | 0 => fun _ => false | 1 => fun _ => false | 2 => fun _ => false | 3 => fun _ => false | 4 => fun _ => false | 5 => fun i => !(k1_cond2 i == 1#1) | ⟨_ + 6, h⟩ => absurd h (Nat.not_lt.2 (Nat.le_add_left _ _))

abbrev win2_0 : Pipeline.Window sig grid2 :=
  Pipeline.Window.ofSpec (Memref.whole main_v5_0) S512x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v5_1) S512x1024.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v6) S512x1024.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev idle2 : Fin 3 → grid2.Coords → Bool := fun | 0 => fun _ => false | 1 => fun _ => false | 2 => fun i => !(k2_cond2 i == 1#1) | ⟨_ + 3, h⟩ => absurd h (Nat.not_lt.2 (Nat.le_add_left _ _))

class Facts : Prop extends Facts₀ where

variable [Facts]
-- ==== ReferenceIdeal.lean ====
abbrev S4096x1024 : Shape := ⟨2, ![4096, 1024]⟩
abbrev S4096x4096 : Shape := ⟨2, ![4096, 4096]⟩
abbrev S1024x1024 : Shape := ⟨2, ![1024, 1024]⟩
abbrev S1024 : Shape := ⟨1, ![1024]⟩
abbrev S1x1024 : Shape := ⟨2, ![1, 1024]⟩
abbrev S1024x4096 : Shape := ⟨2, ![1024, 4096]⟩
abbrev S_ : Shape := ⟨0, ![]⟩
abbrev S4096 : Shape := ⟨1, ![4096]⟩
abbrev S1x4096 : Shape := ⟨2, ![1, 4096]⟩

abbrev nBuf : Space → Nat
  | .hbm => 33
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x4096, .f32⟩
  | .hbm, ⟨2, _⟩ => ⟨S1024x1024, .f32⟩
  | .hbm, ⟨3, _⟩ => ⟨S1024, .f32⟩
  | .hbm, ⟨4, _⟩ => ⟨S1024x1024, .f32⟩
  | .hbm, ⟨5, _⟩ => ⟨S1024, .f32⟩
  | .hbm, ⟨6, _⟩ => ⟨S1024x1024, .f32⟩
  | .hbm, ⟨7, _⟩ => ⟨S1024, .f32⟩
  | .hbm, ⟨8, _⟩ => ⟨S4096x1024, .f32⟩
  | .hbm, ⟨9, _⟩ => ⟨S1x1024, .f32⟩
  | .hbm, ⟨10, _⟩ => ⟨S4096x1024, .f32⟩
  | .hbm, ⟨11, _⟩ => ⟨S4096x1024, .f32⟩
  | .hbm, ⟨12, _⟩ => ⟨S4096x1024, .f32⟩
  | .hbm, ⟨13, _⟩ => ⟨S1x1024, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S1x1024, .f32⟩
  | .hbm, ⟨18, _⟩ => ⟨S4096x1024, .f32⟩
  | .hbm, ⟨19, _⟩ => ⟨S4096x1024, .f32⟩
  | .hbm, ⟨20, _⟩ => ⟨S1024x4096, .f32⟩
  | .hbm, ⟨21, _⟩ => ⟨S4096x4096, .f32⟩
  | .hbm, ⟨22, _⟩ => ⟨S_, .f32⟩
  | .hbm, ⟨23, _⟩ => ⟨S4096x4096, .f32⟩
  | .hbm, ⟨24, _⟩ => ⟨S4096x4096, .f32⟩
  | .hbm, ⟨25, _⟩ => ⟨S4096x4096, .f32⟩
  | .hbm, ⟨26, _⟩ => ⟨S4096x4096, .f32⟩
  | .hbm, ⟨27, _⟩ => ⟨S_, .f32⟩
  | .hbm, ⟨28, _⟩ => ⟨S4096, .f32⟩
  | .hbm, ⟨29, _⟩ => ⟨S1x4096, .f32⟩
  | .hbm, ⟨30, _⟩ => ⟨S4096x4096, .f32⟩
  | .hbm, ⟨31, _⟩ => ⟨S4096x4096, .f32⟩
  | .hbm, ⟨32, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_0 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩

abbrev nD : Nat := 1
abbrev τ : Topo := Topo.v7x

variable {F : FTy → Type} [FloatOps F]

class Facts₀ : Prop where
  bcast_S1024_S1x1024_1 : S1024.BroadcastsInDim S1x1024 (![1] : Fin 1 → Fin S1x1024.rank)
  bcast_S1x1024_S4096x1024_0_1 : S1x1024.BroadcastsInDim S4096x1024 (![0, 1] : Fin 2 → Fin S4096x1024.rank)
  transposes_S4096x1024_S1024x4096_1_0 : S4096x1024.Transposes [1, 0] S1024x4096
  bcast_S_S4096x4096 : S_.BroadcastsInDim S4096x4096 (![] : Fin 0 → Fin S4096x4096.rank)
  reducesTo_S4096x4096_S4096_d1 : S4096x4096.ReducesTo [1] S4096
  h_S_ : 0 < S_.numel
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  dot_S4096x1024_S1024x1024_S4096x1024_1_0_0_1_n_n_wf : DotDims.WF S4096x1024 S1024x1024 S4096x1024 [1] [0] [0] [1] [] []
  dot_S4096x1024_S1024x4096_S4096x4096_1_0_0_1_n_n_wf : DotDims.WF S4096x1024 S1024x4096 S4096x4096 [1] [0] [0] [1] [] []
  dot_S4096x4096_S4096x1024_S4096x1024_1_0_0_1_n_n_wf : DotDims.WF S4096x4096 S4096x1024 S4096x1024 [1] [0] [0] [1] [] []

variable [Facts₀]

def dot_S4096x1024_S1024x1024_S4096x1024_1_0_0_1_n_n : DotDims S4096x1024 S1024x1024 S4096x1024 where
  lhsContracting := [1]
  rhsContracting := [0]
  lhsNonContracting := [0]
  rhsNonContracting := [1]
  lhsBatch := []
  rhsBatch := []
  wf := dot_S4096x1024_S1024x1024_S4096x1024_1_0_0_1_n_n_wf
def dot_S4096x1024_S1024x4096_S4096x4096_1_0_0_1_n_n : DotDims S4096x1024 S1024x4096 S4096x4096 where
  lhsContracting := [1]
  rhsContracting := [0]
  lhsNonContracting := [0]
  rhsNonContracting := [1]
  lhsBatch := []
  rhsBatch := []
  wf := dot_S4096x1024_S1024x4096_S4096x4096_1_0_0_1_n_n_wf
def dot_S4096x4096_S4096x1024_S4096x1024_1_0_0_1_n_n : DotDims S4096x4096 S4096x1024 S4096x1024 where
  lhsContracting := [1]
  rhsContracting := [0]
  lhsNonContracting := [0]
  rhsNonContracting := [1]
  lhsBatch := []
  rhsBatch := []
  wf := dot_S4096x4096_S4096x1024_S4096x1024_1_0_0_1_n_n_wf

class Facts : Prop extends Facts₀ where

variable [Facts]
-- ==== Proof.KbR0Frame.lean ====
/-
  Region 0 of the kernel program — the fused projection x·[Wq | Wk | Wv] + [bq | bk | bv] — : its proof data and body
  obligation. The grid is the 8 row blocks of x; at each point the body multiplies the 512×1024 block of x by the whole
  1024×3072 weight, adds the bias row, and stores the three 1024-column slices of the result into the Q, K and V
  blocks. Nothing is kept between points, and every output block is a function of the point's input blocks alone.
-/
import proofs.«174378_j75565654606299_2_alg».proof.Proof.Gen.Kernel.Launch
import proofs.«174378_j75565654606299_2_alg».proof.Proof.Gen.Kernel.Skeleton
import proofs.«174378_j75565654606299_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Blocks
variable (V : (c : Dev nD) → (b : Ref sig .tc) → Buf (Elt F) ((c : Thread nD τ).loc b))

/-- Window `w`'s block at point `t`, read off its array as region 0 finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The x block (window 0) sits in its staging buffer at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The whole weight (window 1, one block) sits in its staging buffer at every point, fetched once. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The bias row (window 2, one block) sits in its staging buffer at every point, fetched once. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

end Blocks

/-! ## The body's accesses and what it leaves in each output's buffer -/

abbrev r0_x : Rect S512x1024 := Rect.unit (s := S512x1024) ![0, 0] S512x1024.size inb_S512x1024_S512x1024_0_0
abbrev r0_w : Rect S1024x3072 := Rect.unit (s := S1024x3072) ![0, 0] S1024x3072.size inb_S1024x3072_S1024x3072_0_0
abbrev r0_b : Rect S1x3072 := Rect.unit (s := S1x3072) ![0, 0] S1x3072.size inb_S1x3072_S1x3072_0_0

/-- The Q block's buffer after the body: its one store, the first 1024 columns of x·W + b. -/
def out0_3 (x0 : Vec F S512x1024 .f32) (x1 : Vec F S1024x3072 .bf16) (x2 : Vec F S1x3072 .f32) : Vec F S512x1024 .bf16 :=
  View.canon [⟨r0_x, k0_pay2 (View.ld x0 r0_x) (View.ld x1 r0_w) (View.ld x2 r0_b)⟩]
/-- The K block's buffer after the body: columns 1024 … 2047. -/
def out0_4 (x0 : Vec F S512x1024 .f32) (x1 : Vec F S1024x3072 .bf16) (x2 : Vec F S1x3072 .f32) : Vec F S512x1024 .bf16 :=
  View.canon [⟨r0_x, k0_pay3 (View.ld x0 r0_x) (View.ld x1 r0_w) (View.ld x2 r0_b)⟩]
/-- The V block's buffer after the body: columns 2048 … 3071. -/
def out0_5 (x0 : Vec F S512x1024 .f32) (x1 : Vec F S1024x3072 .bf16) (x2 : Vec F S1x3072 .f32) : Vec F S512x1024 .bf16 :=
  View.canon [⟨r0_x, k0_pay4 (View.ld x0 r0_x) (View.ld x1 r0_w) (View.ld x2 r0_b)⟩]

/-- One store of the whole block covers it. -/
theorem cover0_out (p0 : Vec F S512x1024 .bf16) (y : S512x1024.Idx) :
    ∃ pc ∈ ([⟨r0_x, p0⟩] : List (View.Piece (Elt F) S512x1024 .bf16)), y ∈ pc.1.set :=
  View.cover_of_tiled [⟨r0_x, p0⟩] S512x1024.size (by rfl) y

/-! ## The body's triple -/

set_option maxHeartbeats 2000000 in
theorem sound_kernel0 (c : Dev nD) (E : Set ℕ) (i : grid0.Coords) (arg1 : Memref sig .tc .vmem S512x1024 .f32) (harg1 : arg1.IsWhole) (arg2 : Memref sig .tc .vmem S1024x3072 .bf16) (harg2 : arg2.IsWhole) (arg3 : Memref sig .tc .vmem S1x3072 .f32) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S512x1024 .bf16) (harg6 : arg6.IsWhole)
    (x0 : Vec F S512x1024 .f32) (x1 : Vec F S1024x3072 .bf16) (x2 : Vec F S1x3072 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2) ∗ owns (c : Thread nD τ) arg5 fullShare (out0_4 x0 x1 x2) ∗ owns (c : Thread nD τ) arg6 fullShare (out0_5 x0 x1 x2)) -∗ K ⟨⟩))
      ⊢ wp frame (wpE (defs₀ (F := F)) Variants.none c none) E (cc0__qkv_kernel i arg1 harg1 arg2 harg2 arg3 harg3 arg4 harg4 arg5 harg5 arg6 harg6) K := by
  simp only [cc0__qkv_kernel_eq_skeleton]; unfold cc0__qkv_kernel_skel
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover0_out _)
  isplitl [H4]
  · iexists _; isplitr
    swap; · iexact H4
    ipureintro
    exact View.read_writes_eq_canon _ _ _ (cover0_out _)
  iexists _; isplitr
  swap; · iexact H5
  ipureintro
  exact View.read_writes_eq_canon _ _ _ (cover0_out _)

section Data
variable (V : (c : Dev nD) → (b : Ref sig .tc) → Buf (Elt F) ((c : Thread nD τ).loc b))

/-! ## The pipeline's proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
    | ⟨4, _⟩ => out0_4 (iblk0 V c 0 t) (iblk0 V c 1 t) (iblk0 V c 2 t)
    | ⟨5, _⟩ => out0_5 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]
theorem after0_4 (c : Dev nD) (t : Fin cfg0.N) : (dat0 V c).after 4 t = out0_4 (iblk0 V c 0 t) (iblk0 V c 1 t) (iblk0 V c 2 t) := by dsimp only [dat0]
theorem after0_5 (c : Dev nD) (t : Fin cfg0.N) : (dat0 V c).after 5 t = out0_5 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

set_option maxHeartbeats 2000000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ (grid0.coords t) _ _ _ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation0 (c : Dev nD) : BodyObligation (dat0 (F := F) V c) (defs₀ (F := F)) Variants.none () Set.univ := fun t => by
  rw [bigSep_W0, bigSep_W0]
  exact sound_body0 V c t

end Data

end Cert.Kernel.Hand

end
-- ==== Proof.KbR1Shared.lean ====
/-
  Region 1 of the kernel program — the weights e = exp(mask ⊙ Q·Kᵀ), their row sums, and Vs = V / row sums — : what its
  three case runs and its proof data share. The grid is 8 × 8 (query block qi, key block ki), point t = 8·qi + ki. The
  body resets its 512×1 column of row sums when ki = 0, stores the point's 512×512 block of weights, adds that block's
  row sums to the column, and when ki = 7 divides the query block's rows of V by the finished column and stores them.
  The Vs window's block index depends on qi only: it is written back at ki = 7 alone and idle at the other points.
-/
import proofs.«174378_j75565654606299_2_alg».proof.Proof.Gen.Kernel.Launch
import proofs.«174378_j75565654606299_2_alg».proof.Proof.Gen.Kernel.Skeleton
import proofs.«174378_j75565654606299_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Blocks
variable (V : (c : Dev nD) → (b : Ref sig .tc) → Buf (Elt F) ((c : Thread nD τ).loc b))

/-- Window `w`'s block at point `t`, read off its array as region 1 finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The Q block (window 0) sits in its staging buffer at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The K block (window 1) sits in its staging buffer at every point. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The V block (window 2) sits in its staging buffer at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The mask block (window 3) sits in its staging buffer at every point. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

end Blocks

/-! ## The two branch conditions, in closed form over the grid -/

/-- The first branch (reset the column of row sums): the key-block coordinate is 0. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 8 = 0 :=
  (by decide +kernel : ∀ t : Fin grid1.N, cond1_0 (grid1.coords t) ↔ t.val % 8 = 0)

/-- The second branch (divide V's rows and store them): the key-block coordinate is 7. -/
abbrev cond1_1 (i : grid1.Coords) : Prop := k1_cond2 i = 1#1
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
theorem idleAt1_5_A : ∀ t : Fin cfg1.N, cond1_0 (grid1.coords t) → ¬cond1_1 (grid1.coords t) → cfg1.idle 5 (grid1.coords t) = true := by decide +kernel
theorem noFlush1_5_A : ∀ t : Fin cfg1.N, cond1_0 (grid1.coords t) → ¬cond1_1 (grid1.coords t) → (cfg1.win 5).flush t = false := by decide +kernel
theorem idleAt1_5_B : ∀ t : Fin cfg1.N, ¬cond1_0 (grid1.coords t) → ¬cond1_1 (grid1.coords t) → cfg1.idle 5 (grid1.coords t) = true := by decide +kernel
theorem noFlush1_5_B : ∀ t : Fin cfg1.N, ¬cond1_0 (grid1.coords t) → ¬cond1_1 (grid1.coords t) → (cfg1.win 5).flush t = false := by decide +kernel
theorem liveAt1_5_C : ∀ t : Fin cfg1.N, ¬cond1_0 (grid1.coords t) → cond1_1 (grid1.coords t) → cfg1.idle 5 (grid1.coords t) = false := by decide +kernel

/-! ## The memrefs the body is called with -/

abbrev VO1_4 : View sig .tc .vmem S512x512 .bf16 := (Memref.whole cc1_stg4_0 : Memref sig .tc .vmem S512x512 .bf16).view
abbrev VO1_5 : View sig .tc .vmem S512x1024 .bf16 := (Memref.whole cc1_stg5_0 : Memref sig .tc .vmem S512x1024 .bf16).view
abbrev ms1_0 (t : Fin cfg1.N) : Memref sig .tc .vmem S512x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S512x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S512x1024 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S512x512 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S512x512 .bf16 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S512x1024 .bf16 := win1_5.stage (cfg1.slots t 5)
abbrev hs1_5 (t : Fin cfg1.N) : (ms1_5 t).IsWhole := hstage1_5 ((cfg1.slots t 5).cast nbuf1_5)
/-- The column of row sums: a whole scoped buffer of the kernel's own. -/
abbrev scM1_0 : Memref sig .tc .vmem S512x1 .f32 := Memref.whole cc1_scratch0
abbrev VS1_0 : View sig .tc .vmem S512x1 .f32 := scM1_0.view

/-- The core's other scoped buffers — the staging buffers and the scratch of the other two calls —, each at some
    contents: region 1 never touches them. -/
abbrev Rest1 (c : Dev nD) : sProp 𝕄 :=
  Pipeline.scopedRestBut (Ix := Unit) (Name := ℕ) (U := UR sig nD τ) (Lvl := ℕ) (Val := Elt F) spec1 c [cc1_scratch0]

/-- The class invariant with the column of row sums split off as a memref owned at some contents. -/
theorem PhiA1_eq (c : Dev nD) :
    (Pipeline.ΦA spec1 c : sProp 𝕄)
      = iprop(((∃ d, owns (c : Thread nD τ) scM1_0 fullShare d) ∗ Rest1 (F := F) c) ∗ (∃ r, prngReg c r)) := by
  unfold Pipeline.ΦA
  rw [Pipeline.scopedRest_split_of_list spec1 c [cc1_scratch0] (by decide) (by decide)]
  simp only [bigSepL_singleton, scM1_0, owns_whole]; try rfl

end Cert.Kernel.Hand

end
-- ==== Proof.KbR1Runs.lean ====
/-
  Region 1 of the kernel program: the body run whole in each of its three cases — ki = 0 (the column of row sums reset,
  the block of weights stored, its row sums added), 0 < ki < 7 (the same without the reset, over what the point before
  left), ki = 7 (the same, and then the query block's rows of V divided by the finished column and stored). Each run's
  witness is the list of pieces each buffer it stores into ends with.
-/
import proofs.«174378_j75565654606299_2_alg».proof.Proof.KbR1Shared

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- ki = 0: the Vs buffer is handed back untouched; the weights' buffer and the column, found at anything, end with their pieces. -/
noncomputable def kernelRun1_A (c : Dev nD) (i : grid1.Coords) (arg2 : Memref sig .tc .vmem S512x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x512 .f32) (harg5 : arg5.IsWhole) (arg6 : Memref sig .tc .vmem S512x512 .bf16) (harg6 : arg6.IsWhole) (arg7 : Memref sig .tc .vmem S512x1024 .bf16) (harg7 : arg7.IsWhole) (arg8 : Memref sig .tc .vmem S512x1 .f32) (harg8 : arg8.IsWhole) (hc0 : cond1_0 i) (hc1 : ¬cond1_1 i)
    (x0 : Vec F S512x1024 .bf16) (x1 : Vec F S512x1024 .bf16) (x2 : Vec F S512x1024 .bf16) (x3 : Vec F S512x512 .f32) :
    Σ' (L4 : List (View.Piece (Elt F) S512x512 .bf16)) (L5 : List (View.Piece (Elt F) S512x1024 .bf16)), { LS0 : List (View.Piece (Elt F) S512x1 .f32) //
      ∀ (xi5 : Vec F S512x1024 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xi5 ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ owns (c : Thread nD τ) arg7 fullShare xi5 ∗ (∃ f, arg8.view.loc (c : Thread nD τ) ↦[arg8.view.set]{fullShare} arg8.view.writes (Elt F) f LS0)) -∗ K ⟨⟩))
          ⊢ wp frame (wpE (defs₀ (F := F)) Variants.none c none) E (cc1__e_vs_kernel i arg2 harg2 arg3 harg3 arg4 harg4 arg5 harg5 arg6 harg6 arg7 harg7 arg8 harg8) K } := by
  refine ⟨?_, [], ?_, fun xi5 E K => ?run⟩
  case run =>
    simp only [cc1__e_vs_kernel_eq_skeleton]; unfold cc1__e_vs_kernel_skel
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%ds0, %fs0, -, HS0⟩, Hk⟩
    obtain rfl := harg2.eq_unread hf0; obtain rfl := harg3.eq_unread hf1; obtain rfl := harg4.eq_unread hf2; obtain rfl := harg5.eq_unread hf3; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]
    · iexists _; isplitr; · ipureintro; exact harg7.read_unread _
      iexact H5
    iexists _; iexact HS0

set_option maxHeartbeats 2000000 in
/-- 0 < ki < 7: the Vs buffer is handed back untouched; the column is found at what the point before left (`xs0`). -/
noncomputable def kernelRun1_B (c : Dev nD) (i : grid1.Coords) (arg2 : Memref sig .tc .vmem S512x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x512 .f32) (harg5 : arg5.IsWhole) (arg6 : Memref sig .tc .vmem S512x512 .bf16) (harg6 : arg6.IsWhole) (arg7 : Memref sig .tc .vmem S512x1024 .bf16) (harg7 : arg7.IsWhole) (arg8 : Memref sig .tc .vmem S512x1 .f32) (harg8 : arg8.IsWhole) (hc0 : ¬cond1_0 i) (hc1 : ¬cond1_1 i)
    (x0 : Vec F S512x1024 .bf16) (x1 : Vec F S512x1024 .bf16) (x2 : Vec F S512x1024 .bf16) (x3 : Vec F S512x512 .f32) (xs0 : Vec F S512x1 .f32) :
    Σ' (L4 : List (View.Piece (Elt F) S512x512 .bf16)) (L5 : List (View.Piece (Elt F) S512x1024 .bf16)), { LS0 : List (View.Piece (Elt F) S512x1 .f32) //
      ∀ (xi5 : Vec F S512x1024 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xi5 ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ owns (c : Thread nD τ) arg7 fullShare xi5 ∗ (∃ f, arg8.view.loc (c : Thread nD τ) ↦[arg8.view.set]{fullShare} arg8.view.writes (Elt F) f LS0)) -∗ K ⟨⟩))
          ⊢ wp frame (wpE (defs₀ (F := F)) Variants.none c none) E (cc1__e_vs_kernel i arg2 harg2 arg3 harg3 arg4 harg4 arg5 harg5 arg6 harg6 arg7 harg7 arg8 harg8) K } := by
  refine ⟨?_, [], ?_, fun xi5 E K => ?run⟩
  case run =>
    simp only [cc1__e_vs_kernel_eq_skeleton]; unfold cc1__e_vs_kernel_skel
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%fs0, %hfs0, HS0⟩, Hk⟩
    obtain rfl := harg2.eq_unread hf0; obtain rfl := harg3.eq_unread hf1; obtain rfl := harg4.eq_unread hf2; obtain rfl := harg5.eq_unread hf3; obtain rfl := harg7.eq_unread hf5; obtain rfl := harg8.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]
    · iexists _; isplitr; · ipureintro; exact harg7.read_unread _
      iexact H5
    iexists _; iexact HS0

set_option maxHeartbeats 2000000 in
/-- ki = 7: the weights' buffer, the Vs buffer (both found at anything) and the column (found at what the point before
    left) end with their pieces. -/
noncomputable def kernelRun1_C (c : Dev nD) (i : grid1.Coords) (arg2 : Memref sig .tc .vmem S512x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x512 .f32) (harg5 : arg5.IsWhole) (arg6 : Memref sig .tc .vmem S512x512 .bf16) (harg6 : arg6.IsWhole) (arg7 : Memref sig .tc .vmem S512x1024 .bf16) (harg7 : arg7.IsWhole) (arg8 : Memref sig .tc .vmem S512x1 .f32) (harg8 : arg8.IsWhole) (hc0 : ¬cond1_0 i) (hc1 : cond1_1 i)
    (x0 : Vec F S512x1024 .bf16) (x1 : Vec F S512x1024 .bf16) (x2 : Vec F S512x1024 .bf16) (x3 : Vec F S512x512 .f32) (xs0 : Vec F S512x1 .f32) :
    Σ' (L4 : List (View.Piece (Elt F) S512x512 .bf16)) (L5 : List (View.Piece (Elt F) S512x1024 .bf16)), { LS0 : List (View.Piece (Elt F) S512x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS0)) -∗ K ⟨⟩))
          ⊢ wp frame (wpE (defs₀ (F := F)) Variants.none c none) E (cc1__e_vs_kernel i arg2 harg2 arg3 harg3 arg4 harg4 arg5 harg5 arg6 harg6 arg7 harg7 arg8 harg8) K } := by
  refine ⟨?_, ?_, ?_, fun E K => ?run⟩
  case run =>
    simp only [cc1__e_vs_kernel_eq_skeleton]; unfold cc1__e_vs_kernel_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%fs0, %hfs0, HS0⟩, Hk⟩
    obtain rfl := harg2.eq_unread hf0; obtain rfl := harg3.eq_unread hf1; obtain rfl := harg4.eq_unread hf2; obtain rfl := harg5.eq_unread hf3; obtain rfl := harg8.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]; · iexists _; iexact H5
    iexists _; iexact HS0

end Cert.Kernel.Hand

end
-- ==== Proof.KbR1Frame.lean ====
/-
  Region 1 of the kernel program: what its two output blocks and its column of row sums hold after each grid point,
  the proof data of its pipeline, and the body obligation. After point t = 8·qi + ki the column holds, for each row of
  the query block, the sum of that row's weights over the key blocks 0 … ki, starting again from zero at every ki = 0;
  the block of weights is stored at every point, the block of Vs at ki = 7 only. The invariant between points carries
  the column at exactly those contents.
-/
import proofs.«174378_j75565654606299_2_alg».proof.Proof.KbR1Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each case leaves -/

theorem cover1_A_4 (c : Dev nD) (i : grid1.Coords) (arg2 : Memref sig .tc .vmem S512x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x512 .f32) (harg5 : arg5.IsWhole) (arg6 : Memref sig .tc .vmem S512x512 .bf16) (harg6 : arg6.IsWhole) (arg7 : Memref sig .tc .vmem S512x1024 .bf16) (harg7 : arg7.IsWhole) (arg8 : Memref sig .tc .vmem S512x1 .f32) (harg8 : arg8.IsWhole) (hc0 : cond1_0 i) (hc1 : ¬cond1_1 i)
    (x0 : Vec F S512x1024 .bf16) (x1 : Vec F S512x1024 .bf16) (x2 : Vec F S512x1024 .bf16) (x3 : Vec F S512x512 .f32) (y : S512x512.Idx) :
    ∃ pc ∈ (kernelRun1_A c i arg2 harg2 arg3 harg3 arg4 harg4 arg5 harg5 arg6 harg6 arg7 harg7 arg8 harg8 hc0 hc1 x0 x1 x2 x3).1, y ∈ pc.1.set :=
  View.cover_of_tiledL (kernelRun1_A c i arg2 harg2 arg3 harg3 arg4 harg4 arg5 harg5 arg6 harg6 arg7 harg7 arg8 harg8 hc0 hc1 x0 x1 x2 x3).1 S512x512.size (by sl_kernel_rfl) y

/-- What case A leaves in the weights' staging buffer. -/
def out1_A_4 (c : Dev nD) (i : grid1.Coords) (arg2 : Memref sig .tc .vmem S512x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x512 .f32) (harg5 : arg5.IsWhole) (arg6 : Memref sig .tc .vmem S512x512 .bf16) (harg6 : arg6.IsWhole) (arg7 : Memref sig .tc .vmem S512x1024 .bf16) (harg7 : arg7.IsWhole) (arg8 : Memref sig .tc .vmem S512x1 .f32) (harg8 : arg8.IsWhole) (hc0 : cond1_0 i) (hc1 : ¬cond1_1 i)
    (x0 : Vec F S512x1024 .bf16) (x1 : Vec F S512x1024 .bf16) (x2 : Vec F S512x1024 .bf16) (x3 : Vec F S512x512 .f32) : Vec F S512x512 .bf16 :=
  VO1_4.read (Elt F) (VO1_4.writes (Elt F) VO1_4.junk (kernelRun1_A c i arg2 harg2 arg3 harg3 arg4 harg4 arg5 harg5 arg6 harg6 arg7 harg7 arg8 harg8 hc0 hc1 x0 x1 x2 x3).1)

/-- What case A leaves in the Vs staging buffer (nothing is stored: a placeholder nothing consults, the window being idle there). -/
def out1_A_5 (c : Dev nD) (i : grid1.Coords) (arg2 : Memref sig .tc .vmem S512x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x512 .f32) (harg5 : arg5.IsWhole) (arg6 : Memref sig .tc .vmem S512x512 .bf16) (harg6 : arg6.IsWhole) (arg7 : Memref sig .tc .vmem S512x1024 .bf16) (harg7 : arg7.IsWhole) (arg8 : Memref sig .tc .vmem S512x1 .f32) (harg8 : arg8.IsWhole) (hc0 : cond1_0 i) (hc1 : ¬cond1_1 i)
    (x0 : Vec F S512x1024 .bf16) (x1 : Vec F S512x1024 .bf16) (x2 : Vec F S512x1024 .bf16) (x3 : Vec F S512x512 .f32) : Vec F S512x1024 .bf16 :=
  VO1_5.read (Elt F) (VO1_5.writes (Elt F) VO1_5.junk (kernelRun1_A c i arg2 harg2 arg3 harg3 arg4 harg4 arg5 harg5 arg6 harg6 arg7 harg7 arg8 harg8 hc0 hc1 x0 x1 x2 x3).2.1)

theorem scover1_A_0 (c : Dev nD) (i : grid1.Coords) (arg2 : Memref sig .tc .vmem S512x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x512 .f32) (harg5 : arg5.IsWhole) (arg6 : Memref sig .tc .vmem S512x512 .bf16) (harg6 : arg6.IsWhole) (arg7 : Memref sig .tc .vmem S512x1024 .bf16) (harg7 : arg7.IsWhole) (arg8 : Memref sig .tc .vmem S512x1 .f32) (harg8 : arg8.IsWhole) (hc0 : cond1_0 i) (hc1 : ¬cond1_1 i)
    (x0 : Vec F S512x1024 .bf16) (x1 : Vec F S512x1024 .bf16) (x2 : Vec F S512x1024 .bf16) (x3 : Vec F S512x512 .f32) (y : S512x1.Idx) :
    ∃ pc ∈ (kernelRun1_A c i arg2 harg2 arg3 harg3 arg4 harg4 arg5 harg5 arg6 harg6 arg7 harg7 arg8 harg8 hc0 hc1 x0 x1 x2 x3).2.2.1, y ∈ pc.1.set :=
  View.cover_of_tiledL (kernelRun1_A c i arg2 harg2 arg3 harg3 arg4 harg4 arg5 harg5 arg6 harg6 arg7 harg7 arg8 harg8 hc0 hc1 x0 x1 x2 x3).2.2.1 S512x1.size (by sl_kernel_rfl) y

/-- What case A leaves in the column of row sums. -/
def sout1_A_0 (c : Dev nD) (i : grid1.Coords) (arg2 : Memref sig .tc .vmem S512x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x512 .f32) (harg5 : arg5.IsWhole) (arg6 : Memref sig .tc .vmem S512x512 .bf16) (harg6 : arg6.IsWhole) (arg7 : Memref sig .tc .vmem S512x1024 .bf16) (harg7 : arg7.IsWhole) (arg8 : Memref sig .tc .vmem S512x1 .f32) (harg8 : arg8.IsWhole) (hc0 : cond1_0 i) (hc1 : ¬cond1_1 i)
    (x0 : Vec F S512x1024 .bf16) (x1 : Vec F S512x1024 .bf16) (x2 : Vec F S512x1024 .bf16) (x3 : Vec F S512x512 .f32) : Vec F S512x1 .f32 :=
  VS1_0.read (Elt F) (VS1_0.writes (Elt F) VS1_0.junk (kernelRun1_A c i arg2 harg2 arg3 harg3 arg4 harg4 arg5 harg5 arg6 harg6 arg7 harg7 arg8 harg8 hc0 hc1 x0 x1 x2 x3).2.2.1)

theorem cover1_B_4 (c : Dev nD) (i : grid1.Coords) (arg2 : Memref sig .tc .vmem S512x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x512 .f32) (harg5 : arg5.IsWhole) (arg6 : Memref sig .tc .vmem S512x512 .bf16) (harg6 : arg6.IsWhole) (arg7 : Memref sig .tc .vmem S512x1024 .bf16) (harg7 : arg7.IsWhole) (arg8 : Memref sig .tc .vmem S512x1 .f32) (harg8 : arg8.IsWhole) (hc0 : ¬cond1_0 i) (hc1 : ¬cond1_1 i)
    (x0 : Vec F S512x1024 .bf16) (x1 : Vec F S512x1024 .bf16) (x2 : Vec F S512x1024 .bf16) (x3 : Vec F S512x512 .f32) (xs0 : Vec F S512x1 .f32) (y : S512x512.Idx) :
    ∃ pc ∈ (kernelRun1_B c i arg2 harg2 arg3 harg3 arg4 harg4 arg5 harg5 arg6 harg6 arg7 harg7 arg8 harg8 hc0 hc1 x0 x1 x2 x3 xs0).1, y ∈ pc.1.set :=
  View.cover_of_tiledL (kernelRun1_B c i arg2 harg2 arg3 harg3 arg4 harg4 arg5 harg5 arg6 harg6 arg7 harg7 arg8 harg8 hc0 hc1 x0 x1 x2 x3 xs0).1 S512x512.size (by sl_kernel_rfl) y

/-- What case B leaves in the weights' staging buffer. -/
def out1_B_4 (c : Dev nD) (i : grid1.Coords) (arg2 : Memref sig .tc .vmem S512x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x512 .f32) (harg5 : arg5.IsWhole) (arg6 : Memref sig .tc .vmem S512x512 .bf16) (harg6 : arg6.IsWhole) (arg7 : Memref sig .tc .vmem S512x1024 .bf16) (harg7 : arg7.IsWhole) (arg8 : Memref sig .tc .vmem S512x1 .f32) (harg8 : arg8.IsWhole) (hc0 : ¬cond1_0 i) (hc1 : ¬cond1_1 i)
    (x0 : Vec F S512x1024 .bf16) (x1 : Vec F S512x1024 .bf16) (x2 : Vec F S512x1024 .bf16) (x3 : Vec F S512x512 .f32) (xs0 : Vec F S512x1 .f32) : Vec F S512x512 .bf16 :=
  VO1_4.read (Elt F) (VO1_4.writes (Elt F) VO1_4.junk (kernelRun1_B c i arg2 harg2 arg3 harg3 arg4 harg4 arg5 harg5 arg6 harg6 arg7 harg7 arg8 harg8 hc0 hc1 x0 x1 x2 x3 xs0).1)

/-- What case B leaves in the Vs staging buffer (nothing is stored: a placeholder nothing consults, the window being idle there). -/
def out1_B_5 (c : Dev nD) (i : grid1.Coords) (arg2 : Memref sig .tc .vmem S512x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x512 .f32) (harg5 : arg5.IsWhole) (arg6 : Memref sig .tc .vmem S512x512 .bf16) (harg6 : arg6.IsWhole) (arg7 : Memref sig .tc .vmem S512x1024 .bf16) (harg7 : arg7.IsWhole) (arg8 : Memref sig .tc .vmem S512x1 .f32) (harg8 : arg8.IsWhole) (hc0 : ¬cond1_0 i) (hc1 : ¬cond1_1 i)
    (x0 : Vec F S512x1024 .bf16) (x1 : Vec F S512x1024 .bf16) (x2 : Vec F S512x1024 .bf16) (x3 : Vec F S512x512 .f32) (xs0 : Vec F S512x1 .f32) : Vec F S512x1024 .bf16 :=
  VO1_5.read (Elt F) (VO1_5.writes (Elt F) VO1_5.junk (kernelRun1_B c i arg2 harg2 arg3 harg3 arg4 harg4 arg5 harg5 arg6 harg6 arg7 harg7 arg8 harg8 hc0 hc1 x0 x1 x2 x3 xs0).2.1)

theorem scover1_B_0 (c : Dev nD) (i : grid1.Coords) (arg2 : Memref sig .tc .vmem S512x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x512 .f32) (harg5 : arg5.IsWhole) (arg6 : Memref sig .tc .vmem S512x512 .bf16) (harg6 : arg6.IsWhole) (arg7 : Memref sig .tc .vmem S512x1024 .bf16) (harg7 : arg7.IsWhole) (arg8 : Memref sig .tc .vmem S512x1 .f32) (harg8 : arg8.IsWhole) (hc0 : ¬cond1_0 i) (hc1 : ¬cond1_1 i)
    (x0 : Vec F S512x1024 .bf16) (x1 : Vec F S512x1024 .bf16) (x2 : Vec F S512x1024 .bf16) (x3 : Vec F S512x512 .f32) (xs0 : Vec F S512x1 .f32) (y : S512x1.Idx) :
    ∃ pc ∈ (kernelRun1_B c i arg2 harg2 arg3 harg3 arg4 harg4 arg5 harg5 arg6 harg6 arg7 harg7 arg8 harg8 hc0 hc1 x0 x1 x2 x3 xs0).2.2.1, y ∈ pc.1.set :=
  View.cover_of_tiledL (kernelRun1_B c i arg2 harg2 arg3 harg3 arg4 harg4 arg5 harg5 arg6 harg6 arg7 harg7 arg8 harg8 hc0 hc1 x0 x1 x2 x3 xs0).2.2.1 S512x1.size (by sl_kernel_rfl) y

/-- What case B leaves in the column of row sums. -/
def sout1_B_0 (c : Dev nD) (i : grid1.Coords) (arg2 : Memref sig .tc .vmem S512x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x512 .f32) (harg5 : arg5.IsWhole) (arg6 : Memref sig .tc .vmem S512x512 .bf16) (harg6 : arg6.IsWhole) (arg7 : Memref sig .tc .vmem S512x1024 .bf16) (harg7 : arg7.IsWhole) (arg8 : Memref sig .tc .vmem S512x1 .f32) (harg8 : arg8.IsWhole) (hc0 : ¬cond1_0 i) (hc1 : ¬cond1_1 i)
    (x0 : Vec F S512x1024 .bf16) (x1 : Vec F S512x1024 .bf16) (x2 : Vec F S512x1024 .bf16) (x3 : Vec F S512x512 .f32) (xs0 : Vec F S512x1 .f32) : Vec F S512x1 .f32 :=
  VS1_0.read (Elt F) (VS1_0.writes (Elt F) VS1_0.junk (kernelRun1_B c i arg2 harg2 arg3 harg3 arg4 harg4 arg5 harg5 arg6 harg6 arg7 harg7 arg8 harg8 hc0 hc1 x0 x1 x2 x3 xs0).2.2.1)

theorem cover1_C_4 (c : Dev nD) (i : grid1.Coords) (arg2 : Memref sig .tc .vmem S512x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x512 .f32) (harg5 : arg5.IsWhole) (arg6 : Memref sig .tc .vmem S512x512 .bf16) (harg6 : arg6.IsWhole) (arg7 : Memref sig .tc .vmem S512x1024 .bf16) (harg7 : arg7.IsWhole) (arg8 : Memref sig .tc .vmem S512x1 .f32) (harg8 : arg8.IsWhole) (hc0 : ¬cond1_0 i) (hc1 : cond1_1 i)
    (x0 : Vec F S512x1024 .bf16) (x1 : Vec F S512x1024 .bf16) (x2 : Vec F S512x1024 .bf16) (x3 : Vec F S512x512 .f32) (xs0 : Vec F S512x1 .f32) (y : S512x512.Idx) :
    ∃ pc ∈ (kernelRun1_C c i arg2 harg2 arg3 harg3 arg4 harg4 arg5 harg5 arg6 harg6 arg7 harg7 arg8 harg8 hc0 hc1 x0 x1 x2 x3 xs0).1, y ∈ pc.1.set :=
  View.cover_of_tiledL (kernelRun1_C c i arg2 harg2 arg3 harg3 arg4 harg4 arg5 harg5 arg6 harg6 arg7 harg7 arg8 harg8 hc0 hc1 x0 x1 x2 x3 xs0).1 S512x512.size (by sl_kernel_rfl) y

/-- What case C leaves in the weights' staging buffer. -/
def out1_C_4 (c : Dev nD) (i : grid1.Coords) (arg2 : Memref sig .tc .vmem S512x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x512 .f32) (harg5 : arg5.IsWhole) (arg6 : Memref sig .tc .vmem S512x512 .bf16) (harg6 : arg6.IsWhole) (arg7 : Memref sig .tc .vmem S512x1024 .bf16) (harg7 : arg7.IsWhole) (arg8 : Memref sig .tc .vmem S512x1 .f32) (harg8 : arg8.IsWhole) (hc0 : ¬cond1_0 i) (hc1 : cond1_1 i)
    (x0 : Vec F S512x1024 .bf16) (x1 : Vec F S512x1024 .bf16) (x2 : Vec F S512x1024 .bf16) (x3 : Vec F S512x512 .f32) (xs0 : Vec F S512x1 .f32) : Vec F S512x512 .bf16 :=
  VO1_4.read (Elt F) (VO1_4.writes (Elt F) VO1_4.junk (kernelRun1_C c i arg2 harg2 arg3 harg3 arg4 harg4 arg5 harg5 arg6 harg6 arg7 harg7 arg8 harg8 hc0 hc1 x0 x1 x2 x3 xs0).1)

theorem cover1_C_5 (c : Dev nD) (i : grid1.Coords) (arg2 : Memref sig .tc .vmem S512x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x512 .f32) (harg5 : arg5.IsWhole) (arg6 : Memref sig .tc .vmem S512x512 .bf16) (harg6 : arg6.IsWhole) (arg7 : Memref sig .tc .vmem S512x1024 .bf16) (harg7 : arg7.IsWhole) (arg8 : Memref sig .tc .vmem S512x1 .f32) (harg8 : arg8.IsWhole) (hc0 : ¬cond1_0 i) (hc1 : cond1_1 i)
    (x0 : Vec F S512x1024 .bf16) (x1 : Vec F S512x1024 .bf16) (x2 : Vec F S512x1024 .bf16) (x3 : Vec F S512x512 .f32) (xs0 : Vec F S512x1 .f32) (y : S512x1024.Idx) :
    ∃ pc ∈ (kernelRun1_C c i arg2 harg2 arg3 harg3 arg4 harg4 arg5 harg5 arg6 harg6 arg7 harg7 arg8 harg8 hc0 hc1 x0 x1 x2 x3 xs0).2.1, y ∈ pc.1.set :=
  View.cover_of_tiledL (kernelRun1_C c i arg2 harg2 arg3 harg3 arg4 harg4 arg5 harg5 arg6 harg6 arg7 harg7 arg8 harg8 hc0 hc1 x0 x1 x2 x3 xs0).2.1 S512x1024.size (by sl_kernel_rfl) y

/-- What case C leaves in the Vs staging buffer. -/
def out1_C_5 (c : Dev nD) (i : grid1.Coords) (arg2 : Memref sig .tc .vmem S512x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x512 .f32) (harg5 : arg5.IsWhole) (arg6 : Memref sig .tc .vmem S512x512 .bf16) (harg6 : arg6.IsWhole) (arg7 : Memref sig .tc .vmem S512x1024 .bf16) (harg7 : arg7.IsWhole) (arg8 : Memref sig .tc .vmem S512x1 .f32) (harg8 : arg8.IsWhole) (hc0 : ¬cond1_0 i) (hc1 : cond1_1 i)
    (x0 : Vec F S512x1024 .bf16) (x1 : Vec F S512x1024 .bf16) (x2 : Vec F S512x1024 .bf16) (x3 : Vec F S512x512 .f32) (xs0 : Vec F S512x1 .f32) : Vec F S512x1024 .bf16 :=
  VO1_5.read (Elt F) (VO1_5.writes (Elt F) VO1_5.junk (kernelRun1_C c i arg2 harg2 arg3 harg3 arg4 harg4 arg5 harg5 arg6 harg6 arg7 harg7 arg8 harg8 hc0 hc1 x0 x1 x2 x3 xs0).2.1)

theorem scover1_C_0 (c : Dev nD) (i : grid1.Coords) (arg2 : Memref sig .tc .vmem S512x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x512 .f32) (harg5 : arg5.IsWhole) (arg6 : Memref sig .tc .vmem S512x512 .bf16) (harg6 : arg6.IsWhole) (arg7 : Memref sig .tc .vmem S512x1024 .bf16) (harg7 : arg7.IsWhole) (arg8 : Memref sig .tc .vmem S512x1 .f32) (harg8 : arg8.IsWhole) (hc0 : ¬cond1_0 i) (hc1 : cond1_1 i)
    (x0 : Vec F S512x1024 .bf16) (x1 : Vec F S512x1024 .bf16) (x2 : Vec F S512x1024 .bf16) (x3 : Vec F S512x512 .f32) (xs0 : Vec F S512x1 .f32) (y : S512x1.Idx) :
    ∃ pc ∈ (kernelRun1_C c i arg2 harg2 arg3 harg3 arg4 harg4 arg5 harg5 arg6 harg6 arg7 harg7 arg8 harg8 hc0 hc1 x0 x1 x2 x3 xs0).2.2.1, y ∈ pc.1.set :=
  View.cover_of_tiledL (kernelRun1_C c i arg2 harg2 arg3 harg3 arg4 harg4 arg5 harg5 arg6 harg6 arg7 harg7 arg8 harg8 hc0 hc1 x0 x1 x2 x3 xs0).2.2.1 S512x1.size (by sl_kernel_rfl) y

/-- What case C leaves in the column of row sums. -/
def sout1_C_0 (c : Dev nD) (i : grid1.Coords) (arg2 : Memref sig .tc .vmem S512x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x512 .f32) (harg5 : arg5.IsWhole) (arg6 : Memref sig .tc .vmem S512x512 .bf16) (harg6 : arg6.IsWhole) (arg7 : Memref sig .tc .vmem S512x1024 .bf16) (harg7 : arg7.IsWhole) (arg8 : Memref sig .tc .vmem S512x1 .f32) (harg8 : arg8.IsWhole) (hc0 : ¬cond1_0 i) (hc1 : cond1_1 i)
    (x0 : Vec F S512x1024 .bf16) (x1 : Vec F S512x1024 .bf16) (x2 : Vec F S512x1024 .bf16) (x3 : Vec F S512x512 .f32) (xs0 : Vec F S512x1 .f32) : Vec F S512x1 .f32 :=
  VS1_0.read (Elt F) (VS1_0.writes (Elt F) VS1_0.junk (kernelRun1_C c i arg2 harg2 arg3 harg3 arg4 harg4 arg5 harg5 arg6 harg6 arg7 harg7 arg8 harg8 hc0 hc1 x0 x1 x2 x3 xs0).2.2.1)

section Data
variable (V : (c : Dev nD) → (b : Ref sig .tc) → Buf (Elt F) ((c : Thread nD τ).loc b))

/-! ## Point by point -/

theorem notC1_of_A (t : Fin cfg1.N) (h0 : t.val % 8 = 0) : ¬cond1_1 (grid1.coords t) := fun h => by
  have := (hcond1_1 t).mp h; omega

/-- What a point with ki = 0 leaves: (weights buffer, Vs buffer, column). -/
def point1A (c : Dev nD) (t : Fin cfg1.N) (h0 : t.val % 8 = 0) : Vec F S512x512 .bf16 × Vec F S512x1024 .bf16 × Vec F S512x1 .f32 :=
  (out1_A_4 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) ((hcond1_0 t).mpr h0) (notC1_of_A t h0) (iblk1 V c 0 t) (iblk1 V c 1 t) (iblk1 V c 2 t) (iblk1 V c 3 t),
   out1_A_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) ((hcond1_0 t).mpr h0) (notC1_of_A t h0) (iblk1 V c 0 t) (iblk1 V c 1 t) (iblk1 V c 2 t) (iblk1 V c 3 t),
   sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) ((hcond1_0 t).mpr h0) (notC1_of_A t h0) (iblk1 V c 0 t) (iblk1 V c 1 t) (iblk1 V c 2 t) (iblk1 V c 3 t))

/-- What a point with 0 < ki < 7 leaves, given the column the point before left. -/
def point1B (c : Dev nD) (t : Fin cfg1.N) (h0 : ¬t.val % 8 = 0) (h1 : ¬t.val % 8 = 7) (xs : Vec F S512x1 .f32) : Vec F S512x512 .bf16 × Vec F S512x1024 .bf16 × Vec F S512x1 .f32 :=
  (out1_B_4 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) (fun h => h1 ((hcond1_1 t).mp h)) (iblk1 V c 0 t) (iblk1 V c 1 t) (iblk1 V c 2 t) (iblk1 V c 3 t) xs,
   out1_B_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) (fun h => h1 ((hcond1_1 t).mp h)) (iblk1 V c 0 t) (iblk1 V c 1 t) (iblk1 V c 2 t) (iblk1 V c 3 t) xs,
   sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) (fun h => h1 ((hcond1_1 t).mp h)) (iblk1 V c 0 t) (iblk1 V c 1 t) (iblk1 V c 2 t) (iblk1 V c 3 t) xs)

/-- What a point with ki = 7 leaves, given the column the point before left. -/
def point1C (c : Dev nD) (t : Fin cfg1.N) (h0 : ¬t.val % 8 = 0) (h1 : t.val % 8 = 7) (xs : Vec F S512x1 .f32) : Vec F S512x512 .bf16 × Vec F S512x1024 .bf16 × Vec F S512x1 .f32 :=
  (out1_C_4 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) ((hcond1_1 t).mpr h1) (iblk1 V c 0 t) (iblk1 V c 1 t) (iblk1 V c 2 t) (iblk1 V c 3 t) xs,
   out1_C_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) ((hcond1_1 t).mpr h1) (iblk1 V c 0 t) (iblk1 V c 1 t) (iblk1 V c 2 t) (iblk1 V c 3 t) xs,
   sout1_C_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) ((hcond1_1 t).mpr h1) (iblk1 V c 0 t) (iblk1 V c 1 t) (iblk1 V c 2 t) (iblk1 V c 3 t) xs)

/-- THE ACCUMULATION: what the two output buffers and the column hold after the body at position `n`. -/
def outsAt1 (c : Dev nD) : (n : ℕ) → n < cfg1.N → Vec F S512x512 .bf16 × Vec F S512x1024 .bf16 × Vec F S512x1 .f32
  | 0, hn => point1A V c ⟨0, hn⟩ (Nat.zero_mod _)
  | n + 1, hn =>
    if h0 : (n + 1) % 8 = 0 then point1A V c ⟨n + 1, hn⟩ h0
    else if h1 : (n + 1) % 8 = 7 then point1C V c ⟨n + 1, hn⟩ h0 h1 (outsAt1 c n (Nat.lt_of_succ_lt hn)).2.2
    else point1B V c ⟨n + 1, hn⟩ h0 h1 (outsAt1 c n (Nat.lt_of_succ_lt hn)).2.2

theorem outsAt1_A (c : Dev nD) (t : Fin cfg1.N) (h0 : t.val % 8 = 0) :
    outsAt1 V c t.val t.isLt = point1A V c t h0 := by
  obtain ⟨n, hn⟩ := t
  cases n with
  | zero => rfl
  | succ n => exact dif_pos h0

theorem outsAt1_B (c : Dev nD) (t : Fin cfg1.N) (h0 : ¬t.val % 8 = 0) (h1 : ¬t.val % 8 = 7) :
    outsAt1 V c t.val t.isLt = point1B V c t h0 h1 (outsAt1 V c (t.val - 1) (Nat.lt_of_le_of_lt (Nat.sub_le _ _) t.isLt)).2.2 := by
  obtain ⟨n, hn⟩ := t
  cases n with
  | zero => exact absurd (Nat.zero_mod _) h0
  | succ n => exact (dif_neg h0).trans (dif_neg h1)

theorem outsAt1_C (c : Dev nD) (t : Fin cfg1.N) (h0 : ¬t.val % 8 = 0) (h1 : t.val % 8 = 7) :
    outsAt1 V c t.val t.isLt = point1C V c t h0 h1 (outsAt1 V c (t.val - 1) (Nat.lt_of_le_of_lt (Nat.sub_le _ _) t.isLt)).2.2 := by
  obtain ⟨n, hn⟩ := t
  cases n with
  | zero => exact absurd (Nat.zero_mod _) h0
  | succ n => exact (dif_neg h0).trans (dif_pos h1)

/-! ## The invariant between points -/

def PhiS1 (c : Dev nD) : (n : ℕ) → n ≤ cfg1.N → sProp 𝕄
  | 0, _ => Pipeline.ΦA spec1 c
  | n + 1, hn => iprop((owns (c : Thread nD τ) scM1_0 fullShare ((outsAt1 V c n hn).2.2) ∗ Rest1 (F := F) c) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop((owns (c : Thread nD τ) scM1_0 fullShare ((outsAt1 V c n hn).2.2) ∗ Rest1 (F := F) c) ∗ (∃ r, prngReg c r)) := rfl

theorem PhiS1_pos (c : Dev nD) (n : ℕ) (h : n ≤ cfg1.N) (hz : n ≠ 0) :
    PhiS1 V c n h = iprop((owns (c : Thread nD τ) scM1_0 fullShare ((outsAt1 V c (n - 1) (by omega)).2.2) ∗ Rest1 (F := F) c) ∗ (∃ r, prngReg c r)) := by
  cases n with
  | zero => exact absurd rfl hz
  | succ n => rfl

/-! ## The pipeline's proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
    | ⟨5, _⟩ => (outsAt1 V c t.val t.isLt).2.1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t.val t.isLt).1 := by dsimp only [dat1]
theorem after1_5 (c : Dev nD) (t : Fin cfg1.N) : (dat1 V c).after 5 t = (outsAt1 V c t.val t.isLt).2.1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)

set_option maxHeartbeats 6400000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t], after1_4]
  have hN : t.val < 64 := lt_of_lt_of_eq t.isLt (show cfg1.N = 64 from N_1)
  by_cases h0 : t.val % 8 = 0
  · rw [Dat.leavesExact_idle (dat1 V c) 5 t (idleAt1_5_A t ((hcond1_0 t).mpr h0) (notC1_of_A t h0)) (noFlush1_5_A t ((hcond1_0 t).mpr h0) (notC1_of_A t h0))]
    rw [outsAt1_A V c t h0]
    unfold point1A out1_A_4 sout1_A_0; (try dsimp only)
    by_cases hz : t.val = 0
    · rw [PhiS1_castSucc V c t, PhiS1_zero V c _ _ hz, PhiA1_eq]
      iintro ⟨⟨⟨HS0, HR⟩, Hg⟩, Ho, ⟨%d0, H0⟩, ⟨%d1, H1⟩, ⟨%d2, H2⟩, ⟨%d3, H3⟩, ⟨%d4, H4⟩, ⟨%d5, H5⟩⟩
      iapply ((kernelRun1_A c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) ((hcond1_0 t).mpr h0) (notC1_of_A t h0) (iblk1 V c 0 t) (iblk1 V c 1 t) (iblk1 V c 2 t) (iblk1 V c 3 t)).2.2.2 _ Set.univ _)
      isplitl [H0]; · iexact H0
      isplitl [H1]; · iexact H1
      isplitl [H2]; · iexact H2
      isplitl [H3]; · iexact H3
      isplitl [H4]; · iexists _; iexact H4
      isplitl [H5]; · iexact H5
      isplitl [HS0]; · iexact HS0
      iintro ⟨H0, H1, H2, H3, ⟨%e4, H4⟩, H5, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover1_A_0 c _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover1_A_4 c _ _ _ _ _ _ _ _ _ _ _ _ _ _ _ _ _ _ _ _ _)
      iexists _; iexact H5
    · rw [PhiS1_castSucc V c t, PhiS1_pos V c _ _ hz]
      iintro ⟨⟨⟨HS0, HR⟩, Hg⟩, Ho, ⟨%d0, H0⟩, ⟨%d1, H1⟩, ⟨%d2, H2⟩, ⟨%d3, H3⟩, ⟨%d4, H4⟩, ⟨%d5, H5⟩⟩
      iapply ((kernelRun1_A c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) ((hcond1_0 t).mpr h0) (notC1_of_A t h0) (iblk1 V c 0 t) (iblk1 V c 1 t) (iblk1 V c 2 t) (iblk1 V c 3 t)).2.2.2 _ Set.univ _)
      isplitl [H0]; · iexact H0
      isplitl [H1]; · iexact H1
      isplitl [H2]; · iexact H2
      isplitl [H3]; · iexact H3
      isplitl [H4]; · iexists _; iexact H4
      isplitl [H5]; · iexact H5
      isplitl [HS0]; · iexists _; iexact HS0
      iintro ⟨H0, H1, H2, H3, ⟨%e4, H4⟩, H5, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover1_A_0 c _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover1_A_4 c _ _ _ _ _ _ _ _ _ _ _ _ _ _ _ _ _ _ _ _ _)
      iexists _; iexact H5
  · have hz : t.val ≠ 0 := fun e => h0 (by rw [e])
    by_cases h1 : t.val % 8 = 7
    · rw [show (dat1 V c).leavesExact 5 t = owns (c : Thread nD τ) (ms1_5 t) fullShare ((dat1 V c).after 5 t) from by
        unfold Dat.leavesExact; rw [liveAt1_5_C t (fun h => h0 ((hcond1_0 t).mp h)) ((hcond1_1 t).mpr h1)], after1_5]
      rw [outsAt1_C V c t h0 h1]
      unfold point1C out1_C_4 out1_C_5 sout1_C_0; (try dsimp only)
      rw [PhiS1_castSucc V c t, PhiS1_pos V c _ _ hz]
      iintro ⟨⟨⟨HS0, HR⟩, Hg⟩, Ho, ⟨%d0, H0⟩, ⟨%d1, H1⟩, ⟨%d2, H2⟩, ⟨%d3, H3⟩, ⟨%d4, H4⟩, ⟨%d5, H5⟩⟩
      iapply ((kernelRun1_C c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) ((hcond1_1 t).mpr h1) (iblk1 V c 0 t) (iblk1 V c 1 t) (iblk1 V c 2 t) (iblk1 V c 3 t) _).2.2.2 Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [HS0]; · iexact HS0
      iintro ⟨H0, H1, H2, H3, ⟨%e4, H4⟩, ⟨%e5, H5⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover1_C_0 c _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover1_C_4 c _ _ _ _ _ _ _ _ _ _ _ _ _ _ _ _ _ _ _ _ _ _)
      unfold owns; iexists _; isplitr
      swap; · iexact H5
      ipureintro; exact View.read_writes_of_cover _ _ _ _ _ (cover1_C_5 c _ _ _ _ _ _ _ _ _ _ _ _ _ _ _ _ _ _ _ _ _ _)
    · rw [Dat.leavesExact_idle (dat1 V c) 5 t (idleAt1_5_B t (fun h => h0 ((hcond1_0 t).mp h)) (fun h => h1 ((hcond1_1 t).mp h))) (noFlush1_5_B t (fun h => h0 ((hcond1_0 t).mp h)) (fun h => h1 ((hcond1_1 t).mp h)))]
      rw [outsAt1_B V c t h0 h1]
      unfold point1B out1_B_4 sout1_B_0; (try dsimp only)
      rw [PhiS1_castSucc V c t, PhiS1_pos V c _ _ hz]
      iintro ⟨⟨⟨HS0, HR⟩, Hg⟩, Ho, ⟨%d0, H0⟩, ⟨%d1, H1⟩, ⟨%d2, H2⟩, ⟨%d3, H3⟩, ⟨%d4, H4⟩, ⟨%d5, H5⟩⟩
      iapply ((kernelRun1_B c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) (fun h => h1 ((hcond1_1 t).mp h)) (iblk1 V c 0 t) (iblk1 V c 1 t) (iblk1 V c 2 t) (iblk1 V c 3 t) _).2.2.2 _ Set.univ _)
      isplitl [H0]; · iexact H0
      isplitl [H1]; · iexact H1
      isplitl [H2]; · iexact H2
      isplitl [H3]; · iexact H3
      isplitl [H4]; · iexists _; iexact H4
      isplitl [H5]; · iexact H5
      isplitl [HS0]; · iexact HS0
      iintro ⟨H0, H1, H2, H3, ⟨%e4, H4⟩, H5, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover1_B_0 c _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover1_B_4 c _ _ _ _ _ _ _ _ _ _ _ _ _ _ _ _ _ _ _ _ _ _)
      iexists _; iexact H5

theorem body_obligation1 (c : Dev nD) : BodyObligation (dat1 (F := F) V c) (defs₀ (F := F)) Variants.none () Set.univ := fun t => by
  rw [bigSep_W1, bigSep_W1]
  exact sound_body1 V c t

theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 64 := N_1; omega), PhiA1_eq]
  iintro ⟨⟨HS0, HR⟩, Hg⟩
  isplitl [HS0 HR]
  · isplitl [HS0]
    · iexists _; iexact HS0
    iexact HR
  iexact Hg

end Data

end Cert.Kernel.Hand

end
-- ==== Proof.KbR2Shared.lean ====
/-
  Region 2 of the kernel program — the product e · Vs accumulated over the key blocks — : what its three case runs
  and its proof data share. The grid is 8 × 8 (query block qi, key block ki), point t = 8·qi + ki. The body resets its
  512×1024 accumulator when ki = 0, adds the product of the point's e block and Vs block, and copies the accumulator
  into the output block when ki = 7; the output window's block index depends on qi only, so it is written back at
  ki = 7 alone and is idle at the other points.
-/
import proofs.«174378_j75565654606299_2_alg».proof.Proof.Gen.Kernel.Launch
import proofs.«174378_j75565654606299_2_alg».proof.Proof.Gen.Kernel.Skeleton
import proofs.«174378_j75565654606299_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Blocks
variable (V : (c : Dev nD) → (b : Ref sig .tc) → Buf (Elt F) ((c : Thread nD τ).loc b))

/-- Window `w`'s block at point `t`, read off its array as region 2 finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The e block (window 0) sits in its staging buffer at every point. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The Vs block (window 1) sits in its staging buffer at every point. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

end Blocks

/-! ## The two branch conditions, in closed form over the grid -/

/-- The first branch (reset the accumulator): the key-block coordinate is 0. -/
abbrev cond2_0 (i : grid2.Coords) : Prop := (Scalar.cmpi .ne (Scalar.extui (Scalar.cmpi .eq (BitVec.ofNat 32 (i 1).val) 0#32)) 0#32) = 1#1
theorem hcond2_0 : ∀ t : Fin cfg2.N, cond2_0 (grid2.coords t) ↔ t.val % 8 = 0 :=
  (by decide +kernel : ∀ t : Fin grid2.N, cond2_0 (grid2.coords t) ↔ t.val % 8 = 0)

/-- The second branch (copy the accumulator out): the key-block coordinate is 7. -/
abbrev cond2_1 (i : grid2.Coords) : Prop := k2_cond2 i = 1#1
theorem hcond2_1 : ∀ t : Fin cfg2.N, cond2_1 (grid2.coords t) ↔ t.val % 8 = 7 :=
  (by decide +kernel : ∀ t : Fin grid2.N, cond2_1 (grid2.coords t) ↔ t.val % 8 = 7)

/-! ## Where the windows are idle -/

theorem liveAt2_0 : ∀ t : Fin cfg2.N, cfg2.idle 0 (grid2.coords t) = false := by decide +kernel
theorem liveAt2_1 : ∀ t : Fin cfg2.N, cfg2.idle 1 (grid2.coords t) = false := by decide +kernel
theorem idleAt2_2_A : ∀ t : Fin cfg2.N, cond2_0 (grid2.coords t) → ¬cond2_1 (grid2.coords t) → cfg2.idle 2 (grid2.coords t) = true := by decide +kernel
theorem noFlush2_2_A : ∀ t : Fin cfg2.N, cond2_0 (grid2.coords t) → ¬cond2_1 (grid2.coords t) → (cfg2.win 2).flush t = false := by decide +kernel
theorem idleAt2_2_B : ∀ t : Fin cfg2.N, ¬cond2_0 (grid2.coords t) → ¬cond2_1 (grid2.coords t) → cfg2.idle 2 (grid2.coords t) = true := by decide +kernel
theorem noFlush2_2_B : ∀ t : Fin cfg2.N, ¬cond2_0 (grid2.coords t) → ¬cond2_1 (grid2.coords t) → (cfg2.win 2).flush t = false := by decide +kernel
theorem liveAt2_2_C : ∀ t : Fin cfg2.N, ¬cond2_0 (grid2.coords t) → cond2_1 (grid2.coords t) → cfg2.idle 2 (grid2.coords t) = false := by decide +kernel

/-! ## The memrefs the body is called with -/

abbrev VO2_2 : View sig .tc .vmem S512x1024 .f32 := (Memref.whole cc2_stg2_0 : Memref sig .tc .vmem S512x1024 .f32).view
abbrev ms2_0 (t : Fin cfg2.N) : Memref sig .tc .vmem S512x512 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S512x1024 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S512x1024 .f32 := win2_2.stage (cfg2.slots t 2)
abbrev hs2_2 (t : Fin cfg2.N) : (ms2_2 t).IsWhole := hstage2_2 ((cfg2.slots t 2).cast nbuf2_2)
/-- The accumulator: a whole scoped buffer of the kernel's own. -/
abbrev scM2_0 : Memref sig .tc .vmem S512x1024 .f32 := Memref.whole cc2_scratch0
abbrev VS2_0 : View sig .tc .vmem S512x1024 .f32 := scM2_0.view

/-- The core's other scoped buffers — the staging buffers and the scratch of the other two calls —, each at some
    contents: region 2 never touches them. -/
abbrev Rest2 (c : Dev nD) : sProp 𝕄 :=
  Pipeline.scopedRestBut (Ix := Unit) (Name := ℕ) (U := UR sig nD τ) (Lvl := ℕ) (Val := Elt F) spec2 c [cc2_scratch0]

/-- The class invariant with the accumulator split off as a memref owned at some contents. -/
theorem PhiA2_eq (c : Dev nD) :
    (Pipeline.ΦA spec2 c : sProp 𝕄)
      = iprop(((∃ d, owns (c : Thread nD τ) scM2_0 fullShare d) ∗ Rest2 (F := F) c) ∗ (∃ r, prngReg c r)) := by
  unfold Pipeline.ΦA
  rw [Pipeline.scopedRest_split_of_list spec2 c [cc2_scratch0] (by decide) (by decide)]
  simp only [bigSepL_singleton, scM2_0, owns_whole]; try rfl

end Cert.Kernel.Hand

end
-- ==== Proof.KbR2Runs.lean ====
/-
  Region 2 of the kernel program: the body run whole in each of its three cases — ki = 0 (the accumulator reset,
  then the first product added), 0 < ki < 7 (a product added to what the point before left), ki = 7 (the last product
  added and the accumulator copied into the output block). Each run's witness is the list of pieces the accumulator
  (and, in the last case, the output's staging buffer) ends with.
-/
import proofs.«174378_j75565654606299_2_alg».proof.Proof.KbR2Shared

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- ki = 0: the output's staging buffer is handed back untouched; the accumulator, found at anything, ends with its pieces. -/
noncomputable def kernelRun2_A (c : Dev nD) (i : grid2.Coords) (arg2 : Memref sig .tc .vmem S512x512 .bf16) (harg2 : arg2.IsWhole) (arg3 : Memref sig .tc .vmem S512x1024 .bf16) (harg3 : arg3.IsWhole) (arg4 : Memref sig .tc .vmem S512x1024 .f32) (harg4 : arg4.IsWhole) (arg5 : Memref sig .tc .vmem S512x1024 .f32) (harg5 : arg5.IsWhole) (hc0 : cond2_0 i) (hc1 : ¬cond2_1 i)
    (x0 : Vec F S512x512 .bf16) (x1 : Vec F S512x1024 .bf16) :
    Σ' (L2 : List (View.Piece (Elt F) S512x1024 .f32)), { LS0 : List (View.Piece (Elt F) S512x1024 .f32) //
      ∀ (xi2 : Vec F S512x1024 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc2__out_kernel i arg2 harg2 arg3 harg3 arg4 harg4 arg5 harg5) K } := by
  refine ⟨[], ?_, fun xi2 E K => ?run⟩
  case run =>
    simp only [cc2__out_kernel_eq_skeleton]; unfold cc2__out_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

set_option maxHeartbeats 1000000 in
/-- 0 < ki < 7: the output's staging buffer is handed back untouched; the accumulator, found at what the point before
    left (`xs0`), ends with its pieces. -/
noncomputable def kernelRun2_B (c : Dev nD) (i : grid2.Coords) (arg2 : Memref sig .tc .vmem S512x512 .bf16) (harg2 : arg2.IsWhole) (arg3 : Memref sig .tc .vmem S512x1024 .bf16) (harg3 : arg3.IsWhole) (arg4 : Memref sig .tc .vmem S512x1024 .f32) (harg4 : arg4.IsWhole) (arg5 : Memref sig .tc .vmem S512x1024 .f32) (harg5 : arg5.IsWhole) (hc0 : ¬cond2_0 i) (hc1 : ¬cond2_1 i)
    (x0 : Vec F S512x512 .bf16) (x1 : Vec F S512x1024 .bf16) (xs0 : Vec F S512x1024 .f32) :
    Σ' (L2 : List (View.Piece (Elt F) S512x1024 .f32)), { LS0 : List (View.Piece (Elt F) S512x1024 .f32) //
      ∀ (xi2 : Vec F S512x1024 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc2__out_kernel i arg2 harg2 arg3 harg3 arg4 harg4 arg5 harg5) K } := by
  refine ⟨[], ?_, fun xi2 E K => ?run⟩
  case run =>
    simp only [cc2__out_kernel_eq_skeleton]; unfold cc2__out_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

set_option maxHeartbeats 1000000 in
/-- ki = 7: the accumulator, found at what the point before left, ends with its pieces, and the output's staging
    buffer, found at anything, with its own. -/
noncomputable def kernelRun2_C (c : Dev nD) (i : grid2.Coords) (arg2 : Memref sig .tc .vmem S512x512 .bf16) (harg2 : arg2.IsWhole) (arg3 : Memref sig .tc .vmem S512x1024 .bf16) (harg3 : arg3.IsWhole) (arg4 : Memref sig .tc .vmem S512x1024 .f32) (harg4 : arg4.IsWhole) (arg5 : Memref sig .tc .vmem S512x1024 .f32) (harg5 : arg5.IsWhole) (hc0 : ¬cond2_0 i) (hc1 : cond2_1 i)
    (x0 : Vec F S512x512 .bf16) (x1 : Vec F S512x1024 .bf16) (xs0 : Vec F S512x1024 .f32) :
    Σ' (L2 : List (View.Piece (Elt F) S512x1024 .f32)), { LS0 : List (View.Piece (Elt F) S512x1024 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc2__out_kernel i arg2 harg2 arg3 harg3 arg4 harg4 arg5 harg5) K } := by
  refine ⟨?_, ?_, fun E K => ?run⟩
  case run =>
    simp only [cc2__out_kernel_eq_skeleton]; unfold cc2__out_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.Kernel.Hand

end
-- ==== Proof.KbR2Frame.lean ====
/-
  Region 2 of the kernel program: what its output block and its accumulator hold after each grid point, the proof
  data of its pipeline, and the body obligation. After point t = 8·qi + ki the accumulator holds the sum over the key
  blocks 0 … ki of (e block at (qi, k)) · (Vs block at k), starting again from zero at every ki = 0; the output block
  is stored at ki = 7 only. The invariant between points carries the accumulator at exactly those contents.
-/
import proofs.«174378_j75565654606299_2_alg».proof.Proof.KbR2Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each case leaves -/

/-- ki = 0: nothing is stored into the output's buffer (a placeholder nothing consults: the window is idle there). -/
def out2_A_2 (c : Dev nD) (i : grid2.Coords) (arg2 : Memref sig .tc .vmem S512x512 .bf16) (harg2 : arg2.IsWhole) (arg3 : Memref sig .tc .vmem S512x1024 .bf16) (harg3 : arg3.IsWhole) (arg4 : Memref sig .tc .vmem S512x1024 .f32) (harg4 : arg4.IsWhole) (arg5 : Memref sig .tc .vmem S512x1024 .f32) (harg5 : arg5.IsWhole) (hc0 : cond2_0 i) (hc1 : ¬cond2_1 i)
    (x0 : Vec F S512x512 .bf16) (x1 : Vec F S512x1024 .bf16) : Vec F S512x1024 .f32 :=
  VO2_2.read (Elt F) (VO2_2.writes (Elt F) VO2_2.junk (kernelRun2_A c i arg2 harg2 arg3 harg3 arg4 harg4 arg5 harg5 hc0 hc1 x0 x1).1)

theorem scover2_A_0 (c : Dev nD) (i : grid2.Coords) (arg2 : Memref sig .tc .vmem S512x512 .bf16) (harg2 : arg2.IsWhole) (arg3 : Memref sig .tc .vmem S512x1024 .bf16) (harg3 : arg3.IsWhole) (arg4 : Memref sig .tc .vmem S512x1024 .f32) (harg4 : arg4.IsWhole) (arg5 : Memref sig .tc .vmem S512x1024 .f32) (harg5 : arg5.IsWhole) (hc0 : cond2_0 i) (hc1 : ¬cond2_1 i)
    (x0 : Vec F S512x512 .bf16) (x1 : Vec F S512x1024 .bf16) (y : S512x1024.Idx) :
    ∃ pc ∈ (kernelRun2_A c i arg2 harg2 arg3 harg3 arg4 harg4 arg5 harg5 hc0 hc1 x0 x1).2.1, y ∈ pc.1.set :=
  View.cover_of_tiledL (kernelRun2_A c i arg2 harg2 arg3 harg3 arg4 harg4 arg5 harg5 hc0 hc1 x0 x1).2.1 S512x1024.size (by sl_kernel_rfl) y

/-- ki = 0: what the accumulator is left at. -/
def sout2_A_0 (c : Dev nD) (i : grid2.Coords) (arg2 : Memref sig .tc .vmem S512x512 .bf16) (harg2 : arg2.IsWhole) (arg3 : Memref sig .tc .vmem S512x1024 .bf16) (harg3 : arg3.IsWhole) (arg4 : Memref sig .tc .vmem S512x1024 .f32) (harg4 : arg4.IsWhole) (arg5 : Memref sig .tc .vmem S512x1024 .f32) (harg5 : arg5.IsWhole) (hc0 : cond2_0 i) (hc1 : ¬cond2_1 i)
    (x0 : Vec F S512x512 .bf16) (x1 : Vec F S512x1024 .bf16) : Vec F S512x1024 .f32 :=
  VS2_0.read (Elt F) (VS2_0.writes (Elt F) VS2_0.junk (kernelRun2_A c i arg2 harg2 arg3 harg3 arg4 harg4 arg5 harg5 hc0 hc1 x0 x1).2.1)

/-- 0 < ki < 7: nothing is stored into the output's buffer. -/
def out2_B_2 (c : Dev nD) (i : grid2.Coords) (arg2 : Memref sig .tc .vmem S512x512 .bf16) (harg2 : arg2.IsWhole) (arg3 : Memref sig .tc .vmem S512x1024 .bf16) (harg3 : arg3.IsWhole) (arg4 : Memref sig .tc .vmem S512x1024 .f32) (harg4 : arg4.IsWhole) (arg5 : Memref sig .tc .vmem S512x1024 .f32) (harg5 : arg5.IsWhole) (hc0 : ¬cond2_0 i) (hc1 : ¬cond2_1 i)
    (x0 : Vec F S512x512 .bf16) (x1 : Vec F S512x1024 .bf16) (xs0 : Vec F S512x1024 .f32) : Vec F S512x1024 .f32 :=
  VO2_2.read (Elt F) (VO2_2.writes (Elt F) VO2_2.junk (kernelRun2_B c i arg2 harg2 arg3 harg3 arg4 harg4 arg5 harg5 hc0 hc1 x0 x1 xs0).1)

theorem scover2_B_0 (c : Dev nD) (i : grid2.Coords) (arg2 : Memref sig .tc .vmem S512x512 .bf16) (harg2 : arg2.IsWhole) (arg3 : Memref sig .tc .vmem S512x1024 .bf16) (harg3 : arg3.IsWhole) (arg4 : Memref sig .tc .vmem S512x1024 .f32) (harg4 : arg4.IsWhole) (arg5 : Memref sig .tc .vmem S512x1024 .f32) (harg5 : arg5.IsWhole) (hc0 : ¬cond2_0 i) (hc1 : ¬cond2_1 i)
    (x0 : Vec F S512x512 .bf16) (x1 : Vec F S512x1024 .bf16) (xs0 : Vec F S512x1024 .f32) (y : S512x1024.Idx) :
    ∃ pc ∈ (kernelRun2_B c i arg2 harg2 arg3 harg3 arg4 harg4 arg5 harg5 hc0 hc1 x0 x1 xs0).2.1, y ∈ pc.1.set :=
  View.cover_of_tiledL (kernelRun2_B c i arg2 harg2 arg3 harg3 arg4 harg4 arg5 harg5 hc0 hc1 x0 x1 xs0).2.1 S512x1024.size (by sl_kernel_rfl) y

def sout2_B_0 (c : Dev nD) (i : grid2.Coords) (arg2 : Memref sig .tc .vmem S512x512 .bf16) (harg2 : arg2.IsWhole) (arg3 : Memref sig .tc .vmem S512x1024 .bf16) (harg3 : arg3.IsWhole) (arg4 : Memref sig .tc .vmem S512x1024 .f32) (harg4 : arg4.IsWhole) (arg5 : Memref sig .tc .vmem S512x1024 .f32) (harg5 : arg5.IsWhole) (hc0 : ¬cond2_0 i) (hc1 : ¬cond2_1 i)
    (x0 : Vec F S512x512 .bf16) (x1 : Vec F S512x1024 .bf16) (xs0 : Vec F S512x1024 .f32) : Vec F S512x1024 .f32 :=
  VS2_0.read (Elt F) (VS2_0.writes (Elt F) VS2_0.junk (kernelRun2_B c i arg2 harg2 arg3 harg3 arg4 harg4 arg5 harg5 hc0 hc1 x0 x1 xs0).2.1)

theorem cover2_C_2 (c : Dev nD) (i : grid2.Coords) (arg2 : Memref sig .tc .vmem S512x512 .bf16) (harg2 : arg2.IsWhole) (arg3 : Memref sig .tc .vmem S512x1024 .bf16) (harg3 : arg3.IsWhole) (arg4 : Memref sig .tc .vmem S512x1024 .f32) (harg4 : arg4.IsWhole) (arg5 : Memref sig .tc .vmem S512x1024 .f32) (harg5 : arg5.IsWhole) (hc0 : ¬cond2_0 i) (hc1 : cond2_1 i)
    (x0 : Vec F S512x512 .bf16) (x1 : Vec F S512x1024 .bf16) (xs0 : Vec F S512x1024 .f32) (y : S512x1024.Idx) :
    ∃ pc ∈ (kernelRun2_C c i arg2 harg2 arg3 harg3 arg4 harg4 arg5 harg5 hc0 hc1 x0 x1 xs0).1, y ∈ pc.1.set :=
  View.cover_of_tiledL (kernelRun2_C c i arg2 harg2 arg3 harg3 arg4 harg4 arg5 harg5 hc0 hc1 x0 x1 xs0).1 S512x1024.size (by sl_kernel_rfl) y

/-- ki = 7: what the output's staging buffer is left at. -/
def out2_C_2 (c : Dev nD) (i : grid2.Coords) (arg2 : Memref sig .tc .vmem S512x512 .bf16) (harg2 : arg2.IsWhole) (arg3 : Memref sig .tc .vmem S512x1024 .bf16) (harg3 : arg3.IsWhole) (arg4 : Memref sig .tc .vmem S512x1024 .f32) (harg4 : arg4.IsWhole) (arg5 : Memref sig .tc .vmem S512x1024 .f32) (harg5 : arg5.IsWhole) (hc0 : ¬cond2_0 i) (hc1 : cond2_1 i)
    (x0 : Vec F S512x512 .bf16) (x1 : Vec F S512x1024 .bf16) (xs0 : Vec F S512x1024 .f32) : Vec F S512x1024 .f32 :=
  VO2_2.read (Elt F) (VO2_2.writes (Elt F) VO2_2.junk (kernelRun2_C c i arg2 harg2 arg3 harg3 arg4 harg4 arg5 harg5 hc0 hc1 x0 x1 xs0).1)

theorem scover2_C_0 (c : Dev nD) (i : grid2.Coords) (arg2 : Memref sig .tc .vmem S512x512 .bf16) (harg2 : arg2.IsWhole) (arg3 : Memref sig .tc .vmem S512x1024 .bf16) (harg3 : arg3.IsWhole) (arg4 : Memref sig .tc .vmem S512x1024 .f32) (harg4 : arg4.IsWhole) (arg5 : Memref sig .tc .vmem S512x1024 .f32) (harg5 : arg5.IsWhole) (hc0 : ¬cond2_0 i) (hc1 : cond2_1 i)
    (x0 : Vec F S512x512 .bf16) (x1 : Vec F S512x1024 .bf16) (xs0 : Vec F S512x1024 .f32) (y : S512x1024.Idx) :
    ∃ pc ∈ (kernelRun2_C c i arg2 harg2 arg3 harg3 arg4 harg4 arg5 harg5 hc0 hc1 x0 x1 xs0).2.1, y ∈ pc.1.set :=
  View.cover_of_tiledL (kernelRun2_C c i arg2 harg2 arg3 harg3 arg4 harg4 arg5 harg5 hc0 hc1 x0 x1 xs0).2.1 S512x1024.size (by sl_kernel_rfl) y

def sout2_C_0 (c : Dev nD) (i : grid2.Coords) (arg2 : Memref sig .tc .vmem S512x512 .bf16) (harg2 : arg2.IsWhole) (arg3 : Memref sig .tc .vmem S512x1024 .bf16) (harg3 : arg3.IsWhole) (arg4 : Memref sig .tc .vmem S512x1024 .f32) (harg4 : arg4.IsWhole) (arg5 : Memref sig .tc .vmem S512x1024 .f32) (harg5 : arg5.IsWhole) (hc0 : ¬cond2_0 i) (hc1 : cond2_1 i)
    (x0 : Vec F S512x512 .bf16) (x1 : Vec F S512x1024 .bf16) (xs0 : Vec F S512x1024 .f32) : Vec F S512x1024 .f32 :=
  VS2_0.read (Elt F) (VS2_0.writes (Elt F) VS2_0.junk (kernelRun2_C c i arg2 harg2 arg3 harg3 arg4 harg4 arg5 harg5 hc0 hc1 x0 x1 xs0).2.1)

section Data
variable (V : (c : Dev nD) → (b : Ref sig .tc) → Buf (Elt F) ((c : Thread nD τ).loc b))

/-! ## Point by point -/

theorem notC_of_A (t : Fin cfg2.N) (h0 : t.val % 8 = 0) : ¬cond2_1 (grid2.coords t) := fun h => by
  have := (hcond2_1 t).mp h; omega

/-- What a point with ki = 0 leaves: (output buffer, accumulator). -/
def pointA (c : Dev nD) (t : Fin cfg2.N) (h0 : t.val % 8 = 0) : Vec F S512x1024 .f32 × Vec F S512x1024 .f32 :=
  (out2_A_2 c (grid2.coords t) (ms2_0 t) (hs2_0 t) (ms2_1 t) (hs2_1 t) (ms2_2 t) (hs2_2 t) scM2_0 (Memref.isWhole_whole _) ((hcond2_0 t).mpr h0) (notC_of_A t h0) (iblk2 V c 0 t) (iblk2 V c 1 t),
   sout2_A_0 c (grid2.coords t) (ms2_0 t) (hs2_0 t) (ms2_1 t) (hs2_1 t) (ms2_2 t) (hs2_2 t) scM2_0 (Memref.isWhole_whole _) ((hcond2_0 t).mpr h0) (notC_of_A t h0) (iblk2 V c 0 t) (iblk2 V c 1 t))

/-- What a point with 0 < ki < 7 leaves, given the accumulator the point before left. -/
def pointB (c : Dev nD) (t : Fin cfg2.N) (h0 : ¬t.val % 8 = 0) (h1 : ¬t.val % 8 = 7) (xs : Vec F S512x1024 .f32) :
    Vec F S512x1024 .f32 × Vec F S512x1024 .f32 :=
  (out2_B_2 c (grid2.coords t) (ms2_0 t) (hs2_0 t) (ms2_1 t) (hs2_1 t) (ms2_2 t) (hs2_2 t) scM2_0 (Memref.isWhole_whole _) (fun h => h0 ((hcond2_0 t).mp h)) (fun h => h1 ((hcond2_1 t).mp h)) (iblk2 V c 0 t) (iblk2 V c 1 t) xs,
   sout2_B_0 c (grid2.coords t) (ms2_0 t) (hs2_0 t) (ms2_1 t) (hs2_1 t) (ms2_2 t) (hs2_2 t) scM2_0 (Memref.isWhole_whole _) (fun h => h0 ((hcond2_0 t).mp h)) (fun h => h1 ((hcond2_1 t).mp h)) (iblk2 V c 0 t) (iblk2 V c 1 t) xs)

/-- What a point with ki = 7 leaves, given the accumulator the point before left. -/
def pointC (c : Dev nD) (t : Fin cfg2.N) (h0 : ¬t.val % 8 = 0) (h1 : t.val % 8 = 7) (xs : Vec F S512x1024 .f32) :
    Vec F S512x1024 .f32 × Vec F S512x1024 .f32 :=
  (out2_C_2 c (grid2.coords t) (ms2_0 t) (hs2_0 t) (ms2_1 t) (hs2_1 t) (ms2_2 t) (hs2_2 t) scM2_0 (Memref.isWhole_whole _) (fun h => h0 ((hcond2_0 t).mp h)) ((hcond2_1 t).mpr h1) (iblk2 V c 0 t) (iblk2 V c 1 t) xs,
   sout2_C_0 c (grid2.coords t) (ms2_0 t) (hs2_0 t) (ms2_1 t) (hs2_1 t) (ms2_2 t) (hs2_2 t) scM2_0 (Memref.isWhole_whole _) (fun h => h0 ((hcond2_0 t).mp h)) ((hcond2_1 t).mpr h1) (iblk2 V c 0 t) (iblk2 V c 1 t) xs)

/-- THE ACCUMULATION: what the output's buffer and the accumulator hold after the body at position `n`. -/
def outsAt2 (c : Dev nD) : (n : ℕ) → n < cfg2.N → Vec F S512x1024 .f32 × Vec F S512x1024 .f32
  | 0, hn => pointA V c ⟨0, hn⟩ (Nat.zero_mod _)
  | n + 1, hn =>
    if h0 : (n + 1) % 8 = 0 then pointA V c ⟨n + 1, hn⟩ h0
    else if h1 : (n + 1) % 8 = 7 then pointC V c ⟨n + 1, hn⟩ h0 h1 (outsAt2 c n (Nat.lt_of_succ_lt hn)).2
    else pointB V c ⟨n + 1, hn⟩ h0 h1 (outsAt2 c n (Nat.lt_of_succ_lt hn)).2

theorem outsAt2_A (c : Dev nD) (t : Fin cfg2.N) (h0 : t.val % 8 = 0) :
    outsAt2 V c t.val t.isLt = pointA V c t h0 := by
  obtain ⟨n, hn⟩ := t
  cases n with
  | zero => rfl
  | succ n => exact dif_pos h0

theorem outsAt2_B (c : Dev nD) (t : Fin cfg2.N) (h0 : ¬t.val % 8 = 0) (h1 : ¬t.val % 8 = 7) :
    outsAt2 V c t.val t.isLt = pointB V c t h0 h1 (outsAt2 V c (t.val - 1) (Nat.lt_of_le_of_lt (Nat.sub_le _ _) t.isLt)).2 := by
  obtain ⟨n, hn⟩ := t
  cases n with
  | zero => exact absurd (Nat.zero_mod _) h0
  | succ n => exact (dif_neg h0).trans (dif_neg h1)

theorem outsAt2_C (c : Dev nD) (t : Fin cfg2.N) (h0 : ¬t.val % 8 = 0) (h1 : t.val % 8 = 7) :
    outsAt2 V c t.val t.isLt = pointC V c t h0 h1 (outsAt2 V c (t.val - 1) (Nat.lt_of_le_of_lt (Nat.sub_le _ _) t.isLt)).2 := by
  obtain ⟨n, hn⟩ := t
  cases n with
  | zero => exact absurd (Nat.zero_mod _) h0
  | succ n => exact (dif_neg h0).trans (dif_pos h1)

/-! ## The invariant between points -/

/-- Before the first point the class's invariant (every scoped buffer at anything); afterwards the accumulator at what
    the point before left, the other scoped buffers at anything, the generator register at some state. -/
def PhiS2 (c : Dev nD) : (n : ℕ) → n ≤ cfg2.N → sProp 𝕄
  | 0, _ => Pipeline.ΦA spec2 c
  | n + 1, hn => iprop((owns (c : Thread nD τ) scM2_0 fullShare ((outsAt2 V c n hn).2) ∗ Rest2 (F := F) c) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop((owns (c : Thread nD τ) scM2_0 fullShare ((outsAt2 V c n hn).2) ∗ Rest2 (F := F) c) ∗ (∃ r, prngReg c r)) := rfl

theorem PhiS2_pos (c : Dev nD) (n : ℕ) (h : n ≤ cfg2.N) (hz : n ≠ 0) :
    PhiS2 V c n h = iprop((owns (c : Thread nD τ) scM2_0 fullShare ((outsAt2 V c (n - 1) (by omega)).2) ∗ Rest2 (F := F) c) ∗ (∃ r, prngReg c r)) := by
  cases n with
  | zero => exact absurd rfl hz
  | succ n => rfl

/-! ## The pipeline's proof data -/

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => (outsAt2 V c t.val t.isLt).1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = (outsAt2 V c t.val t.isLt).1 := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation -/

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t)

set_option maxHeartbeats 4800000 in
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).owesAt () t.succ = (dat2 V c).owesAt () t.castSucc from rfl]
  rw [show (dat2 V c).Φ t.succ = PhiS2 V c (t.val + 1) t.isLt from rfl, PhiS2_succ]
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  have hN : t.val < 64 := lt_of_lt_of_eq t.isLt (show cfg2.N = 64 from N_2)
  by_cases h0 : t.val % 8 = 0
  · rw [Dat.leavesExact_idle (dat2 V c) 2 t (idleAt2_2_A t ((hcond2_0 t).mpr h0) (notC_of_A t h0)) (noFlush2_2_A t ((hcond2_0 t).mpr h0) (notC_of_A t h0))]
    rw [outsAt2_A V c t h0]
    unfold pointA sout2_A_0; (try dsimp only)
    by_cases hz : t.val = 0
    · rw [PhiS2_castSucc V c t, PhiS2_zero V c _ _ hz, PhiA2_eq]
      iintro ⟨⟨⟨HS0, HR⟩, Hg⟩, Ho, ⟨%d0, H0⟩, ⟨%d1, H1⟩, ⟨%d2, H2⟩⟩
      iapply ((kernelRun2_A c (grid2.coords t) (ms2_0 t) (hs2_0 t) (ms2_1 t) (hs2_1 t) (ms2_2 t) (hs2_2 t) scM2_0 (Memref.isWhole_whole _) ((hcond2_0 t).mpr h0) (notC_of_A t h0) (iblk2 V c 0 t) (iblk2 V c 1 t)).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover2_A_0 c _ _ _ _ _ _ _ _ _ _ _ _ _)
          iexact HR
        iexact Hg
      isplitl [Ho]; · iexact Ho
      isplitl [H0]; · iexact H0
      isplitl [H1]; · iexact H1
      iexists _; iexact H2
    · rw [PhiS2_castSucc V c t, PhiS2_pos V c _ _ hz]
      iintro ⟨⟨⟨HS0, HR⟩, Hg⟩, Ho, ⟨%d0, H0⟩, ⟨%d1, H1⟩, ⟨%d2, H2⟩⟩
      iapply ((kernelRun2_A c (grid2.coords t) (ms2_0 t) (hs2_0 t) (ms2_1 t) (hs2_1 t) (ms2_2 t) (hs2_2 t) scM2_0 (Memref.isWhole_whole _) ((hcond2_0 t).mpr h0) (notC_of_A t h0) (iblk2 V c 0 t) (iblk2 V c 1 t)).2.2 _ Set.univ _)
      isplitl [H0]; · iexact H0
      isplitl [H1]; · iexact H1
      isplitl [H2]; · iexact H2
      isplitl [HS0]; · iexists _; iexact HS0
      iintro ⟨H0, H1, H2, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover2_A_0 c _ _ _ _ _ _ _ _ _ _ _ _ _)
          iexact HR
        iexact Hg
      isplitl [Ho]; · iexact Ho
      isplitl [H0]; · iexact H0
      isplitl [H1]; · iexact H1
      iexists _; iexact H2
  · have hz : t.val ≠ 0 := fun e => h0 (by rw [e])
    by_cases h1 : t.val % 8 = 7
    · rw [show (dat2 V c).leavesExact 2 t = owns (c : Thread nD τ) (ms2_2 t) fullShare ((dat2 V c).after 2 t) from by
        unfold Dat.leavesExact; rw [liveAt2_2_C t (fun h => h0 ((hcond2_0 t).mp h)) ((hcond2_1 t).mpr h1)], after2_2]
      rw [outsAt2_C V c t h0 h1]
      unfold pointC out2_C_2 sout2_C_0; (try dsimp only)
      rw [PhiS2_castSucc V c t, PhiS2_pos V c _ _ hz]
      iintro ⟨⟨⟨HS0, HR⟩, Hg⟩, Ho, ⟨%d0, H0⟩, ⟨%d1, H1⟩, ⟨%d2, H2⟩⟩
      iapply ((kernelRun2_C c (grid2.coords t) (ms2_0 t) (hs2_0 t) (ms2_1 t) (hs2_1 t) (ms2_2 t) (hs2_2 t) scM2_0 (Memref.isWhole_whole _) (fun h => h0 ((hcond2_0 t).mp h)) ((hcond2_1 t).mpr h1) (iblk2 V c 0 t) (iblk2 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover2_C_0 c _ _ _ _ _ _ _ _ _ _ _ _ _ _)
          iexact HR
        iexact Hg
      isplitl [Ho]; · iexact Ho
      isplitl [H0]; · iexact H0
      isplitl [H1]; · iexact H1
      unfold owns; iexists _; isplitr
      swap; · iexact H2
      ipureintro; exact View.read_writes_of_cover _ _ _ _ _ (cover2_C_2 c _ _ _ _ _ _ _ _ _ _ _ _ _ _)
    · rw [Dat.leavesExact_idle (dat2 V c) 2 t (idleAt2_2_B t (fun h => h0 ((hcond2_0 t).mp h)) (fun h => h1 ((hcond2_1 t).mp h))) (noFlush2_2_B t (fun h => h0 ((hcond2_0 t).mp h)) (fun h => h1 ((hcond2_1 t).mp h)))]
      rw [outsAt2_B V c t h0 h1]
      unfold pointB sout2_B_0; (try dsimp only)
      rw [PhiS2_castSucc V c t, PhiS2_pos V c _ _ hz]
      iintro ⟨⟨⟨HS0, HR⟩, Hg⟩, Ho, ⟨%d0, H0⟩, ⟨%d1, H1⟩, ⟨%d2, H2⟩⟩
      iapply ((kernelRun2_B c (grid2.coords t) (ms2_0 t) (hs2_0 t) (ms2_1 t) (hs2_1 t) (ms2_2 t) (hs2_2 t) scM2_0 (Memref.isWhole_whole _) (fun h => h0 ((hcond2_0 t).mp h)) (fun h => h1 ((hcond2_1 t).mp h)) (iblk2 V c 0 t) (iblk2 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover2_B_0 c _ _ _ _ _ _ _ _ _ _ _ _ _ _)
          iexact HR
        iexact Hg
      isplitl [Ho]; · iexact Ho
      isplitl [H0]; · iexact H0
      isplitl [H1]; · iexact H1
      iexists _; iexact H2

theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After the last point the invariant gives the class's back: the accumulator's contents are forgotten. -/
theorem hout2 (c : Dev nD) : (dat2 V c).Φ (Fin.last cfg2.N) ⊢ Pipeline.ΦA spec2 c := by
  rw [show (dat2 V c).Φ (Fin.last cfg2.N) = PhiS2 V c (Fin.last cfg2.N).val (Nat.le_of_lt_succ (Fin.last cfg2.N).isLt) from rfl,
    PhiS2_pos V c _ _ (by rw [Fin.val_last]; have : cfg2.N = 64 := N_2; omega), PhiA2_eq]
  iintro ⟨⟨HS0, HR⟩, Hg⟩
  isplitl [HS0 HR]
  · isplitl [HS0]
    · iexists _; iexact HS0
    iexact HR
  iexact Hg

end Data

end Cert.Kernel.Hand

end
-- ==== Proof.KbKRun.lean ====
/-
  The kernel program's run: the contents of every unscoped buffer at each boundary of @main — at launch, after the host
  operations that concatenate the weights and the biases, and after each of the three regions —, every argument array
  walked back through those boundaries to its launch contents, the three regions' proof data and records, and the run
  itself: every weakly fair execution terminates with the result array at what region 2's pipeline leaves in it and
  every argument array as launched.
-/
import proofs.«174378_j75565654606299_2_alg».proof.Proof.KbR0Frame
import proofs.«174378_j75565654606299_2_alg».proof.Proof.KbR1Frame
import proofs.«174378_j75565654606299_2_alg».proof.Proof.KbR2Frame
import proofs.«174378_j75565654606299_2_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch. -/
abbrev W0 : Dev nD → Valuation τ sig (Elt F) := fun c b => (s₀ m ρ).mem ((c : Dev nD), b)
/-- After the host operations (region 0's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b

/-- At region 0's exit: its arrays at what its pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At region 1's exit: its arrays at what its pipeline leaves, every other buffer as entered. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- At region 2's exit: its arrays at what its pipeline leaves, every other buffer as entered. -/
def W4 (c : Dev nD) : Valuation τ sig (Elt F) :=
  Pipeline.withArrays spec2 c (W3 m ρ c) fun w => (dat2 (V3 m ρ) c).arrAt w cfg2.N
theorem W4_arr (c : Dev nD) (w : Fin cfg2.W) :
    W4 m ρ c (Proc.devRef .tc (Pipeline.arrRef spec2 w)) = (dat2 (V3 m ρ) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m ρ c (Proc.devRef .tc b) = W3 m ρ c (Proc.devRef .tc b) := by
  unfold W4; exact Pipeline.withArrays_of_ne spec2 c _ _ b hb
abbrev V4 : (c : Dev nD) → (b : Ref sig .tc) → Buf (Elt F) ((c : Thread nD τ).loc b) := fun c b => W4 m ρ c b
theorem hF2 (c : Dev nD) (w : Fin cfg2.W) : (dat2 (V3 m ρ) c).arrAt w cfg2.N = V4 m ρ c (Pipeline.arrRef spec2 w) :=
  (W4_arr m ρ c w).symm
theorem hrest2 (c : Dev nD) : ∀ b, b ∉ Finset.univ.image (Pipeline.arrRef spec2) → V4 m ρ c b = V3 m ρ c b :=
  fun b hb => W4_of_ne m ρ c b fun w e => hb (Finset.mem_image.mpr ⟨w, Finset.mem_univ _, e⟩)

/-! ## The arguments end as launched -/

/-- The host operations write only their four results. -/
theorem W1_keeps (c : Dev nD) (b : Ref sig .tc) (h : b ∉ hostOps0_W) :
    W1 m ρ c (Proc.devRef .tc b) = W0 m ρ c (Proc.devRef .tc b) :=
  Gen.V1_of m c b h

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := W3_of_ne m ρ c main_arg0 (by decide)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := W1_keeps m ρ c main_arg0 (by decide)
    _ = m ((c : Thread nD τ).loc main_arg0) := rfl
theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := (W3_arr m ρ c 3).trans (((dat1 (V2 m ρ) c).arrAt_in 3 rfl _).trans (A_eq1 (V2 m ρ) c 3))
    _ = W1 m ρ c (Proc.devRef .tc main_arg1) := W2_of_ne m ρ c main_arg1 (by decide)
    _ = W0 m ρ c (Proc.devRef .tc main_arg1) := W1_keeps m ρ c main_arg1 (by decide)
    _ = m ((c : Thread nD τ).loc main_arg1) := rfl
theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := W3_of_ne m ρ c main_arg2 (by decide)
    _ = W1 m ρ c (Proc.devRef .tc main_arg2) := W2_of_ne m ρ c main_arg2 (by decide)
    _ = W0 m ρ c (Proc.devRef .tc main_arg2) := W1_keeps m ρ c main_arg2 (by decide)
    _ = m ((c : Thread nD τ).loc main_arg2) := rfl
theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := W3_of_ne m ρ c main_arg3 (by decide)
    _ = W1 m ρ c (Proc.devRef .tc main_arg3) := W2_of_ne m ρ c main_arg3 (by decide)
    _ = W0 m ρ c (Proc.devRef .tc main_arg3) := W1_keeps m ρ c main_arg3 (by decide)
    _ = m ((c : Thread nD τ).loc main_arg3) := rfl
theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := W3_of_ne m ρ c main_arg4 (by decide)
    _ = W1 m ρ c (Proc.devRef .tc main_arg4) := W2_of_ne m ρ c main_arg4 (by decide)
    _ = W0 m ρ c (Proc.devRef .tc main_arg4) := W1_keeps m ρ c main_arg4 (by decide)
    _ = m ((c : Thread nD τ).loc main_arg4) := rfl
theorem W4_main_arg5 (c : Dev nD) : W4 m ρ c (Proc.devRef .tc main_arg5) = m ((c : Thread nD τ).loc main_arg5) :=
  calc W4 m ρ c (Proc.devRef .tc main_arg5)
    _ = W3 m ρ c (Proc.devRef .tc main_arg5) := W4_of_ne m ρ c main_arg5 (by decide)
    _ = W2 m ρ c (Proc.devRef .tc main_arg5) := W3_of_ne m ρ c main_arg5 (by decide)
    _ = W1 m ρ c (Proc.devRef .tc main_arg5) := W2_of_ne m ρ c main_arg5 (by decide)
    _ = W0 m ρ c (Proc.devRef .tc main_arg5) := W1_keeps m ρ c main_arg5 (by decide)
    _ = m ((c : Thread nD τ).loc main_arg5) := rfl
theorem W4_main_arg6 (c : Dev nD) : W4 m ρ c (Proc.devRef .tc main_arg6) = m ((c : Thread nD τ).loc main_arg6) :=
  calc W4 m ρ c (Proc.devRef .tc main_arg6)
    _ = W3 m ρ c (Proc.devRef .tc main_arg6) := W4_of_ne m ρ c main_arg6 (by decide)
    _ = W2 m ρ c (Proc.devRef .tc main_arg6) := W3_of_ne m ρ c main_arg6 (by decide)
    _ = W1 m ρ c (Proc.devRef .tc main_arg6) := W2_of_ne m ρ c main_arg6 (by decide)
    _ = W0 m ρ c (Proc.devRef .tc main_arg6) := W1_keeps m ρ c main_arg6 (by decide)
    _ = m ((c : Thread nD τ).loc main_arg6) := rfl
theorem W4_main_arg7 (c : Dev nD) : W4 m ρ c (Proc.devRef .tc main_arg7) = m ((c : Thread nD τ).loc main_arg7) :=
  calc W4 m ρ c (Proc.devRef .tc main_arg7)
    _ = W3 m ρ c (Proc.devRef .tc main_arg7) := W4_of_ne m ρ c main_arg7 (by decide)
    _ = W2 m ρ c (Proc.devRef .tc main_arg7) := W3_of_ne m ρ c main_arg7 (by decide)
    _ = W1 m ρ c (Proc.devRef .tc main_arg7) := W2_of_ne m ρ c main_arg7 (by decide)
    _ = W0 m ρ c (Proc.devRef .tc main_arg7) := W1_keeps m ρ c main_arg7 (by decide)
    _ = m ((c : Thread nD τ).loc main_arg7) := rfl

/-! ## The proof data family and the thread state -/

abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
  | ⟨2, _⟩ => fun c => dat2 (V3 m ρ) c
abbrev 𝒱₀ : Variants := Variants.none
abbrev L : GSem nD τ sig → Finset Unit := fun _ => ∅
abbrev lv : GSem nD τ sig → Unit → ℕ := fun _ _ => 0
/-- What rides beside the buffers through every segment: the generator register at some state and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (show Pipeline.ΦA spec0 c ⊢ (pdats m ρ 0 c).Φ 0 from .rfl)
    unfold Pipeline.ΦA
    iintro ⟨Hp, -, Hr⟩
    isplitl [Hr]; · iexact Hr
    iexact Hp
  hout c := by
    rw [Pipeline.ownSems0_none]
    refine BIBase.Entails.trans (show (pdats m ρ 0 c).Φ (Fin.last _) ⊢ Pipeline.ΦA spec0 c from .rfl) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (show Pipeline.ΦA spec1 c ⊢ (pdats m ρ 1 c).Φ 0 from hin1 (V2 m ρ) c)
    unfold Pipeline.ΦA
    iintro ⟨Hp, -, Hr⟩
    isplitl [Hr]; · iexact Hr
    iexact Hp
  hout c := by
    rw [Pipeline.ownSems0_none]
    refine BIBase.Entails.trans (show (pdats m ρ 1 c).Φ (Fin.last _) ⊢ Pipeline.ΦA spec1 c from hout1 (V2 m ρ) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V3 m ρ) c).loose
  hwaits := Pipeline.hwaits_of_owed_zero _ _ _ _ L lv 2 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V3 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (show Pipeline.ΦA spec2 c ⊢ (pdats m ρ 2 c).Φ 0 from hin2 (V3 m ρ) c)
    unfold Pipeline.ΦA
    iintro ⟨Hp, -, Hr⟩
    isplitl [Hr]; · iexact Hr
    iexact Hp
  hout c := by
    rw [Pipeline.ownSems0_none]
    refine BIBase.Entails.trans (show (pdats m ρ 2 c).Φ (Fin.last _) ⊢ Pipeline.ΦA spec2 c from hout2 (V3 m ρ) c) ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V3 m ρ c) (V4 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the run -/

abbrev segs : List (Pipeline.Seg (pcfgs (F := F)) adm (pdats m ρ) () defs₀ 𝒱₀ L lv) :=
  [ .host (hseg hostOps0 hostOps0_sub Gen.hostOps0_fresh (W0 m ρ)),
    .region (reg0 m ρ),
    .region (reg1 m ρ),
    .region (reg2 m ρ) ]
theorem main_run (c : Dev nD) : main (F := F) c = Pipeline.Seg.run (segs m ρ) := (main_chain c).trans (by chain_rfl)

set_option backward.isDefEq.respectTransparency.types false in
/-- THE RUN: every weakly fair execution of @main from `m` with zero counters terminates, nothing faulting, with the
    result array at the last boundary's contents and every argument array as launched. -/
theorem run_all : θ_run defs (onTc (τ := τ) (main (F := F))) ⟨m, fun _ => 0, ρ⟩ (fun r => ∀ c : Dev nD,
      r.2.mem ((c.tc : Thread nD τ).loc main_v6) = W4 m ρ c (Proc.devRef .tc main_v6)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v6 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c)⟩)

/-- The result array after the run is what region 2's pipeline leaves in its output window's array. -/
theorem W4_result (c : Dev nD) : W4 m ρ c (Proc.devRef .tc main_v6) = (dat2 (V3 m ρ) c).arrAt 2 cfg2.N :=
  W4_arr m ρ c 2

/-- THE FRAME at any `F`: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => (h c).2) (run_all m ρ)

end Cert.Kernel.Hand

end
-- ==== Proof.R0Frame.lean ====
/-
  Region 0 of the kernel program — the fused projection x·[Wq | Wk | Wv] + [bq | bk | bv] — : its proof data and body
  obligation. The grid is the 8 row blocks of x; at each point the body multiplies the 512×1024 block of x by the whole
  1024×3072 weight, adds the bias row, and stores the three 1024-column slices of the result into the Q, K and V
  blocks. Nothing is kept between points, and every output block is a function of the point's input blocks alone.
-/
import proofs.«174378_j75565654606299_2_alg».proof.Proof.Gen.KernelIdeal.Launch
import proofs.«174378_j75565654606299_2_alg».proof.Proof.Gen.KernelIdeal.Skeleton
import proofs.«174378_j75565654606299_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Blocks
variable (V : (c : Dev nD) → (b : Ref sig .tc) → Buf (Elt F) ((c : Thread nD τ).loc b))

/-- Window `w`'s block at point `t`, read off its array as region 0 finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The x block (window 0) sits in its staging buffer at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The whole weight (window 1, one block) sits in its staging buffer at every point, fetched once. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The bias row (window 2, one block) sits in its staging buffer at every point, fetched once. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

end Blocks

/-! ## The body's accesses and what it leaves in each output's buffer -/

abbrev r0_x : Rect S512x1024 := Rect.unit (s := S512x1024) ![0, 0] S512x1024.size inb_S512x1024_S512x1024_0_0
abbrev r0_w : Rect S1024x3072 := Rect.unit (s := S1024x3072) ![0, 0] S1024x3072.size inb_S1024x3072_S1024x3072_0_0
abbrev r0_b : Rect S1x3072 := Rect.unit (s := S1x3072) ![0, 0] S1x3072.size inb_S1x3072_S1x3072_0_0

/-- The Q block's buffer after the body: its one store, the first 1024 columns of x·W + b. -/
def out0_3 (x0 : Vec F S512x1024 .f32) (x1 : Vec F S1024x3072 .bf16) (x2 : Vec F S1x3072 .f32) : Vec F S512x1024 .bf16 :=
  View.canon [⟨r0_x, k0_pay2 (View.ld x0 r0_x) (View.ld x1 r0_w) (View.ld x2 r0_b)⟩]
/-- The K block's buffer after the body: columns 1024 … 2047. -/
def out0_4 (x0 : Vec F S512x1024 .f32) (x1 : Vec F S1024x3072 .bf16) (x2 : Vec F S1x3072 .f32) : Vec F S512x1024 .bf16 :=
  View.canon [⟨r0_x, k0_pay3 (View.ld x0 r0_x) (View.ld x1 r0_w) (View.ld x2 r0_b)⟩]
/-- The V block's buffer after the body: columns 2048 … 3071. -/
def out0_5 (x0 : Vec F S512x1024 .f32) (x1 : Vec F S1024x3072 .bf16) (x2 : Vec F S1x3072 .f32) : Vec F S512x1024 .bf16 :=
  View.canon [⟨r0_x, k0_pay4 (View.ld x0 r0_x) (View.ld x1 r0_w) (View.ld x2 r0_b)⟩]

/-- One store of the whole block covers it. -/
theorem cover0_out (p0 : Vec F S512x1024 .bf16) (y : S512x1024.Idx) :
    ∃ pc ∈ ([⟨r0_x, p0⟩] : List (View.Piece (Elt F) S512x1024 .bf16)), y ∈ pc.1.set :=
  View.cover_of_tiled [⟨r0_x, p0⟩] S512x1024.size (by rfl) y

/-! ## The body's triple -/

set_option maxHeartbeats 2000000 in
theorem sound_kernel0 (c : Dev nD) (E : Set ℕ) (i : grid0.Coords) (arg1 : Memref sig .tc .vmem S512x1024 .f32) (harg1 : arg1.IsWhole) (arg2 : Memref sig .tc .vmem S1024x3072 .bf16) (harg2 : arg2.IsWhole) (arg3 : Memref sig .tc .vmem S1x3072 .f32) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S512x1024 .bf16) (harg6 : arg6.IsWhole)
    (x0 : Vec F S512x1024 .f32) (x1 : Vec F S1024x3072 .bf16) (x2 : Vec F S1x3072 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2) ∗ owns (c : Thread nD τ) arg5 fullShare (out0_4 x0 x1 x2) ∗ owns (c : Thread nD τ) arg6 fullShare (out0_5 x0 x1 x2)) -∗ K ⟨⟩))
      ⊢ wp frame (wpE (defs₀ (F := F)) Variants.none c none) E (cc0__qkv_kernel i arg1 harg1 arg2 harg2 arg3 harg3 arg4 harg4 arg5 harg5 arg6 harg6) K := by
  simp only [cc0__qkv_kernel_eq_skeleton]; unfold cc0__qkv_kernel_skel
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover0_out _)
  isplitl [H4]
  · iexists _; isplitr
    swap; · iexact H4
    ipureintro
    exact View.read_writes_eq_canon _ _ _ (cover0_out _)
  iexists _; isplitr
  swap; · iexact H5
  ipureintro
  exact View.read_writes_eq_canon _ _ _ (cover0_out _)

section Data
variable (V : (c : Dev nD) → (b : Ref sig .tc) → Buf (Elt F) ((c : Thread nD τ).loc b))

/-! ## The pipeline's proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
    | ⟨4, _⟩ => out0_4 (iblk0 V c 0 t) (iblk0 V c 1 t) (iblk0 V c 2 t)
    | ⟨5, _⟩ => out0_5 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]
theorem after0_4 (c : Dev nD) (t : Fin cfg0.N) : (dat0 V c).after 4 t = out0_4 (iblk0 V c 0 t) (iblk0 V c 1 t) (iblk0 V c 2 t) := by dsimp only [dat0]
theorem after0_5 (c : Dev nD) (t : Fin cfg0.N) : (dat0 V c).after 5 t = out0_5 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

set_option maxHeartbeats 2000000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ (grid0.coords t) _ _ _ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation0 (c : Dev nD) : BodyObligation (dat0 (F := F) V c) (defs₀ (F := F)) Variants.none () Set.univ := fun t => by
  rw [bigSep_W0, bigSep_W0]
  exact sound_body0 V c t

end Data

end Cert.KernelIdeal.Hand

end
-- ==== Proof.R1Shared.lean ====
/-
  Region 1 of the kernel program — the weights e = exp(mask ⊙ Q·Kᵀ), their row sums, and Vs = V / row sums — : what its
  three case runs and its proof data share. The grid is 8 × 8 (query block qi, key block ki), point t = 8·qi + ki. The
  body resets its 512×1 column of row sums when ki = 0, stores the point's 512×512 block of weights, adds that block's
  row sums to the column, and when ki = 7 divides the query block's rows of V by the finished column and stores them.
  The Vs window's block index depends on qi only: it is written back at ki = 7 alone and idle at the other points.
-/
import proofs.«174378_j75565654606299_2_alg».proof.Proof.Gen.KernelIdeal.Launch
import proofs.«174378_j75565654606299_2_alg».proof.Proof.Gen.KernelIdeal.Skeleton
import proofs.«174378_j75565654606299_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Blocks
variable (V : (c : Dev nD) → (b : Ref sig .tc) → Buf (Elt F) ((c : Thread nD τ).loc b))

/-- Window `w`'s block at point `t`, read off its array as region 1 finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The Q block (window 0) sits in its staging buffer at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The K block (window 1) sits in its staging buffer at every point. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The V block (window 2) sits in its staging buffer at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The mask block (window 3) sits in its staging buffer at every point. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

end Blocks

/-! ## The two branch conditions, in closed form over the grid -/

/-- The first branch (reset the column of row sums): the key-block coordinate is 0. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 8 = 0 :=
  (by decide +kernel : ∀ t : Fin grid1.N, cond1_0 (grid1.coords t) ↔ t.val % 8 = 0)

/-- The second branch (divide V's rows and store them): the key-block coordinate is 7. -/
abbrev cond1_1 (i : grid1.Coords) : Prop := k1_cond2 i = 1#1
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
theorem idleAt1_5_A : ∀ t : Fin cfg1.N, cond1_0 (grid1.coords t) → ¬cond1_1 (grid1.coords t) → cfg1.idle 5 (grid1.coords t) = true := by decide +kernel
theorem noFlush1_5_A : ∀ t : Fin cfg1.N, cond1_0 (grid1.coords t) → ¬cond1_1 (grid1.coords t) → (cfg1.win 5).flush t = false := by decide +kernel
theorem idleAt1_5_B : ∀ t : Fin cfg1.N, ¬cond1_0 (grid1.coords t) → ¬cond1_1 (grid1.coords t) → cfg1.idle 5 (grid1.coords t) = true := by decide +kernel
theorem noFlush1_5_B : ∀ t : Fin cfg1.N, ¬cond1_0 (grid1.coords t) → ¬cond1_1 (grid1.coords t) → (cfg1.win 5).flush t = false := by decide +kernel
theorem liveAt1_5_C : ∀ t : Fin cfg1.N, ¬cond1_0 (grid1.coords t) → cond1_1 (grid1.coords t) → cfg1.idle 5 (grid1.coords t) = false := by decide +kernel

/-! ## The memrefs the body is called with -/

abbrev VO1_4 : View sig .tc .vmem S512x512 .bf16 := (Memref.whole cc1_stg4_0 : Memref sig .tc .vmem S512x512 .bf16).view
abbrev VO1_5 : View sig .tc .vmem S512x1024 .bf16 := (Memref.whole cc1_stg5_0 : Memref sig .tc .vmem S512x1024 .bf16).view
abbrev ms1_0 (t : Fin cfg1.N) : Memref sig .tc .vmem S512x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S512x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S512x1024 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S512x512 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S512x512 .bf16 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S512x1024 .bf16 := win1_5.stage (cfg1.slots t 5)
abbrev hs1_5 (t : Fin cfg1.N) : (ms1_5 t).IsWhole := hstage1_5 ((cfg1.slots t 5).cast nbuf1_5)
/-- The column of row sums: a whole scoped buffer of the kernel's own. -/
abbrev scM1_0 : Memref sig .tc .vmem S512x1 .f32 := Memref.whole cc1_scratch0
abbrev VS1_0 : View sig .tc .vmem S512x1 .f32 := scM1_0.view

/-- The core's other scoped buffers — the staging buffers and the scratch of the other two calls —, each at some
    contents: region 1 never touches them. -/
abbrev Rest1 (c : Dev nD) : sProp 𝕄 :=
  Pipeline.scopedRestBut (Ix := Unit) (Name := ℕ) (U := UR sig nD τ) (Lvl := ℕ) (Val := Elt F) spec1 c [cc1_scratch0]

/-- The class invariant with the column of row sums split off as a memref owned at some contents. -/
theorem PhiA1_eq (c : Dev nD) :
    (Pipeline.ΦA spec1 c : sProp 𝕄)
      = iprop(((∃ d, owns (c : Thread nD τ) scM1_0 fullShare d) ∗ Rest1 (F := F) c) ∗ (∃ r, prngReg c r)) := by
  unfold Pipeline.ΦA
  rw [Pipeline.scopedRest_split_of_list spec1 c [cc1_scratch0] (by decide) (by decide)]
  simp only [bigSepL_singleton, scM1_0, owns_whole]; try rfl

end Cert.KernelIdeal.Hand

end
-- ==== Proof.R1Runs.lean ====
/-
  Region 1 of the kernel program: the body run whole in each of its three cases — ki = 0 (the column of row sums reset,
  the block of weights stored, its row sums added), 0 < ki < 7 (the same without the reset, over what the point before
  left), ki = 7 (the same, and then the query block's rows of V divided by the finished column and stored). Each run's
  witness is the list of pieces each buffer it stores into ends with.
-/
import proofs.«174378_j75565654606299_2_alg».proof.Proof.R1Shared

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- ki = 0: the Vs buffer is handed back untouched; the weights' buffer and the column, found at anything, end with their pieces. -/
noncomputable def kernelRun1_A (c : Dev nD) (i : grid1.Coords) (arg2 : Memref sig .tc .vmem S512x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x512 .f32) (harg5 : arg5.IsWhole) (arg6 : Memref sig .tc .vmem S512x512 .bf16) (harg6 : arg6.IsWhole) (arg7 : Memref sig .tc .vmem S512x1024 .bf16) (harg7 : arg7.IsWhole) (arg8 : Memref sig .tc .vmem S512x1 .f32) (harg8 : arg8.IsWhole) (hc0 : cond1_0 i) (hc1 : ¬cond1_1 i)
    (x0 : Vec F S512x1024 .bf16) (x1 : Vec F S512x1024 .bf16) (x2 : Vec F S512x1024 .bf16) (x3 : Vec F S512x512 .f32) :
    Σ' (L4 : List (View.Piece (Elt F) S512x512 .bf16)) (L5 : List (View.Piece (Elt F) S512x1024 .bf16)), { LS0 : List (View.Piece (Elt F) S512x1 .f32) //
      ∀ (xi5 : Vec F S512x1024 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xi5 ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ owns (c : Thread nD τ) arg7 fullShare xi5 ∗ (∃ f, arg8.view.loc (c : Thread nD τ) ↦[arg8.view.set]{fullShare} arg8.view.writes (Elt F) f LS0)) -∗ K ⟨⟩))
          ⊢ wp frame (wpE (defs₀ (F := F)) Variants.none c none) E (cc1__e_vs_kernel i arg2 harg2 arg3 harg3 arg4 harg4 arg5 harg5 arg6 harg6 arg7 harg7 arg8 harg8) K } := by
  refine ⟨?_, [], ?_, fun xi5 E K => ?run⟩
  case run =>
    simp only [cc1__e_vs_kernel_eq_skeleton]; unfold cc1__e_vs_kernel_skel
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%ds0, %fs0, -, HS0⟩, Hk⟩
    obtain rfl := harg2.eq_unread hf0; obtain rfl := harg3.eq_unread hf1; obtain rfl := harg4.eq_unread hf2; obtain rfl := harg5.eq_unread hf3; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]
    · iexists _; isplitr; · ipureintro; exact harg7.read_unread _
      iexact H5
    iexists _; iexact HS0

set_option maxHeartbeats 2000000 in
/-- 0 < ki < 7: the Vs buffer is handed back untouched; the column is found at what the point before left (`xs0`). -/
noncomputable def kernelRun1_B (c : Dev nD) (i : grid1.Coords) (arg2 : Memref sig .tc .vmem S512x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x512 .f32) (harg5 : arg5.IsWhole) (arg6 : Memref sig .tc .vmem S512x512 .bf16) (harg6 : arg6.IsWhole) (arg7 : Memref sig .tc .vmem S512x1024 .bf16) (harg7 : arg7.IsWhole) (arg8 : Memref sig .tc .vmem S512x1 .f32) (harg8 : arg8.IsWhole) (hc0 : ¬cond1_0 i) (hc1 : ¬cond1_1 i)
    (x0 : Vec F S512x1024 .bf16) (x1 : Vec F S512x1024 .bf16) (x2 : Vec F S512x1024 .bf16) (x3 : Vec F S512x512 .f32) (xs0 : Vec F S512x1 .f32) :
    Σ' (L4 : List (View.Piece (Elt F) S512x512 .bf16)) (L5 : List (View.Piece (Elt F) S512x1024 .bf16)), { LS0 : List (View.Piece (Elt F) S512x1 .f32) //
      ∀ (xi5 : Vec F S512x1024 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xi5 ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ owns (c : Thread nD τ) arg7 fullShare xi5 ∗ (∃ f, arg8.view.loc (c : Thread nD τ) ↦[arg8.view.set]{fullShare} arg8.view.writes (Elt F) f LS0)) -∗ K ⟨⟩))
          ⊢ wp frame (wpE (defs₀ (F := F)) Variants.none c none) E (cc1__e_vs_kernel i arg2 harg2 arg3 harg3 arg4 harg4 arg5 harg5 arg6 harg6 arg7 harg7 arg8 harg8) K } := by
  refine ⟨?_, [], ?_, fun xi5 E K => ?run⟩
  case run =>
    simp only [cc1__e_vs_kernel_eq_skeleton]; unfold cc1__e_vs_kernel_skel
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%fs0, %hfs0, HS0⟩, Hk⟩
    obtain rfl := harg2.eq_unread hf0; obtain rfl := harg3.eq_unread hf1; obtain rfl := harg4.eq_unread hf2; obtain rfl := harg5.eq_unread hf3; obtain rfl := harg7.eq_unread hf5; obtain rfl := harg8.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]
    · iexists _; isplitr; · ipureintro; exact harg7.read_unread _
      iexact H5
    iexists _; iexact HS0

set_option maxHeartbeats 2000000 in
/-- ki = 7: the weights' buffer, the Vs buffer (both found at anything) and the column (found at what the point before
    left) end with their pieces. -/
noncomputable def kernelRun1_C (c : Dev nD) (i : grid1.Coords) (arg2 : Memref sig .tc .vmem S512x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x512 .f32) (harg5 : arg5.IsWhole) (arg6 : Memref sig .tc .vmem S512x512 .bf16) (harg6 : arg6.IsWhole) (arg7 : Memref sig .tc .vmem S512x1024 .bf16) (harg7 : arg7.IsWhole) (arg8 : Memref sig .tc .vmem S512x1 .f32) (harg8 : arg8.IsWhole) (hc0 : ¬cond1_0 i) (hc1 : cond1_1 i)
    (x0 : Vec F S512x1024 .bf16) (x1 : Vec F S512x1024 .bf16) (x2 : Vec F S512x1024 .bf16) (x3 : Vec F S512x512 .f32) (xs0 : Vec F S512x1 .f32) :
    Σ' (L4 : List (View.Piece (Elt F) S512x512 .bf16)) (L5 : List (View.Piece (Elt F) S512x1024 .bf16)), { LS0 : List (View.Piece (Elt F) S512x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS0)) -∗ K ⟨⟩))
          ⊢ wp frame (wpE (defs₀ (F := F)) Variants.none c none) E (cc1__e_vs_kernel i arg2 harg2 arg3 harg3 arg4 harg4 arg5 harg5 arg6 harg6 arg7 harg7 arg8 harg8) K } := by
  refine ⟨?_, ?_, ?_, fun E K => ?run⟩
  case run =>
    simp only [cc1__e_vs_kernel_eq_skeleton]; unfold cc1__e_vs_kernel_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%fs0, %hfs0, HS0⟩, Hk⟩
    obtain rfl := harg2.eq_unread hf0; obtain rfl := harg3.eq_unread hf1; obtain rfl := harg4.eq_unread hf2; obtain rfl := harg5.eq_unread hf3; obtain rfl := harg8.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]; · iexists _; iexact H5
    iexists _; iexact HS0

end Cert.KernelIdeal.Hand

end
-- ==== Proof.R1Frame.lean ====
/-
  Region 1 of the kernel program: what its two output blocks and its column of row sums hold after each grid point,
  the proof data of its pipeline, and the body obligation. After point t = 8·qi + ki the column holds, for each row of
  the query block, the sum of that row's weights over the key blocks 0 … ki, starting again from zero at every ki = 0;
  the block of weights is stored at every point, the block of Vs at ki = 7 only. The invariant between points carries
  the column at exactly those contents.
-/
import proofs.«174378_j75565654606299_2_alg».proof.Proof.R1Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each case leaves -/

theorem cover1_A_4 (c : Dev nD) (i : grid1.Coords) (arg2 : Memref sig .tc .vmem S512x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x512 .f32) (harg5 : arg5.IsWhole) (arg6 : Memref sig .tc .vmem S512x512 .bf16) (harg6 : arg6.IsWhole) (arg7 : Memref sig .tc .vmem S512x1024 .bf16) (harg7 : arg7.IsWhole) (arg8 : Memref sig .tc .vmem S512x1 .f32) (harg8 : arg8.IsWhole) (hc0 : cond1_0 i) (hc1 : ¬cond1_1 i)
    (x0 : Vec F S512x1024 .bf16) (x1 : Vec F S512x1024 .bf16) (x2 : Vec F S512x1024 .bf16) (x3 : Vec F S512x512 .f32) (y : S512x512.Idx) :
    ∃ pc ∈ (kernelRun1_A c i arg2 harg2 arg3 harg3 arg4 harg4 arg5 harg5 arg6 harg6 arg7 harg7 arg8 harg8 hc0 hc1 x0 x1 x2 x3).1, y ∈ pc.1.set :=
  View.cover_of_tiledL (kernelRun1_A c i arg2 harg2 arg3 harg3 arg4 harg4 arg5 harg5 arg6 harg6 arg7 harg7 arg8 harg8 hc0 hc1 x0 x1 x2 x3).1 S512x512.size (by sl_kernel_rfl) y

/-- What case A leaves in the weights' staging buffer. -/
def out1_A_4 (c : Dev nD) (i : grid1.Coords) (arg2 : Memref sig .tc .vmem S512x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x512 .f32) (harg5 : arg5.IsWhole) (arg6 : Memref sig .tc .vmem S512x512 .bf16) (harg6 : arg6.IsWhole) (arg7 : Memref sig .tc .vmem S512x1024 .bf16) (harg7 : arg7.IsWhole) (arg8 : Memref sig .tc .vmem S512x1 .f32) (harg8 : arg8.IsWhole) (hc0 : cond1_0 i) (hc1 : ¬cond1_1 i)
    (x0 : Vec F S512x1024 .bf16) (x1 : Vec F S512x1024 .bf16) (x2 : Vec F S512x1024 .bf16) (x3 : Vec F S512x512 .f32) : Vec F S512x512 .bf16 :=
  VO1_4.read (Elt F) (VO1_4.writes (Elt F) VO1_4.junk (kernelRun1_A c i arg2 harg2 arg3 harg3 arg4 harg4 arg5 harg5 arg6 harg6 arg7 harg7 arg8 harg8 hc0 hc1 x0 x1 x2 x3).1)

/-- What case A leaves in the Vs staging buffer (nothing is stored: a placeholder nothing consults, the window being idle there). -/
def out1_A_5 (c : Dev nD) (i : grid1.Coords) (arg2 : Memref sig .tc .vmem S512x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x512 .f32) (harg5 : arg5.IsWhole) (arg6 : Memref sig .tc .vmem S512x512 .bf16) (harg6 : arg6.IsWhole) (arg7 : Memref sig .tc .vmem S512x1024 .bf16) (harg7 : arg7.IsWhole) (arg8 : Memref sig .tc .vmem S512x1 .f32) (harg8 : arg8.IsWhole) (hc0 : cond1_0 i) (hc1 : ¬cond1_1 i)
    (x0 : Vec F S512x1024 .bf16) (x1 : Vec F S512x1024 .bf16) (x2 : Vec F S512x1024 .bf16) (x3 : Vec F S512x512 .f32) : Vec F S512x1024 .bf16 :=
  VO1_5.read (Elt F) (VO1_5.writes (Elt F) VO1_5.junk (kernelRun1_A c i arg2 harg2 arg3 harg3 arg4 harg4 arg5 harg5 arg6 harg6 arg7 harg7 arg8 harg8 hc0 hc1 x0 x1 x2 x3).2.1)

theorem scover1_A_0 (c : Dev nD) (i : grid1.Coords) (arg2 : Memref sig .tc .vmem S512x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x512 .f32) (harg5 : arg5.IsWhole) (arg6 : Memref sig .tc .vmem S512x512 .bf16) (harg6 : arg6.IsWhole) (arg7 : Memref sig .tc .vmem S512x1024 .bf16) (harg7 : arg7.IsWhole) (arg8 : Memref sig .tc .vmem S512x1 .f32) (harg8 : arg8.IsWhole) (hc0 : cond1_0 i) (hc1 : ¬cond1_1 i)
    (x0 : Vec F S512x1024 .bf16) (x1 : Vec F S512x1024 .bf16) (x2 : Vec F S512x1024 .bf16) (x3 : Vec F S512x512 .f32) (y : S512x1.Idx) :
    ∃ pc ∈ (kernelRun1_A c i arg2 harg2 arg3 harg3 arg4 harg4 arg5 harg5 arg6 harg6 arg7 harg7 arg8 harg8 hc0 hc1 x0 x1 x2 x3).2.2.1, y ∈ pc.1.set :=
  View.cover_of_tiledL (kernelRun1_A c i arg2 harg2 arg3 harg3 arg4 harg4 arg5 harg5 arg6 harg6 arg7 harg7 arg8 harg8 hc0 hc1 x0 x1 x2 x3).2.2.1 S512x1.size (by sl_kernel_rfl) y

/-- What case A leaves in the column of row sums. -/
def sout1_A_0 (c : Dev nD) (i : grid1.Coords) (arg2 : Memref sig .tc .vmem S512x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x512 .f32) (harg5 : arg5.IsWhole) (arg6 : Memref sig .tc .vmem S512x512 .bf16) (harg6 : arg6.IsWhole) (arg7 : Memref sig .tc .vmem S512x1024 .bf16) (harg7 : arg7.IsWhole) (arg8 : Memref sig .tc .vmem S512x1 .f32) (harg8 : arg8.IsWhole) (hc0 : cond1_0 i) (hc1 : ¬cond1_1 i)
    (x0 : Vec F S512x1024 .bf16) (x1 : Vec F S512x1024 .bf16) (x2 : Vec F S512x1024 .bf16) (x3 : Vec F S512x512 .f32) : Vec F S512x1 .f32 :=
  VS1_0.read (Elt F) (VS1_0.writes (Elt F) VS1_0.junk (kernelRun1_A c i arg2 harg2 arg3 harg3 arg4 harg4 arg5 harg5 arg6 harg6 arg7 harg7 arg8 harg8 hc0 hc1 x0 x1 x2 x3).2.2.1)

theorem cover1_B_4 (c : Dev nD) (i : grid1.Coords) (arg2 : Memref sig .tc .vmem S512x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x512 .f32) (harg5 : arg5.IsWhole) (arg6 : Memref sig .tc .vmem S512x512 .bf16) (harg6 : arg6.IsWhole) (arg7 : Memref sig .tc .vmem S512x1024 .bf16) (harg7 : arg7.IsWhole) (arg8 : Memref sig .tc .vmem S512x1 .f32) (harg8 : arg8.IsWhole) (hc0 : ¬cond1_0 i) (hc1 : ¬cond1_1 i)
    (x0 : Vec F S512x1024 .bf16) (x1 : Vec F S512x1024 .bf16) (x2 : Vec F S512x1024 .bf16) (x3 : Vec F S512x512 .f32) (xs0 : Vec F S512x1 .f32) (y : S512x512.Idx) :
    ∃ pc ∈ (kernelRun1_B c i arg2 harg2 arg3 harg3 arg4 harg4 arg5 harg5 arg6 harg6 arg7 harg7 arg8 harg8 hc0 hc1 x0 x1 x2 x3 xs0).1, y ∈ pc.1.set :=
  View.cover_of_tiledL (kernelRun1_B c i arg2 harg2 arg3 harg3 arg4 harg4 arg5 harg5 arg6 harg6 arg7 harg7 arg8 harg8 hc0 hc1 x0 x1 x2 x3 xs0).1 S512x512.size (by sl_kernel_rfl) y

/-- What case B leaves in the weights' staging buffer. -/
def out1_B_4 (c : Dev nD) (i : grid1.Coords) (arg2 : Memref sig .tc .vmem S512x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x512 .f32) (harg5 : arg5.IsWhole) (arg6 : Memref sig .tc .vmem S512x512 .bf16) (harg6 : arg6.IsWhole) (arg7 : Memref sig .tc .vmem S512x1024 .bf16) (harg7 : arg7.IsWhole) (arg8 : Memref sig .tc .vmem S512x1 .f32) (harg8 : arg8.IsWhole) (hc0 : ¬cond1_0 i) (hc1 : ¬cond1_1 i)
    (x0 : Vec F S512x1024 .bf16) (x1 : Vec F S512x1024 .bf16) (x2 : Vec F S512x1024 .bf16) (x3 : Vec F S512x512 .f32) (xs0 : Vec F S512x1 .f32) : Vec F S512x512 .bf16 :=
  VO1_4.read (Elt F) (VO1_4.writes (Elt F) VO1_4.junk (kernelRun1_B c i arg2 harg2 arg3 harg3 arg4 harg4 arg5 harg5 arg6 harg6 arg7 harg7 arg8 harg8 hc0 hc1 x0 x1 x2 x3 xs0).1)

/-- What case B leaves in the Vs staging buffer (nothing is stored: a placeholder nothing consults, the window being idle there). -/
def out1_B_5 (c : Dev nD) (i : grid1.Coords) (arg2 : Memref sig .tc .vmem S512x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x512 .f32) (harg5 : arg5.IsWhole) (arg6 : Memref sig .tc .vmem S512x512 .bf16) (harg6 : arg6.IsWhole) (arg7 : Memref sig .tc .vmem S512x1024 .bf16) (harg7 : arg7.IsWhole) (arg8 : Memref sig .tc .vmem S512x1 .f32) (harg8 : arg8.IsWhole) (hc0 : ¬cond1_0 i) (hc1 : ¬cond1_1 i)
    (x0 : Vec F S512x1024 .bf16) (x1 : Vec F S512x1024 .bf16) (x2 : Vec F S512x1024 .bf16) (x3 : Vec F S512x512 .f32) (xs0 : Vec F S512x1 .f32) : Vec F S512x1024 .bf16 :=
  VO1_5.read (Elt F) (VO1_5.writes (Elt F) VO1_5.junk (kernelRun1_B c i arg2 harg2 arg3 harg3 arg4 harg4 arg5 harg5 arg6 harg6 arg7 harg7 arg8 harg8 hc0 hc1 x0 x1 x2 x3 xs0).2.1)

theorem scover1_B_0 (c : Dev nD) (i : grid1.Coords) (arg2 : Memref sig .tc .vmem S512x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x512 .f32) (harg5 : arg5.IsWhole) (arg6 : Memref sig .tc .vmem S512x512 .bf16) (harg6 : arg6.IsWhole) (arg7 : Memref sig .tc .vmem S512x1024 .bf16) (harg7 : arg7.IsWhole) (arg8 : Memref sig .tc .vmem S512x1 .f32) (harg8 : arg8.IsWhole) (hc0 : ¬cond1_0 i) (hc1 : ¬cond1_1 i)
    (x0 : Vec F S512x1024 .bf16) (x1 : Vec F S512x1024 .bf16) (x2 : Vec F S512x1024 .bf16) (x3 : Vec F S512x512 .f32) (xs0 : Vec F S512x1 .f32) (y : S512x1.Idx) :
    ∃ pc ∈ (kernelRun1_B c i arg2 harg2 arg3 harg3 arg4 harg4 arg5 harg5 arg6 harg6 arg7 harg7 arg8 harg8 hc0 hc1 x0 x1 x2 x3 xs0).2.2.1, y ∈ pc.1.set :=
  View.cover_of_tiledL (kernelRun1_B c i arg2 harg2 arg3 harg3 arg4 harg4 arg5 harg5 arg6 harg6 arg7 harg7 arg8 harg8 hc0 hc1 x0 x1 x2 x3 xs0).2.2.1 S512x1.size (by sl_kernel_rfl) y

/-- What case B leaves in the column of row sums. -/
def sout1_B_0 (c : Dev nD) (i : grid1.Coords) (arg2 : Memref sig .tc .vmem S512x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x512 .f32) (harg5 : arg5.IsWhole) (arg6 : Memref sig .tc .vmem S512x512 .bf16) (harg6 : arg6.IsWhole) (arg7 : Memref sig .tc .vmem S512x1024 .bf16) (harg7 : arg7.IsWhole) (arg8 : Memref sig .tc .vmem S512x1 .f32) (harg8 : arg8.IsWhole) (hc0 : ¬cond1_0 i) (hc1 : ¬cond1_1 i)
    (x0 : Vec F S512x1024 .bf16) (x1 : Vec F S512x1024 .bf16) (x2 : Vec F S512x1024 .bf16) (x3 : Vec F S512x512 .f32) (xs0 : Vec F S512x1 .f32) : Vec F S512x1 .f32 :=
  VS1_0.read (Elt F) (VS1_0.writes (Elt F) VS1_0.junk (kernelRun1_B c i arg2 harg2 arg3 harg3 arg4 harg4 arg5 harg5 arg6 harg6 arg7 harg7 arg8 harg8 hc0 hc1 x0 x1 x2 x3 xs0).2.2.1)

theorem cover1_C_4 (c : Dev nD) (i : grid1.Coords) (arg2 : Memref sig .tc .vmem S512x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x512 .f32) (harg5 : arg5.IsWhole) (arg6 : Memref sig .tc .vmem S512x512 .bf16) (harg6 : arg6.IsWhole) (arg7 : Memref sig .tc .vmem S512x1024 .bf16) (harg7 : arg7.IsWhole) (arg8 : Memref sig .tc .vmem S512x1 .f32) (harg8 : arg8.IsWhole) (hc0 : ¬cond1_0 i) (hc1 : cond1_1 i)
    (x0 : Vec F S512x1024 .bf16) (x1 : Vec F S512x1024 .bf16) (x2 : Vec F S512x1024 .bf16) (x3 : Vec F S512x512 .f32) (xs0 : Vec F S512x1 .f32) (y : S512x512.Idx) :
    ∃ pc ∈ (kernelRun1_C c i arg2 harg2 arg3 harg3 arg4 harg4 arg5 harg5 arg6 harg6 arg7 harg7 arg8 harg8 hc0 hc1 x0 x1 x2 x3 xs0).1, y ∈ pc.1.set :=
  View.cover_of_tiledL (kernelRun1_C c i arg2 harg2 arg3 harg3 arg4 harg4 arg5 harg5 arg6 harg6 arg7 harg7 arg8 harg8 hc0 hc1 x0 x1 x2 x3 xs0).1 S512x512.size (by sl_kernel_rfl) y

/-- What case C leaves in the weights' staging buffer. -/
def out1_C_4 (c : Dev nD) (i : grid1.Coords) (arg2 : Memref sig .tc .vmem S512x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x512 .f32) (harg5 : arg5.IsWhole) (arg6 : Memref sig .tc .vmem S512x512 .bf16) (harg6 : arg6.IsWhole) (arg7 : Memref sig .tc .vmem S512x1024 .bf16) (harg7 : arg7.IsWhole) (arg8 : Memref sig .tc .vmem S512x1 .f32) (harg8 : arg8.IsWhole) (hc0 : ¬cond1_0 i) (hc1 : cond1_1 i)
    (x0 : Vec F S512x1024 .bf16) (x1 : Vec F S512x1024 .bf16) (x2 : Vec F S512x1024 .bf16) (x3 : Vec F S512x512 .f32) (xs0 : Vec F S512x1 .f32) : Vec F S512x512 .bf16 :=
  VO1_4.read (Elt F) (VO1_4.writes (Elt F) VO1_4.junk (kernelRun1_C c i arg2 harg2 arg3 harg3 arg4 harg4 arg5 harg5 arg6 harg6 arg7 harg7 arg8 harg8 hc0 hc1 x0 x1 x2 x3 xs0).1)

theorem cover1_C_5 (c : Dev nD) (i : grid1.Coords) (arg2 : Memref sig .tc .vmem S512x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x512 .f32) (harg5 : arg5.IsWhole) (arg6 : Memref sig .tc .vmem S512x512 .bf16) (harg6 : arg6.IsWhole) (arg7 : Memref sig .tc .vmem S512x1024 .bf16) (harg7 : arg7.IsWhole) (arg8 : Memref sig .tc .vmem S512x1 .f32) (harg8 : arg8.IsWhole) (hc0 : ¬cond1_0 i) (hc1 : cond1_1 i)
    (x0 : Vec F S512x1024 .bf16) (x1 : Vec F S512x1024 .bf16) (x2 : Vec F S512x1024 .bf16) (x3 : Vec F S512x512 .f32) (xs0 : Vec F S512x1 .f32) (y : S512x1024.Idx) :
    ∃ pc ∈ (kernelRun1_C c i arg2 harg2 arg3 harg3 arg4 harg4 arg5 harg5 arg6 harg6 arg7 harg7 arg8 harg8 hc0 hc1 x0 x1 x2 x3 xs0).2.1, y ∈ pc.1.set :=
  View.cover_of_tiledL (kernelRun1_C c i arg2 harg2 arg3 harg3 arg4 harg4 arg5 harg5 arg6 harg6 arg7 harg7 arg8 harg8 hc0 hc1 x0 x1 x2 x3 xs0).2.1 S512x1024.size (by sl_kernel_rfl) y

/-- What case C leaves in the Vs staging buffer. -/
def out1_C_5 (c : Dev nD) (i : grid1.Coords) (arg2 : Memref sig .tc .vmem S512x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x512 .f32) (harg5 : arg5.IsWhole) (arg6 : Memref sig .tc .vmem S512x512 .bf16) (harg6 : arg6.IsWhole) (arg7 : Memref sig .tc .vmem S512x1024 .bf16) (harg7 : arg7.IsWhole) (arg8 : Memref sig .tc .vmem S512x1 .f32) (harg8 : arg8.IsWhole) (hc0 : ¬cond1_0 i) (hc1 : cond1_1 i)
    (x0 : Vec F S512x1024 .bf16) (x1 : Vec F S512x1024 .bf16) (x2 : Vec F S512x1024 .bf16) (x3 : Vec F S512x512 .f32) (xs0 : Vec F S512x1 .f32) : Vec F S512x1024 .bf16 :=
  VO1_5.read (Elt F) (VO1_5.writes (Elt F) VO1_5.junk (kernelRun1_C c i arg2 harg2 arg3 harg3 arg4 harg4 arg5 harg5 arg6 harg6 arg7 harg7 arg8 harg8 hc0 hc1 x0 x1 x2 x3 xs0).2.1)

theorem scover1_C_0 (c : Dev nD) (i : grid1.Coords) (arg2 : Memref sig .tc .vmem S512x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x512 .f32) (harg5 : arg5.IsWhole) (arg6 : Memref sig .tc .vmem S512x512 .bf16) (harg6 : arg6.IsWhole) (arg7 : Memref sig .tc .vmem S512x1024 .bf16) (harg7 : arg7.IsWhole) (arg8 : Memref sig .tc .vmem S512x1 .f32) (harg8 : arg8.IsWhole) (hc0 : ¬cond1_0 i) (hc1 : cond1_1 i)
    (x0 : Vec F S512x1024 .bf16) (x1 : Vec F S512x1024 .bf16) (x2 : Vec F S512x1024 .bf16) (x3 : Vec F S512x512 .f32) (xs0 : Vec F S512x1 .f32) (y : S512x1.Idx) :
    ∃ pc ∈ (kernelRun1_C c i arg2 harg2 arg3 harg3 arg4 harg4 arg5 harg5 arg6 harg6 arg7 harg7 arg8 harg8 hc0 hc1 x0 x1 x2 x3 xs0).2.2.1, y ∈ pc.1.set :=
  View.cover_of_tiledL (kernelRun1_C c i arg2 harg2 arg3 harg3 arg4 harg4 arg5 harg5 arg6 harg6 arg7 harg7 arg8 harg8 hc0 hc1 x0 x1 x2 x3 xs0).2.2.1 S512x1.size (by sl_kernel_rfl) y

/-- What case C leaves in the column of row sums. -/
def sout1_C_0 (c : Dev nD) (i : grid1.Coords) (arg2 : Memref sig .tc .vmem S512x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x512 .f32) (harg5 : arg5.IsWhole) (arg6 : Memref sig .tc .vmem S512x512 .bf16) (harg6 : arg6.IsWhole) (arg7 : Memref sig .tc .vmem S512x1024 .bf16) (harg7 : arg7.IsWhole) (arg8 : Memref sig .tc .vmem S512x1 .f32) (harg8 : arg8.IsWhole) (hc0 : ¬cond1_0 i) (hc1 : cond1_1 i)
    (x0 : Vec F S512x1024 .bf16) (x1 : Vec F S512x1024 .bf16) (x2 : Vec F S512x1024 .bf16) (x3 : Vec F S512x512 .f32) (xs0 : Vec F S512x1 .f32) : Vec F S512x1 .f32 :=
  VS1_0.read (Elt F) (VS1_0.writes (Elt F) VS1_0.junk (kernelRun1_C c i arg2 harg2 arg3 harg3 arg4 harg4 arg5 harg5 arg6 harg6 arg7 harg7 arg8 harg8 hc0 hc1 x0 x1 x2 x3 xs0).2.2.1)

section Data
variable (V : (c : Dev nD) → (b : Ref sig .tc) → Buf (Elt F) ((c : Thread nD τ).loc b))

/-! ## Point by point -/

theorem notC1_of_A (t : Fin cfg1.N) (h0 : t.val % 8 = 0) : ¬cond1_1 (grid1.coords t) := fun h => by
  have := (hcond1_1 t).mp h; omega

/-- What a point with ki = 0 leaves: (weights buffer, Vs buffer, column). -/
def point1A (c : Dev nD) (t : Fin cfg1.N) (h0 : t.val % 8 = 0) : Vec F S512x512 .bf16 × Vec F S512x1024 .bf16 × Vec F S512x1 .f32 :=
  (out1_A_4 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) ((hcond1_0 t).mpr h0) (notC1_of_A t h0) (iblk1 V c 0 t) (iblk1 V c 1 t) (iblk1 V c 2 t) (iblk1 V c 3 t),
   out1_A_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) ((hcond1_0 t).mpr h0) (notC1_of_A t h0) (iblk1 V c 0 t) (iblk1 V c 1 t) (iblk1 V c 2 t) (iblk1 V c 3 t),
   sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) ((hcond1_0 t).mpr h0) (notC1_of_A t h0) (iblk1 V c 0 t) (iblk1 V c 1 t) (iblk1 V c 2 t) (iblk1 V c 3 t))

/-- What a point with 0 < ki < 7 leaves, given the column the point before left. -/
def point1B (c : Dev nD) (t : Fin cfg1.N) (h0 : ¬t.val % 8 = 0) (h1 : ¬t.val % 8 = 7) (xs : Vec F S512x1 .f32) : Vec F S512x512 .bf16 × Vec F S512x1024 .bf16 × Vec F S512x1 .f32 :=
  (out1_B_4 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) (fun h => h1 ((hcond1_1 t).mp h)) (iblk1 V c 0 t) (iblk1 V c 1 t) (iblk1 V c 2 t) (iblk1 V c 3 t) xs,
   out1_B_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) (fun h => h1 ((hcond1_1 t).mp h)) (iblk1 V c 0 t) (iblk1 V c 1 t) (iblk1 V c 2 t) (iblk1 V c 3 t) xs,
   sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) (fun h => h1 ((hcond1_1 t).mp h)) (iblk1 V c 0 t) (iblk1 V c 1 t) (iblk1 V c 2 t) (iblk1 V c 3 t) xs)

/-- What a point with ki = 7 leaves, given the column the point before left. -/
def point1C (c : Dev nD) (t : Fin cfg1.N) (h0 : ¬t.val % 8 = 0) (h1 : t.val % 8 = 7) (xs : Vec F S512x1 .f32) : Vec F S512x512 .bf16 × Vec F S512x1024 .bf16 × Vec F S512x1 .f32 :=
  (out1_C_4 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) ((hcond1_1 t).mpr h1) (iblk1 V c 0 t) (iblk1 V c 1 t) (iblk1 V c 2 t) (iblk1 V c 3 t) xs,
   out1_C_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) ((hcond1_1 t).mpr h1) (iblk1 V c 0 t) (iblk1 V c 1 t) (iblk1 V c 2 t) (iblk1 V c 3 t) xs,
   sout1_C_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) ((hcond1_1 t).mpr h1) (iblk1 V c 0 t) (iblk1 V c 1 t) (iblk1 V c 2 t) (iblk1 V c 3 t) xs)

/-- THE ACCUMULATION: what the two output buffers and the column hold after the body at position `n`. -/
def outsAt1 (c : Dev nD) : (n : ℕ) → n < cfg1.N → Vec F S512x512 .bf16 × Vec F S512x1024 .bf16 × Vec F S512x1 .f32
  | 0, hn => point1A V c ⟨0, hn⟩ (Nat.zero_mod _)
  | n + 1, hn =>
    if h0 : (n + 1) % 8 = 0 then point1A V c ⟨n + 1, hn⟩ h0
    else if h1 : (n + 1) % 8 = 7 then point1C V c ⟨n + 1, hn⟩ h0 h1 (outsAt1 c n (Nat.lt_of_succ_lt hn)).2.2
    else point1B V c ⟨n + 1, hn⟩ h0 h1 (outsAt1 c n (Nat.lt_of_succ_lt hn)).2.2

theorem outsAt1_A (c : Dev nD) (t : Fin cfg1.N) (h0 : t.val % 8 = 0) :
    outsAt1 V c t.val t.isLt = point1A V c t h0 := by
  obtain ⟨n, hn⟩ := t
  cases n with
  | zero => rfl
  | succ n => exact dif_pos h0

theorem outsAt1_B (c : Dev nD) (t : Fin cfg1.N) (h0 : ¬t.val % 8 = 0) (h1 : ¬t.val % 8 = 7) :
    outsAt1 V c t.val t.isLt = point1B V c t h0 h1 (outsAt1 V c (t.val - 1) (Nat.lt_of_le_of_lt (Nat.sub_le _ _) t.isLt)).2.2 := by
  obtain ⟨n, hn⟩ := t
  cases n with
  | zero => exact absurd (Nat.zero_mod _) h0
  | succ n => exact (dif_neg h0).trans (dif_neg h1)

theorem outsAt1_C (c : Dev nD) (t : Fin cfg1.N) (h0 : ¬t.val % 8 = 0) (h1 : t.val % 8 = 7) :
    outsAt1 V c t.val t.isLt = point1C V c t h0 h1 (outsAt1 V c (t.val - 1) (Nat.lt_of_le_of_lt (Nat.sub_le _ _) t.isLt)).2.2 := by
  obtain ⟨n, hn⟩ := t
  cases n with
  | zero => exact absurd (Nat.zero_mod _) h0
  | succ n => exact (dif_neg h0).trans (dif_pos h1)

/-! ## The invariant between points -/

def PhiS1 (c : Dev nD) : (n : ℕ) → n ≤ cfg1.N → sProp 𝕄
  | 0, _ => Pipeline.ΦA spec1 c
  | n + 1, hn => iprop((owns (c : Thread nD τ) scM1_0 fullShare ((outsAt1 V c n hn).2.2) ∗ Rest1 (F := F) c) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop((owns (c : Thread nD τ) scM1_0 fullShare ((outsAt1 V c n hn).2.2) ∗ Rest1 (F := F) c) ∗ (∃ r, prngReg c r)) := rfl

theorem PhiS1_pos (c : Dev nD) (n : ℕ) (h : n ≤ cfg1.N) (hz : n ≠ 0) :
    PhiS1 V c n h = iprop((owns (c : Thread nD τ) scM1_0 fullShare ((outsAt1 V c (n - 1) (by omega)).2.2) ∗ Rest1 (F := F) c) ∗ (∃ r, prngReg c r)) := by
  cases n with
  | zero => exact absurd rfl hz
  | succ n => rfl

/-! ## The pipeline's proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
    | ⟨5, _⟩ => (outsAt1 V c t.val t.isLt).2.1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t.val t.isLt).1 := by dsimp only [dat1]
theorem after1_5 (c : Dev nD) (t : Fin cfg1.N) : (dat1 V c).after 5 t = (outsAt1 V c t.val t.isLt).2.1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)

set_option maxHeartbeats 6400000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t], after1_4]
  have hN : t.val < 64 := lt_of_lt_of_eq t.isLt (show cfg1.N = 64 from N_1)
  by_cases h0 : t.val % 8 = 0
  · rw [Dat.leavesExact_idle (dat1 V c) 5 t (idleAt1_5_A t ((hcond1_0 t).mpr h0) (notC1_of_A t h0)) (noFlush1_5_A t ((hcond1_0 t).mpr h0) (notC1_of_A t h0))]
    rw [outsAt1_A V c t h0]
    unfold point1A out1_A_4 sout1_A_0; (try dsimp only)
    by_cases hz : t.val = 0
    · rw [PhiS1_castSucc V c t, PhiS1_zero V c _ _ hz, PhiA1_eq]
      iintro ⟨⟨⟨HS0, HR⟩, Hg⟩, Ho, ⟨%d0, H0⟩, ⟨%d1, H1⟩, ⟨%d2, H2⟩, ⟨%d3, H3⟩, ⟨%d4, H4⟩, ⟨%d5, H5⟩⟩
      iapply ((kernelRun1_A c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) ((hcond1_0 t).mpr h0) (notC1_of_A t h0) (iblk1 V c 0 t) (iblk1 V c 1 t) (iblk1 V c 2 t) (iblk1 V c 3 t)).2.2.2 _ Set.univ _)
      isplitl [H0]; · iexact H0
      isplitl [H1]; · iexact H1
      isplitl [H2]; · iexact H2
      isplitl [H3]; · iexact H3
      isplitl [H4]; · iexists _; iexact H4
      isplitl [H5]; · iexact H5
      isplitl [HS0]; · iexact HS0
      iintro ⟨H0, H1, H2, H3, ⟨%e4, H4⟩, H5, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover1_A_0 c _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover1_A_4 c _ _ _ _ _ _ _ _ _ _ _ _ _ _ _ _ _ _ _ _ _)
      iexists _; iexact H5
    · rw [PhiS1_castSucc V c t, PhiS1_pos V c _ _ hz]
      iintro ⟨⟨⟨HS0, HR⟩, Hg⟩, Ho, ⟨%d0, H0⟩, ⟨%d1, H1⟩, ⟨%d2, H2⟩, ⟨%d3, H3⟩, ⟨%d4, H4⟩, ⟨%d5, H5⟩⟩
      iapply ((kernelRun1_A c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) ((hcond1_0 t).mpr h0) (notC1_of_A t h0) (iblk1 V c 0 t) (iblk1 V c 1 t) (iblk1 V c 2 t) (iblk1 V c 3 t)).2.2.2 _ Set.univ _)
      isplitl [H0]; · iexact H0
      isplitl [H1]; · iexact H1
      isplitl [H2]; · iexact H2
      isplitl [H3]; · iexact H3
      isplitl [H4]; · iexists _; iexact H4
      isplitl [H5]; · iexact H5
      isplitl [HS0]; · iexists _; iexact HS0
      iintro ⟨H0, H1, H2, H3, ⟨%e4, H4⟩, H5, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover1_A_0 c _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover1_A_4 c _ _ _ _ _ _ _ _ _ _ _ _ _ _ _ _ _ _ _ _ _)
      iexists _; iexact H5
  · have hz : t.val ≠ 0 := fun e => h0 (by rw [e])
    by_cases h1 : t.val % 8 = 7
    · rw [show (dat1 V c).leavesExact 5 t = owns (c : Thread nD τ) (ms1_5 t) fullShare ((dat1 V c).after 5 t) from by
        unfold Dat.leavesExact; rw [liveAt1_5_C t (fun h => h0 ((hcond1_0 t).mp h)) ((hcond1_1 t).mpr h1)], after1_5]
      rw [outsAt1_C V c t h0 h1]
      unfold point1C out1_C_4 out1_C_5 sout1_C_0; (try dsimp only)
      rw [PhiS1_castSucc V c t, PhiS1_pos V c _ _ hz]
      iintro ⟨⟨⟨HS0, HR⟩, Hg⟩, Ho, ⟨%d0, H0⟩, ⟨%d1, H1⟩, ⟨%d2, H2⟩, ⟨%d3, H3⟩, ⟨%d4, H4⟩, ⟨%d5, H5⟩⟩
      iapply ((kernelRun1_C c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) ((hcond1_1 t).mpr h1) (iblk1 V c 0 t) (iblk1 V c 1 t) (iblk1 V c 2 t) (iblk1 V c 3 t) _).2.2.2 Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [HS0]; · iexact HS0
      iintro ⟨H0, H1, H2, H3, ⟨%e4, H4⟩, ⟨%e5, H5⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover1_C_0 c _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover1_C_4 c _ _ _ _ _ _ _ _ _ _ _ _ _ _ _ _ _ _ _ _ _ _)
      unfold owns; iexists _; isplitr
      swap; · iexact H5
      ipureintro; exact View.read_writes_of_cover _ _ _ _ _ (cover1_C_5 c _ _ _ _ _ _ _ _ _ _ _ _ _ _ _ _ _ _ _ _ _ _)
    · rw [Dat.leavesExact_idle (dat1 V c) 5 t (idleAt1_5_B t (fun h => h0 ((hcond1_0 t).mp h)) (fun h => h1 ((hcond1_1 t).mp h))) (noFlush1_5_B t (fun h => h0 ((hcond1_0 t).mp h)) (fun h => h1 ((hcond1_1 t).mp h)))]
      rw [outsAt1_B V c t h0 h1]
      unfold point1B out1_B_4 sout1_B_0; (try dsimp only)
      rw [PhiS1_castSucc V c t, PhiS1_pos V c _ _ hz]
      iintro ⟨⟨⟨HS0, HR⟩, Hg⟩, Ho, ⟨%d0, H0⟩, ⟨%d1, H1⟩, ⟨%d2, H2⟩, ⟨%d3, H3⟩, ⟨%d4, H4⟩, ⟨%d5, H5⟩⟩
      iapply ((kernelRun1_B c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) (fun h => h1 ((hcond1_1 t).mp h)) (iblk1 V c 0 t) (iblk1 V c 1 t) (iblk1 V c 2 t) (iblk1 V c 3 t) _).2.2.2 _ Set.univ _)
      isplitl [H0]; · iexact H0
      isplitl [H1]; · iexact H1
      isplitl [H2]; · iexact H2
      isplitl [H3]; · iexact H3
      isplitl [H4]; · iexists _; iexact H4
      isplitl [H5]; · iexact H5
      isplitl [HS0]; · iexact HS0
      iintro ⟨H0, H1, H2, H3, ⟨%e4, H4⟩, H5, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover1_B_0 c _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover1_B_4 c _ _ _ _ _ _ _ _ _ _ _ _ _ _ _ _ _ _ _ _ _ _)
      iexists _; iexact H5

theorem body_obligation1 (c : Dev nD) : BodyObligation (dat1 (F := F) V c) (defs₀ (F := F)) Variants.none () Set.univ := fun t => by
  rw [bigSep_W1, bigSep_W1]
  exact sound_body1 V c t

theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 64 := N_1; omega), PhiA1_eq]
  iintro ⟨⟨HS0, HR⟩, Hg⟩
  isplitl [HS0 HR]
  · isplitl [HS0]
    · iexists _; iexact HS0
    iexact HR
  iexact Hg

end Data

end Cert.KernelIdeal.Hand

end
-- ==== Proof.R2Shared.lean ====
/-
  Region 2 of the kernel program — the product e · Vs accumulated over the key blocks — : what its three case runs
  and its proof data share. The grid is 8 × 8 (query block qi, key block ki), point t = 8·qi + ki. The body resets its
  512×1024 accumulator when ki = 0, adds the product of the point's e block and Vs block, and copies the accumulator
  into the output block when ki = 7; the output window's block index depends on qi only, so it is written back at
  ki = 7 alone and is idle at the other points.
-/
import proofs.«174378_j75565654606299_2_alg».proof.Proof.Gen.KernelIdeal.Launch
import proofs.«174378_j75565654606299_2_alg».proof.Proof.Gen.KernelIdeal.Skeleton
import proofs.«174378_j75565654606299_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Blocks
variable (V : (c : Dev nD) → (b : Ref sig .tc) → Buf (Elt F) ((c : Thread nD τ).loc b))

/-- Window `w`'s block at point `t`, read off its array as region 2 finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The e block (window 0) sits in its staging buffer at every point. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The Vs block (window 1) sits in its staging buffer at every point. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

end Blocks

/-! ## The two branch conditions, in closed form over the grid -/

/-- The first branch (reset the accumulator): the key-block coordinate is 0. -/
abbrev cond2_0 (i : grid2.Coords) : Prop := (Scalar.cmpi .ne (Scalar.extui (Scalar.cmpi .eq (BitVec.ofNat 32 (i 1).val) 0#32)) 0#32) = 1#1
theorem hcond2_0 : ∀ t : Fin cfg2.N, cond2_0 (grid2.coords t) ↔ t.val % 8 = 0 :=
  (by decide +kernel : ∀ t : Fin grid2.N, cond2_0 (grid2.coords t) ↔ t.val % 8 = 0)

/-- The second branch (copy the accumulator out): the key-block coordinate is 7. -/
abbrev cond2_1 (i : grid2.Coords) : Prop := k2_cond2 i = 1#1
theorem hcond2_1 : ∀ t : Fin cfg2.N, cond2_1 (grid2.coords t) ↔ t.val % 8 = 7 :=
  (by decide +kernel : ∀ t : Fin grid2.N, cond2_1 (grid2.coords t) ↔ t.val % 8 = 7)

/-! ## Where the windows are idle -/

theorem liveAt2_0 : ∀ t : Fin cfg2.N, cfg2.idle 0 (grid2.coords t) = false := by decide +kernel
theorem liveAt2_1 : ∀ t : Fin cfg2.N, cfg2.idle 1 (grid2.coords t) = false := by decide +kernel
theorem idleAt2_2_A : ∀ t : Fin cfg2.N, cond2_0 (grid2.coords t) → ¬cond2_1 (grid2.coords t) → cfg2.idle 2 (grid2.coords t) = true := by decide +kernel
theorem noFlush2_2_A : ∀ t : Fin cfg2.N, cond2_0 (grid2.coords t) → ¬cond2_1 (grid2.coords t) → (cfg2.win 2).flush t = false := by decide +kernel
theorem idleAt2_2_B : ∀ t : Fin cfg2.N, ¬cond2_0 (grid2.coords t) → ¬cond2_1 (grid2.coords t) → cfg2.idle 2 (grid2.coords t) = true := by decide +kernel
theorem noFlush2_2_B : ∀ t : Fin cfg2.N, ¬cond2_0 (grid2.coords t) → ¬cond2_1 (grid2.coords t) → (cfg2.win 2).flush t = false := by decide +kernel
theorem liveAt2_2_C : ∀ t : Fin cfg2.N, ¬cond2_0 (grid2.coords t) → cond2_1 (grid2.coords t) → cfg2.idle 2 (grid2.coords t) = false := by decide +kernel

/-! ## The memrefs the body is called with -/

abbrev VO2_2 : View sig .tc .vmem S512x1024 .f32 := (Memref.whole cc2_stg2_0 : Memref sig .tc .vmem S512x1024 .f32).view
abbrev ms2_0 (t : Fin cfg2.N) : Memref sig .tc .vmem S512x512 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S512x1024 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S512x1024 .f32 := win2_2.stage (cfg2.slots t 2)
abbrev hs2_2 (t : Fin cfg2.N) : (ms2_2 t).IsWhole := hstage2_2 ((cfg2.slots t 2).cast nbuf2_2)
/-- The accumulator: a whole scoped buffer of the kernel's own. -/
abbrev scM2_0 : Memref sig .tc .vmem S512x1024 .f32 := Memref.whole cc2_scratch0
abbrev VS2_0 : View sig .tc .vmem S512x1024 .f32 := scM2_0.view

/-- The core's other scoped buffers — the staging buffers and the scratch of the other two calls —, each at some
    contents: region 2 never touches them. -/
abbrev Rest2 (c : Dev nD) : sProp 𝕄 :=
  Pipeline.scopedRestBut (Ix := Unit) (Name := ℕ) (U := UR sig nD τ) (Lvl := ℕ) (Val := Elt F) spec2 c [cc2_scratch0]

/-- The class invariant with the accumulator split off as a memref owned at some contents. -/
theorem PhiA2_eq (c : Dev nD) :
    (Pipeline.ΦA spec2 c : sProp 𝕄)
      = iprop(((∃ d, owns (c : Thread nD τ) scM2_0 fullShare d) ∗ Rest2 (F := F) c) ∗ (∃ r, prngReg c r)) := by
  unfold Pipeline.ΦA
  rw [Pipeline.scopedRest_split_of_list spec2 c [cc2_scratch0] (by decide) (by decide)]
  simp only [bigSepL_singleton, scM2_0, owns_whole]; try rfl

end Cert.KernelIdeal.Hand

end
-- ==== Proof.R2Runs.lean ====
/-
  Region 2 of the kernel program: the body run whole in each of its three cases — ki = 0 (the accumulator reset,
  then the first product added), 0 < ki < 7 (a product added to what the point before left), ki = 7 (the last product
  added and the accumulator copied into the output block). Each run's witness is the list of pieces the accumulator
  (and, in the last case, the output's staging buffer) ends with.
-/
import proofs.«174378_j75565654606299_2_alg».proof.Proof.R2Shared

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- ki = 0: the output's staging buffer is handed back untouched; the accumulator, found at anything, ends with its pieces. -/
noncomputable def kernelRun2_A (c : Dev nD) (i : grid2.Coords) (arg2 : Memref sig .tc .vmem S512x512 .bf16) (harg2 : arg2.IsWhole) (arg3 : Memref sig .tc .vmem S512x1024 .bf16) (harg3 : arg3.IsWhole) (arg4 : Memref sig .tc .vmem S512x1024 .f32) (harg4 : arg4.IsWhole) (arg5 : Memref sig .tc .vmem S512x1024 .f32) (harg5 : arg5.IsWhole) (hc0 : cond2_0 i) (hc1 : ¬cond2_1 i)
    (x0 : Vec F S512x512 .bf16) (x1 : Vec F S512x1024 .bf16) :
    Σ' (L2 : List (View.Piece (Elt F) S512x1024 .f32)), { LS0 : List (View.Piece (Elt F) S512x1024 .f32) //
      ∀ (xi2 : Vec F S512x1024 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc2__out_kernel i arg2 harg2 arg3 harg3 arg4 harg4 arg5 harg5) K } := by
  refine ⟨[], ?_, fun xi2 E K => ?run⟩
  case run =>
    simp only [cc2__out_kernel_eq_skeleton]; unfold cc2__out_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

set_option maxHeartbeats 1000000 in
/-- 0 < ki < 7: the output's staging buffer is handed back untouched; the accumulator, found at what the point before
    left (`xs0`), ends with its pieces. -/
noncomputable def kernelRun2_B (c : Dev nD) (i : grid2.Coords) (arg2 : Memref sig .tc .vmem S512x512 .bf16) (harg2 : arg2.IsWhole) (arg3 : Memref sig .tc .vmem S512x1024 .bf16) (harg3 : arg3.IsWhole) (arg4 : Memref sig .tc .vmem S512x1024 .f32) (harg4 : arg4.IsWhole) (arg5 : Memref sig .tc .vmem S512x1024 .f32) (harg5 : arg5.IsWhole) (hc0 : ¬cond2_0 i) (hc1 : ¬cond2_1 i)
    (x0 : Vec F S512x512 .bf16) (x1 : Vec F S512x1024 .bf16) (xs0 : Vec F S512x1024 .f32) :
    Σ' (L2 : List (View.Piece (Elt F) S512x1024 .f32)), { LS0 : List (View.Piece (Elt F) S512x1024 .f32) //
      ∀ (xi2 : Vec F S512x1024 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc2__out_kernel i arg2 harg2 arg3 harg3 arg4 harg4 arg5 harg5) K } := by
  refine ⟨[], ?_, fun xi2 E K => ?run⟩
  case run =>
    simp only [cc2__out_kernel_eq_skeleton]; unfold cc2__out_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

set_option maxHeartbeats 1000000 in
/-- ki = 7: the accumulator, found at what the point before left, ends with its pieces, and the output's staging
    buffer, found at anything, with its own. -/
noncomputable def kernelRun2_C (c : Dev nD) (i : grid2.Coords) (arg2 : Memref sig .tc .vmem S512x512 .bf16) (harg2 : arg2.IsWhole) (arg3 : Memref sig .tc .vmem S512x1024 .bf16) (harg3 : arg3.IsWhole) (arg4 : Memref sig .tc .vmem S512x1024 .f32) (harg4 : arg4.IsWhole) (arg5 : Memref sig .tc .vmem S512x1024 .f32) (harg5 : arg5.IsWhole) (hc0 : ¬cond2_0 i) (hc1 : cond2_1 i)
    (x0 : Vec F S512x512 .bf16) (x1 : Vec F S512x1024 .bf16) (xs0 : Vec F S512x1024 .f32) :
    Σ' (L2 : List (View.Piece (Elt F) S512x1024 .f32)), { LS0 : List (View.Piece (Elt F) S512x1024 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc2__out_kernel i arg2 harg2 arg3 harg3 arg4 harg4 arg5 harg5) K } := by
  refine ⟨?_, ?_, fun E K => ?run⟩
  case run =>
    simp only [cc2__out_kernel_eq_skeleton]; unfold cc2__out_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.KernelIdeal.Hand

end
-- ==== Proof.R2Frame.lean ====
/-
  Region 2 of the kernel program: what its output block and its accumulator hold after each grid point, the proof
  data of its pipeline, and the body obligation. After point t = 8·qi + ki the accumulator holds the sum over the key
  blocks 0 … ki of (e block at (qi, k)) · (Vs block at k), starting again from zero at every ki = 0; the output block
  is stored at ki = 7 only. The invariant between points carries the accumulator at exactly those contents.
-/
import proofs.«174378_j75565654606299_2_alg».proof.Proof.R2Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each case leaves -/

/-- ki = 0: nothing is stored into the output's buffer (a placeholder nothing consults: the window is idle there). -/
def out2_A_2 (c : Dev nD) (i : grid2.Coords) (arg2 : Memref sig .tc .vmem S512x512 .bf16) (harg2 : arg2.IsWhole) (arg3 : Memref sig .tc .vmem S512x1024 .bf16) (harg3 : arg3.IsWhole) (arg4 : Memref sig .tc .vmem S512x1024 .f32) (harg4 : arg4.IsWhole) (arg5 : Memref sig .tc .vmem S512x1024 .f32) (harg5 : arg5.IsWhole) (hc0 : cond2_0 i) (hc1 : ¬cond2_1 i)
    (x0 : Vec F S512x512 .bf16) (x1 : Vec F S512x1024 .bf16) : Vec F S512x1024 .f32 :=
  VO2_2.read (Elt F) (VO2_2.writes (Elt F) VO2_2.junk (kernelRun2_A c i arg2 harg2 arg3 harg3 arg4 harg4 arg5 harg5 hc0 hc1 x0 x1).1)

theorem scover2_A_0 (c : Dev nD) (i : grid2.Coords) (arg2 : Memref sig .tc .vmem S512x512 .bf16) (harg2 : arg2.IsWhole) (arg3 : Memref sig .tc .vmem S512x1024 .bf16) (harg3 : arg3.IsWhole) (arg4 : Memref sig .tc .vmem S512x1024 .f32) (harg4 : arg4.IsWhole) (arg5 : Memref sig .tc .vmem S512x1024 .f32) (harg5 : arg5.IsWhole) (hc0 : cond2_0 i) (hc1 : ¬cond2_1 i)
    (x0 : Vec F S512x512 .bf16) (x1 : Vec F S512x1024 .bf16) (y : S512x1024.Idx) :
    ∃ pc ∈ (kernelRun2_A c i arg2 harg2 arg3 harg3 arg4 harg4 arg5 harg5 hc0 hc1 x0 x1).2.1, y ∈ pc.1.set :=
  View.cover_of_tiledL (kernelRun2_A c i arg2 harg2 arg3 harg3 arg4 harg4 arg5 harg5 hc0 hc1 x0 x1).2.1 S512x1024.size (by sl_kernel_rfl) y

/-- ki = 0: what the accumulator is left at. -/
def sout2_A_0 (c : Dev nD) (i : grid2.Coords) (arg2 : Memref sig .tc .vmem S512x512 .bf16) (harg2 : arg2.IsWhole) (arg3 : Memref sig .tc .vmem S512x1024 .bf16) (harg3 : arg3.IsWhole) (arg4 : Memref sig .tc .vmem S512x1024 .f32) (harg4 : arg4.IsWhole) (arg5 : Memref sig .tc .vmem S512x1024 .f32) (harg5 : arg5.IsWhole) (hc0 : cond2_0 i) (hc1 : ¬cond2_1 i)
    (x0 : Vec F S512x512 .bf16) (x1 : Vec F S512x1024 .bf16) : Vec F S512x1024 .f32 :=
  VS2_0.read (Elt F) (VS2_0.writes (Elt F) VS2_0.junk (kernelRun2_A c i arg2 harg2 arg3 harg3 arg4 harg4 arg5 harg5 hc0 hc1 x0 x1).2.1)

/-- 0 < ki < 7: nothing is stored into the output's buffer. -/
def out2_B_2 (c : Dev nD) (i : grid2.Coords) (arg2 : Memref sig .tc .vmem S512x512 .bf16) (harg2 : arg2.IsWhole) (arg3 : Memref sig .tc .vmem S512x1024 .bf16) (harg3 : arg3.IsWhole) (arg4 : Memref sig .tc .vmem S512x1024 .f32) (harg4 : arg4.IsWhole) (arg5 : Memref sig .tc .vmem S512x1024 .f32) (harg5 : arg5.IsWhole) (hc0 : ¬cond2_0 i) (hc1 : ¬cond2_1 i)
    (x0 : Vec F S512x512 .bf16) (x1 : Vec F S512x1024 .bf16) (xs0 : Vec F S512x1024 .f32) : Vec F S512x1024 .f32 :=
  VO2_2.read (Elt F) (VO2_2.writes (Elt F) VO2_2.junk (kernelRun2_B c i arg2 harg2 arg3 harg3 arg4 harg4 arg5 harg5 hc0 hc1 x0 x1 xs0).1)

theorem scover2_B_0 (c : Dev nD) (i : grid2.Coords) (arg2 : Memref sig .tc .vmem S512x512 .bf16) (harg2 : arg2.IsWhole) (arg3 : Memref sig .tc .vmem S512x1024 .bf16) (harg3 : arg3.IsWhole) (arg4 : Memref sig .tc .vmem S512x1024 .f32) (harg4 : arg4.IsWhole) (arg5 : Memref sig .tc .vmem S512x1024 .f32) (harg5 : arg5.IsWhole) (hc0 : ¬cond2_0 i) (hc1 : ¬cond2_1 i)
    (x0 : Vec F S512x512 .bf16) (x1 : Vec F S512x1024 .bf16) (xs0 : Vec F S512x1024 .f32) (y : S512x1024.Idx) :
    ∃ pc ∈ (kernelRun2_B c i arg2 harg2 arg3 harg3 arg4 harg4 arg5 harg5 hc0 hc1 x0 x1 xs0).2.1, y ∈ pc.1.set :=
  View.cover_of_tiledL (kernelRun2_B c i arg2 harg2 arg3 harg3 arg4 harg4 arg5 harg5 hc0 hc1 x0 x1 xs0).2.1 S512x1024.size (by sl_kernel_rfl) y

def sout2_B_0 (c : Dev nD) (i : grid2.Coords) (arg2 : Memref sig .tc .vmem S512x512 .bf16) (harg2 : arg2.IsWhole) (arg3 : Memref sig .tc .vmem S512x1024 .bf16) (harg3 : arg3.IsWhole) (arg4 : Memref sig .tc .vmem S512x1024 .f32) (harg4 : arg4.IsWhole) (arg5 : Memref sig .tc .vmem S512x1024 .f32) (harg5 : arg5.IsWhole) (hc0 : ¬cond2_0 i) (hc1 : ¬cond2_1 i)
    (x0 : Vec F S512x512 .bf16) (x1 : Vec F S512x1024 .bf16) (xs0 : Vec F S512x1024 .f32) : Vec F S512x1024 .f32 :=
  VS2_0.read (Elt F) (VS2_0.writes (Elt F) VS2_0.junk (kernelRun2_B c i arg2 harg2 arg3 harg3 arg4 harg4 arg5 harg5 hc0 hc1 x0 x1 xs0).2.1)

theorem cover2_C_2 (c : Dev nD) (i : grid2.Coords) (arg2 : Memref sig .tc .vmem S512x512 .bf16) (harg2 : arg2.IsWhole) (arg3 : Memref sig .tc .vmem S512x1024 .bf16) (harg3 : arg3.IsWhole) (arg4 : Memref sig .tc .vmem S512x1024 .f32) (harg4 : arg4.IsWhole) (arg5 : Memref sig .tc .vmem S512x1024 .f32) (harg5 : arg5.IsWhole) (hc0 : ¬cond2_0 i) (hc1 : cond2_1 i)
    (x0 : Vec F S512x512 .bf16) (x1 : Vec F S512x1024 .bf16) (xs0 : Vec F S512x1024 .f32) (y : S512x1024.Idx) :
    ∃ pc ∈ (kernelRun2_C c i arg2 harg2 arg3 harg3 arg4 harg4 arg5 harg5 hc0 hc1 x0 x1 xs0).1, y ∈ pc.1.set :=
  View.cover_of_tiledL (kernelRun2_C c i arg2 harg2 arg3 harg3 arg4 harg4 arg5 harg5 hc0 hc1 x0 x1 xs0).1 S512x1024.size (by sl_kernel_rfl) y

/-- ki = 7: what the output's staging buffer is left at. -/
def out2_C_2 (c : Dev nD) (i : grid2.Coords) (arg2 : Memref sig .tc .vmem S512x512 .bf16) (harg2 : arg2.IsWhole) (arg3 : Memref sig .tc .vmem S512x1024 .bf16) (harg3 : arg3.IsWhole) (arg4 : Memref sig .tc .vmem S512x1024 .f32) (harg4 : arg4.IsWhole) (arg5 : Memref sig .tc .vmem S512x1024 .f32) (harg5 : arg5.IsWhole) (hc0 : ¬cond2_0 i) (hc1 : cond2_1 i)
    (x0 : Vec F S512x512 .bf16) (x1 : Vec F S512x1024 .bf16) (xs0 : Vec F S512x1024 .f32) : Vec F S512x1024 .f32 :=
  VO2_2.read (Elt F) (VO2_2.writes (Elt F) VO2_2.junk (kernelRun2_C c i arg2 harg2 arg3 harg3 arg4 harg4 arg5 harg5 hc0 hc1 x0 x1 xs0).1)

theorem scover2_C_0 (c : Dev nD) (i : grid2.Coords) (arg2 : Memref sig .tc .vmem S512x512 .bf16) (harg2 : arg2.IsWhole) (arg3 : Memref sig .tc .vmem S512x1024 .bf16) (harg3 : arg3.IsWhole) (arg4 : Memref sig .tc .vmem S512x1024 .f32) (harg4 : arg4.IsWhole) (arg5 : Memref sig .tc .vmem S512x1024 .f32) (harg5 : arg5.IsWhole) (hc0 : ¬cond2_0 i) (hc1 : cond2_1 i)
    (x0 : Vec F S512x512 .bf16) (x1 : Vec F S512x1024 .bf16) (xs0 : Vec F S512x1024 .f32) (y : S512x1024.Idx) :
    ∃ pc ∈ (kernelRun2_C c i arg2 harg2 arg3 harg3 arg4 harg4 arg5 harg5 hc0 hc1 x0 x1 xs0).2.1, y ∈ pc.1.set :=
  View.cover_of_tiledL (kernelRun2_C c i arg2 harg2 arg3 harg3 arg4 harg4 arg5 harg5 hc0 hc1 x0 x1 xs0).2.1 S512x1024.size (by sl_kernel_rfl) y

def sout2_C_0 (c : Dev nD) (i : grid2.Coords) (arg2 : Memref sig .tc .vmem S512x512 .bf16) (harg2 : arg2.IsWhole) (arg3 : Memref sig .tc .vmem S512x1024 .bf16) (harg3 : arg3.IsWhole) (arg4 : Memref sig .tc .vmem S512x1024 .f32) (harg4 : arg4.IsWhole) (arg5 : Memref sig .tc .vmem S512x1024 .f32) (harg5 : arg5.IsWhole) (hc0 : ¬cond2_0 i) (hc1 : cond2_1 i)
    (x0 : Vec F S512x512 .bf16) (x1 : Vec F S512x1024 .bf16) (xs0 : Vec F S512x1024 .f32) : Vec F S512x1024 .f32 :=
  VS2_0.read (Elt F) (VS2_0.writes (Elt F) VS2_0.junk (kernelRun2_C c i arg2 harg2 arg3 harg3 arg4 harg4 arg5 harg5 hc0 hc1 x0 x1 xs0).2.1)

section Data
variable (V : (c : Dev nD) → (b : Ref sig .tc) → Buf (Elt F) ((c : Thread nD τ).loc b))

/-! ## Point by point -/

theorem notC_of_A (t : Fin cfg2.N) (h0 : t.val % 8 = 0) : ¬cond2_1 (grid2.coords t) := fun h => by
  have := (hcond2_1 t).mp h; omega

/-- What a point with ki = 0 leaves: (output buffer, accumulator). -/
def pointA (c : Dev nD) (t : Fin cfg2.N) (h0 : t.val % 8 = 0) : Vec F S512x1024 .f32 × Vec F S512x1024 .f32 :=
  (out2_A_2 c (grid2.coords t) (ms2_0 t) (hs2_0 t) (ms2_1 t) (hs2_1 t) (ms2_2 t) (hs2_2 t) scM2_0 (Memref.isWhole_whole _) ((hcond2_0 t).mpr h0) (notC_of_A t h0) (iblk2 V c 0 t) (iblk2 V c 1 t),
   sout2_A_0 c (grid2.coords t) (ms2_0 t) (hs2_0 t) (ms2_1 t) (hs2_1 t) (ms2_2 t) (hs2_2 t) scM2_0 (Memref.isWhole_whole _) ((hcond2_0 t).mpr h0) (notC_of_A t h0) (iblk2 V c 0 t) (iblk2 V c 1 t))

/-- What a point with 0 < ki < 7 leaves, given the accumulator the point before left. -/
def pointB (c : Dev nD) (t : Fin cfg2.N) (h0 : ¬t.val % 8 = 0) (h1 : ¬t.val % 8 = 7) (xs : Vec F S512x1024 .f32) :
    Vec F S512x1024 .f32 × Vec F S512x1024 .f32 :=
  (out2_B_2 c (grid2.coords t) (ms2_0 t) (hs2_0 t) (ms2_1 t) (hs2_1 t) (ms2_2 t) (hs2_2 t) scM2_0 (Memref.isWhole_whole _) (fun h => h0 ((hcond2_0 t).mp h)) (fun h => h1 ((hcond2_1 t).mp h)) (iblk2 V c 0 t) (iblk2 V c 1 t) xs,
   sout2_B_0 c (grid2.coords t) (ms2_0 t) (hs2_0 t) (ms2_1 t) (hs2_1 t) (ms2_2 t) (hs2_2 t) scM2_0 (Memref.isWhole_whole _) (fun h => h0 ((hcond2_0 t).mp h)) (fun h => h1 ((hcond2_1 t).mp h)) (iblk2 V c 0 t) (iblk2 V c 1 t) xs)

/-- What a point with ki = 7 leaves, given the accumulator the point before left. -/
def pointC (c : Dev nD) (t : Fin cfg2.N) (h0 : ¬t.val % 8 = 0) (h1 : t.val % 8 = 7) (xs : Vec F S512x1024 .f32) :
    Vec F S512x1024 .f32 × Vec F S512x1024 .f32 :=
  (out2_C_2 c (grid2.coords t) (ms2_0 t) (hs2_0 t) (ms2_1 t) (hs2_1 t) (ms2_2 t) (hs2_2 t) scM2_0 (Memref.isWhole_whole _) (fun h => h0 ((hcond2_0 t).mp h)) ((hcond2_1 t).mpr h1) (iblk2 V c 0 t) (iblk2 V c 1 t) xs,
   sout2_C_0 c (grid2.coords t) (ms2_0 t) (hs2_0 t) (ms2_1 t) (hs2_1 t) (ms2_2 t) (hs2_2 t) scM2_0 (Memref.isWhole_whole _) (fun h => h0 ((hcond2_0 t).mp h)) ((hcond2_1 t).mpr h1) (iblk2 V c 0 t) (iblk2 V c 1 t) xs)

/-- THE ACCUMULATION: what the output's buffer and the accumulator hold after the body at position `n`. -/
def outsAt2 (c : Dev nD) : (n : ℕ) → n < cfg2.N → Vec F S512x1024 .f32 × Vec F S512x1024 .f32
  | 0, hn => pointA V c ⟨0, hn⟩ (Nat.zero_mod _)
  | n + 1, hn =>
    if h0 : (n + 1) % 8 = 0 then pointA V c ⟨n + 1, hn⟩ h0
    else if h1 : (n + 1) % 8 = 7 then pointC V c ⟨n + 1, hn⟩ h0 h1 (outsAt2 c n (Nat.lt_of_succ_lt hn)).2
    else pointB V c ⟨n + 1, hn⟩ h0 h1 (outsAt2 c n (Nat.lt_of_succ_lt hn)).2

theorem outsAt2_A (c : Dev nD) (t : Fin cfg2.N) (h0 : t.val % 8 = 0) :
    outsAt2 V c t.val t.isLt = pointA V c t h0 := by
  obtain ⟨n, hn⟩ := t
  cases n with
  | zero => rfl
  | succ n => exact dif_pos h0

theorem outsAt2_B (c : Dev nD) (t : Fin cfg2.N) (h0 : ¬t.val % 8 = 0) (h1 : ¬t.val % 8 = 7) :
    outsAt2 V c t.val t.isLt = pointB V c t h0 h1 (outsAt2 V c (t.val - 1) (Nat.lt_of_le_of_lt (Nat.sub_le _ _) t.isLt)).2 := by
  obtain ⟨n, hn⟩ := t
  cases n with
  | zero => exact absurd (Nat.zero_mod _) h0
  | succ n => exact (dif_neg h0).trans (dif_neg h1)

theorem outsAt2_C (c : Dev nD) (t : Fin cfg2.N) (h0 : ¬t.val % 8 = 0) (h1 : t.val % 8 = 7) :
    outsAt2 V c t.val t.isLt = pointC V c t h0 h1 (outsAt2 V c (t.val - 1) (Nat.lt_of_le_of_lt (Nat.sub_le _ _) t.isLt)).2 := by
  obtain ⟨n, hn⟩ := t
  cases n with
  | zero => exact absurd (Nat.zero_mod _) h0
  | succ n => exact (dif_neg h0).trans (dif_pos h1)

/-! ## The invariant between points -/

/-- Before the first point the class's invariant (every scoped buffer at anything); afterwards the accumulator at what
    the point before left, the other scoped buffers at anything, the generator register at some state. -/
def PhiS2 (c : Dev nD) : (n : ℕ) → n ≤ cfg2.N → sProp 𝕄
  | 0, _ => Pipeline.ΦA spec2 c
  | n + 1, hn => iprop((owns (c : Thread nD τ) scM2_0 fullShare ((outsAt2 V c n hn).2) ∗ Rest2 (F := F) c) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop((owns (c : Thread nD τ) scM2_0 fullShare ((outsAt2 V c n hn).2) ∗ Rest2 (F := F) c) ∗ (∃ r, prngReg c r)) := rfl

theorem PhiS2_pos (c : Dev nD) (n : ℕ) (h : n ≤ cfg2.N) (hz : n ≠ 0) :
    PhiS2 V c n h = iprop((owns (c : Thread nD τ) scM2_0 fullShare ((outsAt2 V c (n - 1) (by omega)).2) ∗ Rest2 (F := F) c) ∗ (∃ r, prngReg c r)) := by
  cases n with
  | zero => exact absurd rfl hz
  | succ n => rfl

/-! ## The pipeline's proof data -/

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => (outsAt2 V c t.val t.isLt).1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = (outsAt2 V c t.val t.isLt).1 := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation -/

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t)

set_option maxHeartbeats 4800000 in
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).owesAt () t.succ = (dat2 V c).owesAt () t.castSucc from rfl]
  rw [show (dat2 V c).Φ t.succ = PhiS2 V c (t.val + 1) t.isLt from rfl, PhiS2_succ]
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  have hN : t.val < 64 := lt_of_lt_of_eq t.isLt (show cfg2.N = 64 from N_2)
  by_cases h0 : t.val % 8 = 0
  · rw [Dat.leavesExact_idle (dat2 V c) 2 t (idleAt2_2_A t ((hcond2_0 t).mpr h0) (notC_of_A t h0)) (noFlush2_2_A t ((hcond2_0 t).mpr h0) (notC_of_A t h0))]
    rw [outsAt2_A V c t h0]
    unfold pointA sout2_A_0; (try dsimp only)
    by_cases hz : t.val = 0
    · rw [PhiS2_castSucc V c t, PhiS2_zero V c _ _ hz, PhiA2_eq]
      iintro ⟨⟨⟨HS0, HR⟩, Hg⟩, Ho, ⟨%d0, H0⟩, ⟨%d1, H1⟩, ⟨%d2, H2⟩⟩
      iapply ((kernelRun2_A c (grid2.coords t) (ms2_0 t) (hs2_0 t) (ms2_1 t) (hs2_1 t) (ms2_2 t) (hs2_2 t) scM2_0 (Memref.isWhole_whole _) ((hcond2_0 t).mpr h0) (notC_of_A t h0) (iblk2 V c 0 t) (iblk2 V c 1 t)).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover2_A_0 c _ _ _ _ _ _ _ _ _ _ _ _ _)
          iexact HR
        iexact Hg
      isplitl [Ho]; · iexact Ho
      isplitl [H0]; · iexact H0
      isplitl [H1]; · iexact H1
      iexists _; iexact H2
    · rw [PhiS2_castSucc V c t, PhiS2_pos V c _ _ hz]
      iintro ⟨⟨⟨HS0, HR⟩, Hg⟩, Ho, ⟨%d0, H0⟩, ⟨%d1, H1⟩, ⟨%d2, H2⟩⟩
      iapply ((kernelRun2_A c (grid2.coords t) (ms2_0 t) (hs2_0 t) (ms2_1 t) (hs2_1 t) (ms2_2 t) (hs2_2 t) scM2_0 (Memref.isWhole_whole _) ((hcond2_0 t).mpr h0) (notC_of_A t h0) (iblk2 V c 0 t) (iblk2 V c 1 t)).2.2 _ Set.univ _)
      isplitl [H0]; · iexact H0
      isplitl [H1]; · iexact H1
      isplitl [H2]; · iexact H2
      isplitl [HS0]; · iexists _; iexact HS0
      iintro ⟨H0, H1, H2, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover2_A_0 c _ _ _ _ _ _ _ _ _ _ _ _ _)
          iexact HR
        iexact Hg
      isplitl [Ho]; · iexact Ho
      isplitl [H0]; · iexact H0
      isplitl [H1]; · iexact H1
      iexists _; iexact H2
  · have hz : t.val ≠ 0 := fun e => h0 (by rw [e])
    by_cases h1 : t.val % 8 = 7
    · rw [show (dat2 V c).leavesExact 2 t = owns (c : Thread nD τ) (ms2_2 t) fullShare ((dat2 V c).after 2 t) from by
        unfold Dat.leavesExact; rw [liveAt2_2_C t (fun h => h0 ((hcond2_0 t).mp h)) ((hcond2_1 t).mpr h1)], after2_2]
      rw [outsAt2_C V c t h0 h1]
      unfold pointC out2_C_2 sout2_C_0; (try dsimp only)
      rw [PhiS2_castSucc V c t, PhiS2_pos V c _ _ hz]
      iintro ⟨⟨⟨HS0, HR⟩, Hg⟩, Ho, ⟨%d0, H0⟩, ⟨%d1, H1⟩, ⟨%d2, H2⟩⟩
      iapply ((kernelRun2_C c (grid2.coords t) (ms2_0 t) (hs2_0 t) (ms2_1 t) (hs2_1 t) (ms2_2 t) (hs2_2 t) scM2_0 (Memref.isWhole_whole _) (fun h => h0 ((hcond2_0 t).mp h)) ((hcond2_1 t).mpr h1) (iblk2 V c 0 t) (iblk2 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover2_C_0 c _ _ _ _ _ _ _ _ _ _ _ _ _ _)
          iexact HR
        iexact Hg
      isplitl [Ho]; · iexact Ho
      isplitl [H0]; · iexact H0
      isplitl [H1]; · iexact H1
      unfold owns; iexists _; isplitr
      swap; · iexact H2
      ipureintro; exact View.read_writes_of_cover _ _ _ _ _ (cover2_C_2 c _ _ _ _ _ _ _ _ _ _ _ _ _ _)
    · rw [Dat.leavesExact_idle (dat2 V c) 2 t (idleAt2_2_B t (fun h => h0 ((hcond2_0 t).mp h)) (fun h => h1 ((hcond2_1 t).mp h))) (noFlush2_2_B t (fun h => h0 ((hcond2_0 t).mp h)) (fun h => h1 ((hcond2_1 t).mp h)))]
      rw [outsAt2_B V c t h0 h1]
      unfold pointB sout2_B_0; (try dsimp only)
      rw [PhiS2_castSucc V c t, PhiS2_pos V c _ _ hz]
      iintro ⟨⟨⟨HS0, HR⟩, Hg⟩, Ho, ⟨%d0, H0⟩, ⟨%d1, H1⟩, ⟨%d2, H2⟩⟩
      iapply ((kernelRun2_B c (grid2.coords t) (ms2_0 t) (hs2_0 t) (ms2_1 t) (hs2_1 t) (ms2_2 t) (hs2_2 t) scM2_0 (Memref.isWhole_whole _) (fun h => h0 ((hcond2_0 t).mp h)) (fun h => h1 ((hcond2_1 t).mp h)) (iblk2 V c 0 t) (iblk2 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover2_B_0 c _ _ _ _ _ _ _ _ _ _ _ _ _ _)
          iexact HR
        iexact Hg
      isplitl [Ho]; · iexact Ho
      isplitl [H0]; · iexact H0
      isplitl [H1]; · iexact H1
      iexists _; iexact H2

theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After the last point the invariant gives the class's back: the accumulator's contents are forgotten. -/
theorem hout2 (c : Dev nD) : (dat2 V c).Φ (Fin.last cfg2.N) ⊢ Pipeline.ΦA spec2 c := by
  rw [show (dat2 V c).Φ (Fin.last cfg2.N) = PhiS2 V c (Fin.last cfg2.N).val (Nat.le_of_lt_succ (Fin.last cfg2.N).isLt) from rfl,
    PhiS2_pos V c _ _ (by rw [Fin.val_last]; have : cfg2.N = 64 := N_2; omega), PhiA2_eq]
  iintro ⟨⟨HS0, HR⟩, Hg⟩
  isplitl [HS0 HR]
  · isplitl [HS0]
    · iexists _; iexact HS0
    iexact HR
  iexact Hg

end Data

end Cert.KernelIdeal.Hand

end
-- ==== Proof.KRun.lean ====
/-
  The kernel program's run: the contents of every unscoped buffer at each boundary of @main — at launch, after the host
  operations that concatenate the weights and the biases, and after each of the three regions —, every argument array
  walked back through those boundaries to its launch contents, the three regions' proof data and records, and the run
  itself: every weakly fair execution terminates with the result array at what region 2's pipeline leaves in it and
  every argument array as launched.
-/
import proofs.«174378_j75565654606299_2_alg».proof.Proof.R0Frame
import proofs.«174378_j75565654606299_2_alg».proof.Proof.R1Frame
import proofs.«174378_j75565654606299_2_alg».proof.Proof.R2Frame
import proofs.«174378_j75565654606299_2_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch. -/
abbrev W0 : Dev nD → Valuation τ sig (Elt F) := fun c b => (s₀ m ρ).mem ((c : Dev nD), b)
/-- After the host operations (region 0's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b

/-- At region 0's exit: its arrays at what its pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At region 1's exit: its arrays at what its pipeline leaves, every other buffer as entered. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- At region 2's exit: its arrays at what its pipeline leaves, every other buffer as entered. -/
def W4 (c : Dev nD) : Valuation τ sig (Elt F) :=
  Pipeline.withArrays spec2 c (W3 m ρ c) fun w => (dat2 (V3 m ρ) c).arrAt w cfg2.N
theorem W4_arr (c : Dev nD) (w : Fin cfg2.W) :
    W4 m ρ c (Proc.devRef .tc (Pipeline.arrRef spec2 w)) = (dat2 (V3 m ρ) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m ρ c (Proc.devRef .tc b) = W3 m ρ c (Proc.devRef .tc b) := by
  unfold W4; exact Pipeline.withArrays_of_ne spec2 c _ _ b hb
abbrev V4 : (c : Dev nD) → (b : Ref sig .tc) → Buf (Elt F) ((c : Thread nD τ).loc b) := fun c b => W4 m ρ c b
theorem hF2 (c : Dev nD) (w : Fin cfg2.W) : (dat2 (V3 m ρ) c).arrAt w cfg2.N = V4 m ρ c (Pipeline.arrRef spec2 w) :=
  (W4_arr m ρ c w).symm
theorem hrest2 (c : Dev nD) : ∀ b, b ∉ Finset.univ.image (Pipeline.arrRef spec2) → V4 m ρ c b = V3 m ρ c b :=
  fun b hb => W4_of_ne m ρ c b fun w e => hb (Finset.mem_image.mpr ⟨w, Finset.mem_univ _, e⟩)

/-! ## The arguments end as launched -/

/-- The host operations write only their four results. -/
theorem W1_keeps (c : Dev nD) (b : Ref sig .tc) (h : b ∉ hostOps0_W) :
    W1 m ρ c (Proc.devRef .tc b) = W0 m ρ c (Proc.devRef .tc b) :=
  Gen.V1_of m c b h

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := W3_of_ne m ρ c main_arg0 (by decide)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := W1_keeps m ρ c main_arg0 (by decide)
    _ = m ((c : Thread nD τ).loc main_arg0) := rfl
theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := (W3_arr m ρ c 3).trans (((dat1 (V2 m ρ) c).arrAt_in 3 rfl _).trans (A_eq1 (V2 m ρ) c 3))
    _ = W1 m ρ c (Proc.devRef .tc main_arg1) := W2_of_ne m ρ c main_arg1 (by decide)
    _ = W0 m ρ c (Proc.devRef .tc main_arg1) := W1_keeps m ρ c main_arg1 (by decide)
    _ = m ((c : Thread nD τ).loc main_arg1) := rfl
theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := W3_of_ne m ρ c main_arg2 (by decide)
    _ = W1 m ρ c (Proc.devRef .tc main_arg2) := W2_of_ne m ρ c main_arg2 (by decide)
    _ = W0 m ρ c (Proc.devRef .tc main_arg2) := W1_keeps m ρ c main_arg2 (by decide)
    _ = m ((c : Thread nD τ).loc main_arg2) := rfl
theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := W3_of_ne m ρ c main_arg3 (by decide)
    _ = W1 m ρ c (Proc.devRef .tc main_arg3) := W2_of_ne m ρ c main_arg3 (by decide)
    _ = W0 m ρ c (Proc.devRef .tc main_arg3) := W1_keeps m ρ c main_arg3 (by decide)
    _ = m ((c : Thread nD τ).loc main_arg3) := rfl
theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := W3_of_ne m ρ c main_arg4 (by decide)
    _ = W1 m ρ c (Proc.devRef .tc main_arg4) := W2_of_ne m ρ c main_arg4 (by decide)
    _ = W0 m ρ c (Proc.devRef .tc main_arg4) := W1_keeps m ρ c main_arg4 (by decide)
    _ = m ((c : Thread nD τ).loc main_arg4) := rfl
theorem W4_main_arg5 (c : Dev nD) : W4 m ρ c (Proc.devRef .tc main_arg5) = m ((c : Thread nD τ).loc main_arg5) :=
  calc W4 m ρ c (Proc.devRef .tc main_arg5)
    _ = W3 m ρ c (Proc.devRef .tc main_arg5) := W4_of_ne m ρ c main_arg5 (by decide)
    _ = W2 m ρ c (Proc.devRef .tc main_arg5) := W3_of_ne m ρ c main_arg5 (by decide)
    _ = W1 m ρ c (Proc.devRef .tc main_arg5) := W2_of_ne m ρ c main_arg5 (by decide)
    _ = W0 m ρ c (Proc.devRef .tc main_arg5) := W1_keeps m ρ c main_arg5 (by decide)
    _ = m ((c : Thread nD τ).loc main_arg5) := rfl
theorem W4_main_arg6 (c : Dev nD) : W4 m ρ c (Proc.devRef .tc main_arg6) = m ((c : Thread nD τ).loc main_arg6) :=
  calc W4 m ρ c (Proc.devRef .tc main_arg6)
    _ = W3 m ρ c (Proc.devRef .tc main_arg6) := W4_of_ne m ρ c main_arg6 (by decide)
    _ = W2 m ρ c (Proc.devRef .tc main_arg6) := W3_of_ne m ρ c main_arg6 (by decide)
    _ = W1 m ρ c (Proc.devRef .tc main_arg6) := W2_of_ne m ρ c main_arg6 (by decide)
    _ = W0 m ρ c (Proc.devRef .tc main_arg6) := W1_keeps m ρ c main_arg6 (by decide)
    _ = m ((c : Thread nD τ).loc main_arg6) := rfl
theorem W4_main_arg7 (c : Dev nD) : W4 m ρ c (Proc.devRef .tc main_arg7) = m ((c : Thread nD τ).loc main_arg7) :=
  calc W4 m ρ c (Proc.devRef .tc main_arg7)
    _ = W3 m ρ c (Proc.devRef .tc main_arg7) := W4_of_ne m ρ c main_arg7 (by decide)
    _ = W2 m ρ c (Proc.devRef .tc main_arg7) := W3_of_ne m ρ c main_arg7 (by decide)
    _ = W1 m ρ c (Proc.devRef .tc main_arg7) := W2_of_ne m ρ c main_arg7 (by decide)
    _ = W0 m ρ c (Proc.devRef .tc main_arg7) := W1_keeps m ρ c main_arg7 (by decide)
    _ = m ((c : Thread nD τ).loc main_arg7) := rfl

/-! ## The proof data family and the thread state -/

abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
  | ⟨2, _⟩ => fun c => dat2 (V3 m ρ) c
abbrev 𝒱₀ : Variants := Variants.none
abbrev L : GSem nD τ sig → Finset Unit := fun _ => ∅
abbrev lv : GSem nD τ sig → Unit → ℕ := fun _ _ => 0
/-- What rides beside the buffers through every segment: the generator register at some state and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (show Pipeline.ΦA spec0 c ⊢ (pdats m ρ 0 c).Φ 0 from .rfl)
    unfold Pipeline.ΦA
    iintro ⟨Hp, -, Hr⟩
    isplitl [Hr]; · iexact Hr
    iexact Hp
  hout c := by
    rw [Pipeline.ownSems0_none]
    refine BIBase.Entails.trans (show (pdats m ρ 0 c).Φ (Fin.last _) ⊢ Pipeline.ΦA spec0 c from .rfl) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (show Pipeline.ΦA spec1 c ⊢ (pdats m ρ 1 c).Φ 0 from hin1 (V2 m ρ) c)
    unfold Pipeline.ΦA
    iintro ⟨Hp, -, Hr⟩
    isplitl [Hr]; · iexact Hr
    iexact Hp
  hout c := by
    rw [Pipeline.ownSems0_none]
    refine BIBase.Entails.trans (show (pdats m ρ 1 c).Φ (Fin.last _) ⊢ Pipeline.ΦA spec1 c from hout1 (V2 m ρ) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V3 m ρ) c).loose
  hwaits := Pipeline.hwaits_of_owed_zero _ _ _ _ L lv 2 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V3 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (show Pipeline.ΦA spec2 c ⊢ (pdats m ρ 2 c).Φ 0 from hin2 (V3 m ρ) c)
    unfold Pipeline.ΦA
    iintro ⟨Hp, -, Hr⟩
    isplitl [Hr]; · iexact Hr
    iexact Hp
  hout c := by
    rw [Pipeline.ownSems0_none]
    refine BIBase.Entails.trans (show (pdats m ρ 2 c).Φ (Fin.last _) ⊢ Pipeline.ΦA spec2 c from hout2 (V3 m ρ) c) ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V3 m ρ c) (V4 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the run -/

abbrev segs : List (Pipeline.Seg (pcfgs (F := F)) adm (pdats m ρ) () defs₀ 𝒱₀ L lv) :=
  [ .host (hseg hostOps0 hostOps0_sub Gen.hostOps0_fresh (W0 m ρ)),
    .region (reg0 m ρ),
    .region (reg1 m ρ),
    .region (reg2 m ρ) ]
theorem main_run (c : Dev nD) : main (F := F) c = Pipeline.Seg.run (segs m ρ) := (main_chain c).trans (by chain_rfl)

set_option backward.isDefEq.respectTransparency.types false in
/-- THE RUN: every weakly fair execution of @main from `m` with zero counters terminates, nothing faulting, with the
    result array at the last boundary's contents and every argument array as launched. -/
theorem run_all : θ_run defs (onTc (τ := τ) (main (F := F))) ⟨m, fun _ => 0, ρ⟩ (fun r => ∀ c : Dev nD,
      r.2.mem ((c.tc : Thread nD τ).loc main_v6) = W4 m ρ c (Proc.devRef .tc main_v6)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v6 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c)⟩)

/-- The result array after the run is what region 2's pipeline leaves in its output window's array. -/
theorem W4_result (c : Dev nD) : W4 m ρ c (Proc.devRef .tc main_v6) = (dat2 (V3 m ρ) c).arrAt 2 cfg2.N :=
  W4_arr m ρ c 2

/-- THE FRAME at any `F`: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => (h c).2) (run_all m ρ)

end Cert.KernelIdeal.Hand

end
-- ==== Proof.Spec.lean ====
/-
  The mathematics both programs compute, over the extended reals, on literal index types and mentioning no program.
  With Q = x·Wq + bq, K = x·Wk + bk, V = x·Wv + bv, the scores are s[i,j] = Σ_k Q[i,k]·K[j,k], the weights
  e[i,j] = exp(mask[i,j]·s[i,j]) and the row sums den[i] = Σ_n e[i,n]. The reference divides each weight by the row
  sum OF ITS COLUMN INDEX and then multiplies by V:  out[i,d] = Σ_j (e[i,j] / den[j]) · V[j,d].  The kernel divides the
  rows of V by the row sums first:  out[i,d] = Σ_j e[i,j] · (V[j,d] / den[j]).  The two agree whenever every input is a
  real number: the weights are then positive reals, so are the row sums, and (a / b)·c = a·(c / b) among reals.
-/
import Idealize.ShloMosaic.PureOps.Ideal
import Idealize.ShloMosaic.Lib.ValueIdx

noncomputable section

namespace Cert.Attn

open Idealize.ShloMosaic Idealize.ShloMosaic.ValueIdx

/-- A matrix of extended reals of literal extents, indexed as the programs' arrays are. -/
abbrev Mat (a b : Nat) : Type := (⟨2, ![a, b]⟩ : Shape).Idx → EReal
/-- A vector of extended reals of literal extent. -/
abbrev Vct (a : Nat) : Type := (⟨1, ![a]⟩ : Shape).Idx → EReal

/-- A linear layer: (x·W + b)[i, j]. -/
def proj (x : Mat 4096 1024) (W : Mat 1024 1024) (b : Vct 1024) (i : Fin 4096) (j : Fin 1024) : EReal :=
  (∑ k : Fin 1024, x (ix2 i k) * W (ix2 k j)) + b (ix1 j)

/-- The scores Q·Kᵀ. -/
def score (Q K : Fin 4096 → Fin 1024 → EReal) (i j : Fin 4096) : EReal := ∑ k : Fin 1024, Q i k * K j k

/-- The unnormalised weights exp(mask ⊙ Q·Kᵀ). -/
def expo (mask : Mat 4096 4096) (Q K : Fin 4096 → Fin 1024 → EReal) (i j : Fin 4096) : EReal :=
  Ideal.exp (mask (ix2 i j) * score Q K i j)

/-- A row's sum of weights. -/
def den (E : Fin 4096 → Fin 4096 → EReal) (i : Fin 4096) : EReal := ∑ n : Fin 4096, E i n

/-- The kernel's arrangement: the rows of V divided by the row sums, then the product with the weights. -/
def kerOut (E : Fin 4096 → Fin 4096 → EReal) (V : Fin 4096 → Fin 1024 → EReal) (i : Fin 4096) (d : Fin 1024) : EReal :=
  ∑ j : Fin 4096, E i j * Ideal.div (V j d) (den E j)

/-- The reference's arrangement: each weight divided by the row sum of its column index, then the product with V. -/
def refOut (E : Fin 4096 → Fin 4096 → EReal) (V : Fin 4096 → Fin 1024 → EReal) (i : Fin 4096) (d : Fin 1024) : EReal :=
  ∑ j : Fin 4096, Ideal.div (E i j) (den E j) * V j d

section Arrays
variable (x : Mat 4096 1024) (mask : Mat 4096 4096) (Wq : Mat 1024 1024) (bq : Vct 1024) (Wk : Mat 1024 1024) (bk : Vct 1024)
  (Wv : Mat 1024 1024) (bv : Vct 1024)

/-- The weights of the eight argument arrays. -/
def weights : Fin 4096 → Fin 4096 → EReal := expo mask (proj x Wq bq) (proj x Wk bk)

/-- The kernel's result array. -/
def kerArr : Mat 4096 1024 := fun idx => kerOut (weights x mask Wq bq Wk bk) (proj x Wv bv) (idx 0) (idx 1)

/-- The reference's result array. -/
def refArr : Mat 4096 1024 := fun idx => refOut (weights x mask Wq bq Wk bk) (proj x Wv bv) (idx 0) (idx 1)

end Arrays

/-- Every entry is a real number. -/
def RealM {a b : Nat} (A : Mat a b) : Prop := ∀ idx, ∃ r : ℝ, A idx = (r : EReal)
def RealV {a : Nat} (A : Vct a) : Prop := ∀ idx, ∃ r : ℝ, A idx = (r : EReal)

end Cert.Attn

end
-- ==== Proof.LibPlainDot.lean ====
/-
  A plain matrix product read at an entry. For the dimension numbers of an [M, K] by [K, N] product (no batch axis,
  the left operand contracted on its last axis and the right on its first) the entry (p, q) of the product is
  ∑ₖ l(p, k) · r(k, q) over k : Fin K — for a tpu.matmul into the zero accumulator and for the host's dot_general alike,
  at the ideal values. General in the three extents and in the operands' formats; a printed record of these dimension
  numbers is DotDims.plain M K N up to the proof it carries, so it is passed with the equation (by rfl).
-/
import Idealize.ShloMosaic.PureOps.Ideal.Laws
import Idealize.ShloMosaic.Lib.ValueIdx

namespace Idealize.ShloMosaic.ValueIdx

/-- The left operand's row is the output's row, whatever the contraction index. -/
theorem plain_lhs_row {M K N : ℕ} (j : (⟨2, ![M, N]⟩ : Shape).Idx) (c : (DotDims.plain M K N).contr.Idx) :
    ((DotDims.plain M K N).lhsIdx j c 0).val = (j 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

/-- The right operand's column is the output's column, whatever the contraction index. -/
theorem plain_rhs_col {M K N : ℕ} (j : (⟨2, ![M, N]⟩ : Shape).Idx) (c : (DotDims.plain M K N).contr.Idx) :
    ((DotDims.plain M K N).rhsIdx j c 1).val = (j 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- The left operand's index at output (p, q) and contraction coordinate k is (p, k). -/
theorem plain_lhsIdx {M K N : ℕ} (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a; apply Fin.ext
  match a with
  | ⟨0, _⟩ => exact plain_lhs_row (ix2 p q) _
  | ⟨1, _⟩ => exact ((DotDims.plain M K N).lhsIdx_val_of_single (cl := (1 : Fin 2)) rfl (ix2 p q) _).trans hk

/-- The right operand's index at output (p, q) and contraction coordinate k is (k, q). -/
theorem plain_rhsIdx {M K N : ℕ} (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a; apply Fin.ext
  match a with
  | ⟨0, _⟩ => exact ((DotDims.plain M K N).rhsIdx_val_of_single (cr := (0 : Fin 2)) rfl (ix2 p q) _).trans hk
  | ⟨1, _⟩ => exact plain_rhs_col (ix2 p q) _

/-- The product's sum over the contraction index, re-indexed by the contracted coordinate. -/
theorem sum_plain {M K N : ℕ} (l : (⟨2, ![M, K]⟩ : Shape).Idx → EReal) (r : (⟨2, ![K, N]⟩ : Shape).Idx → EReal)
    (p : Fin M) (q : Fin N) :
    ∑ k : (DotDims.plain M K N).contr.Idx, l ((DotDims.plain M K N).lhsIdx (ix2 p q) k) * r ((DotDims.plain M K N).rhsIdx (ix2 p q) k)
      = ∑ k : Fin K, l (ix2 p k) * r (ix2 k q) := by
  rw [← Equiv.sum_comp (contrEquiv1 (DotDims.plain M K N) K rfl rfl).symm]
  exact Finset.sum_congr rfl fun k _ => by rw [plain_lhsIdx, plain_rhsIdx]

/-- A tpu.matmul of these dimension numbers into the zero accumulator, at entry (p, q). -/
theorem matmul_plain_zero_apply {M K N : ℕ} {φ₁ φ₂ : FTy} (d : DotDims ⟨2, ![M, K]⟩ ⟨2, ![K, N]⟩ ⟨2, ![M, N]⟩)
    (hd : d = DotDims.plain M K N) (prec : Option ContractPrecision)
    (lhs : FVec Ideal ⟨2, ![M, K]⟩ φ₁) (rhs : FVec Ideal ⟨2, ![K, N]⟩ φ₂) (p : Fin M) (q : Fin N) :
    FloatOps.matmul d prec lhs rhs (constant ⟨2, ![M, N]⟩ .f32 0x00000000#32) (ix2 p q)
      = ∑ k : Fin K, lhs (ix2 p k) * rhs (ix2 k q) := by
  subst hd
  exact (Ideal.matmul_constant_zero_apply _ prec lhs rhs (ix2 p q)).trans (sum_plain lhs rhs p q)

/-- The host's dot_general of these dimension numbers, at entry (p, q). -/
theorem dotGeneral_plain_apply {M K N : ℕ} {φ₁ φ₂ : FTy} (d : DotDims ⟨2, ![M, K]⟩ ⟨2, ![K, N]⟩ ⟨2, ![M, N]⟩)
    (hd : d = DotDims.plain M K N) (prec : Option ContractPrecision) (sched : HostSchedule)
    (lhs : FVec Ideal ⟨2, ![M, K]⟩ φ₁) (rhs : FVec Ideal ⟨2, ![K, N]⟩ φ₂) (p : Fin M) (q : Fin N) :
    FloatOps.dotGeneral d prec sched lhs rhs (ix2 p q) = ∑ k : Fin K, lhs (ix2 p k) * rhs (ix2 k q) := by
  subst hd
  exact (Ideal.dotGeneral_apply _ prec sched lhs rhs (ix2 p q)).trans (sum_plain lhs rhs p q)

end Idealize.ShloMosaic.ValueIdx
-- ==== Proof.R0ValuePay.lean ====
/-
  Region 0's body at an entry, over the extended reals. The block the body stores into the Q, K and V buffers is, at row
  p and column j, the product of row p of the x block with column (offset + j) of the weight, plus the bias at that
  column, with offset 0, 1024, 2048. The two format changes are the identity on extended reals, the product accumulates
  into the zero splat, and the bias row is broadcast along the rows.
-/
import proofs.«174378_j75565654606299_2_alg».proof.Proof.R0Frame
import proofs.«174378_j75565654606299_2_alg».proof.Proof.Spec
import proofs.«174378_j75565654606299_2_alg».proof.Proof.LibPlainDot
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)

/-- The fused projection at entry (p, q) of the 512×3072 block: row p of x times column q of the weight, plus the bias at q. -/
theorem pay1_apply (x0 : Vec Ideal S512x1024 .f32) (x1 : Vec Ideal S1024x3072 .bf16) (x2 : Vec Ideal S1x3072 .f32)
    (p : Fin 512) (q : Fin 3072) :
    k0_pay1 x0 x1 x2 (ix2 p q) = (∑ k : Fin 1024, x0 (ix2 p k) * x1 (ix2 k q)) + x2 (ix2 (0 : Fin 1) q) := by
  unfold k0_pay1
  simp only [shapeCast_self]
  refine (truncf_apply (ψ := FTy.bf16) (φ := FTy.f32) (s := S512x3072) _ bitsLt_bf16_f32 (ix2 p q)).trans ?_
  refine (addf_apply (φ := FTy.f32) (s := S512x3072) _ _ (ix2 p q)).trans ?_
  refine congrArg₂ (· + ·) ?_ ?_
  · exact matmul_plain_zero_apply dot_S512x1024_S1024x3072_S512x3072_1_0_0_1_n_n rfl none
      (truncf FTy.bf16 x0 bitsLt_bf16_f32) x1 p q
  · exact broadcastTo_apply x2 broadcasts_S1x3072_S512x3072 (ix2 p q) (ix2 (0 : Fin 1) q) (fun a => match a with
      | ⟨0, _⟩ => by show (0 : Nat) = if (1 : Nat) = 1 then 0 else p.val; rw [if_pos rfl]
      | ⟨1, _⟩ => by show q.val = if (3072 : Nat) = 1 then 0 else q.val; rw [if_neg (by decide)])

/-- A 1024-column slice of the 512×3072 block at column offset `off`, read at (p, j): the block at (p, off + j). -/
theorem slice_apply (off : Nat) (y : FVec Ideal S512x3072 .bf16) (h : S512x3072.Slices ![0, off] S512x1024)
    (p : Fin 512) (j : Fin 1024) (q : Fin 3072) (hq : q.val = off + j.val) :
    extractStridedSlice S512x1024 ![0, off] y h (ix2 p j) = y (ix2 p q) :=
  extractStridedSlice_apply ![0, off] y h (ix2 p j) (ix2 p q) (fun a => match a with
    | ⟨0, _⟩ => by show p.val = 0 + p.val; omega
    | ⟨1, _⟩ => by show q.val = off + j.val; exact hq)

/-- The Q block at (p, j): row p of x times column j of the weight, plus the bias at j. -/
theorem pay2_apply (x0 : Vec Ideal S512x1024 .f32) (x1 : Vec Ideal S1024x3072 .bf16) (x2 : Vec Ideal S1x3072 .f32)
    (p : Fin 512) (j : Fin 1024) (q : Fin 3072) (hq : q.val = 0 + j.val) :
    k0_pay2 x0 x1 x2 (ix2 p j) = (∑ k : Fin 1024, x0 (ix2 p k) * x1 (ix2 k q)) + x2 (ix2 (0 : Fin 1) q) := by
  unfold k0_pay2
  exact (slice_apply 0 (k0_pay1 x0 x1 x2) slices_S512x3072_o0_0_S512x1024 p j q hq).trans (pay1_apply x0 x1 x2 p q)

/-- The K block at (p, j): row p of x times column 1024 + j of the weight, plus the bias at 1024 + j. -/
theorem pay3_apply (x0 : Vec Ideal S512x1024 .f32) (x1 : Vec Ideal S1024x3072 .bf16) (x2 : Vec Ideal S1x3072 .f32)
    (p : Fin 512) (j : Fin 1024) (q : Fin 3072) (hq : q.val = 1024 + j.val) :
    k0_pay3 x0 x1 x2 (ix2 p j) = (∑ k : Fin 1024, x0 (ix2 p k) * x1 (ix2 k q)) + x2 (ix2 (0 : Fin 1) q) := by
  unfold k0_pay3
  exact (slice_apply 1024 (k0_pay1 x0 x1 x2) slices_S512x3072_o0_1024_S512x1024 p j q hq).trans (pay1_apply x0 x1 x2 p q)

/-- The V block at (p, j): row p of x times column 2048 + j of the weight, plus the bias at 2048 + j. -/
theorem pay4_apply (x0 : Vec Ideal S512x1024 .f32) (x1 : Vec Ideal S1024x3072 .bf16) (x2 : Vec Ideal S1x3072 .f32)
    (p : Fin 512) (j : Fin 1024) (q : Fin 3072) (hq : q.val = 2048 + j.val) :
    k0_pay4 x0 x1 x2 (ix2 p j) = (∑ k : Fin 1024, x0 (ix2 p k) * x1 (ix2 k q)) + x2 (ix2 (0 : Fin 1) q) := by
  unfold k0_pay4
  exact (slice_apply 2048 (k0_pay1 x0 x1 x2) slices_S512x3072_o0_2048_S512x1024 p j q hq).trans (pay1_apply x0 x1 x2 p q)

/-- A row of x times a column of the weight plus the bias entry is the linear layer's entry, once the three operands are
    known to be the array's row r, the weight's column j and the bias at j. -/
theorem proj_of_sum (X : Cert.Attn.Mat 4096 1024) (W : Cert.Attn.Mat 1024 1024) (b : Cert.Attn.Vct 1024)
    (x0 : Vec Ideal S512x1024 .f32) (x1 : Vec Ideal S1024x3072 .bf16) (x2 : Vec Ideal S1x3072 .f32)
    (p : Fin 512) (j : Fin 1024) (r : Fin 4096) (q : Fin 3072)
    (h0 : ∀ k : Fin 1024, x0 (ix2 p k) = X (ix2 r k))
    (h1 : ∀ k : Fin 1024, x1 (ix2 k q) = W (ix2 k j))
    (h2 : x2 (ix2 (0 : Fin 1) q) = b (ix1 j)) :
    (∑ k : Fin 1024, x0 (ix2 p k) * x1 (ix2 k q)) + x2 (ix2 (0 : Fin 1) q) = Cert.Attn.proj X W b r j := by
  unfold Cert.Attn.proj
  rw [h2]
  exact congrArg (· + b (ix1 j)) (Finset.sum_congr rfl fun k _ => by rw [h0 k, h1 k])

end Cert.KernelIdeal.Hand

end
-- ==== Proof.R0Value.lean ====
/-
  Region 0's three output arrays as functions of the arrays the region finds. The grid's eight points each write back
  one 512-row block of Q, K and V; block t holds rows 512·t … 512·t + 511, and its entry (p, j) is the body's payload at
  (p, j): row 512·t + p of x times column (offset + j) of the concatenated weight plus the concatenated bias there. When
  the weight's columns offset … offset + 1023 are a matrix W and the bias there a vector b, that is the linear layer
  x·W + b at (512·t + p, j). The eight blocks tile the 4096 rows, so each array ends holding the linear layer.
-/
import proofs.«174378_j75565654606299_2_alg».proof.Proof.R0ValuePay
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)

theorem hz0 : (![0, 0] : Fin 2 → Nat) = fun _ => 0 := funext fun a => by fin_cases a <;> rfl

/-- The printed index maps, decided over the grid: the x block and the three output blocks move down one block of rows per
    point; the weight and the bias are one block each. -/
theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

section Blocks
variable (V : (c : Dev nD) → (b : Ref sig .tc) → Buf (Elt Ideal) ((c : Thread nD τ).loc b))

/-- The x block at point t, entry (p, k): x at row 512·t + p. -/
theorem iblk0_x_apply (c : Dev nD) (t : Fin cfg0.N) (p : Fin 512) (k : Fin 1024) (r : Fin 4096)
    (hr : r.val = 512 * t.val + p.val) :
    (iblk0 V c 0 t : Vec Ideal S512x1024 .f32) (ix2 p k) = V c main_arg0 (ix2 r k) := by
  obtain ⟨e0, e1, -⟩ := idx_facts0 t
  unfold iblk0
  rw [View.read_apply]
  show V c main_arg0 _ = V c main_arg0 _
  refine congrArg (V c main_arg0) (funext fun a => Fin.ext ?_)
  match a with
  | ⟨0, _⟩ => show win0_0.index t (0 : Fin 2) * 512 + 1 * p.val = r.val; rw [e0]; omega
  | ⟨1, _⟩ => show win0_0.index t (1 : Fin 2) * 1024 + 1 * k.val = k.val; rw [e1]; omega

/-- The weight block at any point is the whole weight. -/
theorem iblk0_w_apply (c : Dev nD) (t : Fin cfg0.N) (k : Fin 1024) (q : Fin 3072) :
    (iblk0 V c 1 t : Vec Ideal S1024x3072 .bf16) (ix2 k q) = V c main_v1 (ix2 k q) := by
  obtain ⟨-, -, e0, e1, -⟩ := idx_facts0 t
  unfold iblk0
  rw [View.read_apply]
  show V c main_v1 _ = V c main_v1 _
  refine congrArg (V c main_v1) (funext fun a => Fin.ext ?_)
  match a with
  | ⟨0, _⟩ => show win0_1.index t (0 : Fin 2) * 1024 + 1 * k.val = k.val; rw [e0]; omega
  | ⟨1, _⟩ => show win0_1.index t (1 : Fin 2) * 3072 + 1 * q.val = q.val; rw [e1]; omega

/-- The bias block at any point is the whole bias row. -/
theorem iblk0_b_apply (c : Dev nD) (t : Fin cfg0.N) (q : Fin 3072) :
    (iblk0 V c 2 t : Vec Ideal S1x3072 .f32) (ix2 (0 : Fin 1) q) = V c main_v3 (ix2 (0 : Fin 1) q) := by
  obtain ⟨-, -, -, -, e0, e1, -⟩ := idx_facts0 t
  unfold iblk0
  rw [View.read_apply]
  show V c main_v3 _ = V c main_v3 _
  refine congrArg (V c main_v3) (funext fun a => Fin.ext ?_)
  match a with
  | ⟨0, _⟩ => show win0_2.index t (0 : Fin 2) * 1 + 1 * 0 = 0; rw [e0]
  | ⟨1, _⟩ => show win0_2.index t (1 : Fin 2) * 3072 + 1 * q.val = q.val; rw [e1]; omega

end Blocks

section Arrays
variable (V : (c : Dev nD) → (b : Ref sig .tc) → Buf (Elt Ideal) ((c : Thread nD τ).loc b))

/-- What point t writes back to the Q array is block t of the linear layer of the weight's columns 0 … 1023. -/
theorem flushedQ_eq (c : Dev nD) (W : Cert.Attn.Mat 1024 1024) (b : Cert.Attn.Vct 1024)
    (hW : ∀ (k j : Fin 1024), (V c main_v1) (ix2 k (⟨0 + j.val, by omega⟩ : Fin 3072)) = W (ix2 k j))
    (hb : ∀ j : Fin 1024, (V c main_v3) (ix2 (0 : Fin 1) (⟨0 + j.val, by omega⟩ : Fin 3072)) = b (ix1 j))
    (t : Fin cfg0.N) :
    (dat0 (F := Ideal) V c).flushed 3 t
      = ((cfg0.win 3).blk t).view.read (Elt Ideal)
          (fun idx : S4096x1024.Idx => Cert.Attn.proj (V c main_arg0) W b (idx 0) (idx 1)) := by
  have hN : cfg0.N = 8 := N_0
  have ht : t.val < 8 := by have := t.isLt; omega
  have e0 : win0_3.index t (0 : Fin 2) = t.val := (idx_facts0 t).2.2.2.2.2.2.1
  have e1 : win0_3.index t (1 : Fin 2) = 0 := (idx_facts0 t).2.2.2.2.2.2.2.1
  show (cfg0.win 3).cut (grid0.coords t) ((dat0 V c).after 3 t) = _
  rw [after0_3]
  unfold out0_3
  rw [View.canon_unit_zero hz0]
  simp only [View.ld_unit_zero (S := S512x1024) hz0, View.ld_unit_zero (S := S1024x3072) hz0, View.ld_unit_zero (S := S1x3072) hz0]
  funext y
  have hp : (y 0).val < 512 := (y 0).isLt
  have hj : (y 1).val < 1024 := (y 1).isLt
  have hx : (cfg0.win 3).xinj (grid0.coords t) y = ix2 (⟨(y 0).val, hp⟩ : Fin 512) (⟨(y 1).val, hj⟩ : Fin 1024) :=
    funext fun a => match a with | ⟨0, _⟩ => rfl | ⟨1, _⟩ => rfl
  have hr : ((cfg0.win 3).blk t).view.emb y
      = ix2 (⟨512 * t.val + (y 0).val, by omega⟩ : Fin 4096) (⟨(y 1).val, hj⟩ : Fin 1024) :=
    funext fun a => Fin.ext (by
      match a with
      | ⟨0, _⟩ => show win0_3.index t (0 : Fin 2) * 512 + 1 * (y 0).val = 512 * t.val + (y 0).val; rw [e0]; omega
      | ⟨1, _⟩ => show win0_3.index t (1 : Fin 2) * 1024 + 1 * (y 1).val = (y 1).val; rw [e1]; omega)
  refine (congrArg (k0_pay2 (iblk0 V c 0 t) (iblk0 V c 1 t) (iblk0 V c 2 t)) hx).trans ?_
  refine Eq.trans ?_ (congrArg (fun idx : S4096x1024.Idx => Cert.Attn.proj (V c main_arg0) W b (idx 0) (idx 1)) hr).symm
  refine (pay2_apply (iblk0 V c 0 t) (iblk0 V c 1 t) (iblk0 V c 2 t) ⟨(y 0).val, hp⟩ ⟨(y 1).val, hj⟩
    ⟨0 + (y 1).val, by omega⟩ rfl).trans ?_
  exact proj_of_sum (V c main_arg0) W b (iblk0 V c 0 t) (iblk0 V c 1 t) (iblk0 V c 2 t) ⟨(y 0).val, hp⟩ ⟨(y 1).val, hj⟩
    ⟨512 * t.val + (y 0).val, by omega⟩ ⟨0 + (y 1).val, by omega⟩
    (fun k => iblk0_x_apply V c t ⟨(y 0).val, hp⟩ k ⟨512 * t.val + (y 0).val, by omega⟩ rfl)
    (fun k => (iblk0_w_apply V c t k ⟨0 + (y 1).val, by omega⟩).trans (hW k ⟨(y 1).val, hj⟩))
    ((iblk0_b_apply V c t ⟨0 + (y 1).val, by omega⟩).trans (hb ⟨(y 1).val, hj⟩))

/-- An entry of the Q array is in point t's block when its row is among the block's 512 rows. -/
theorem mem_blkQ (t : Fin cfg0.N) (i : S4096x1024.Idx) :
    i ∈ ((cfg0.win 3).blk t).view.set ↔ ∀ a : Fin 2, win0_3.index t a * S512x1024.size a ≤ (i a).val
      ∧ (i a).val < win0_3.index t a * S512x1024.size a + S512x1024.size a := by
  show i ∈ ((View.whole main_v4_0).slice (win0_3.rect t)).set ↔ _
  rw [View.set_slice_whole, Rect.mem_set_unit]
  exact Iff.rfl

/-- Every entry of the Q array is in the block of the point its row divided by 512 names, and every point writes back. -/
theorem coverQ (i : S4096x1024.Idx) :
    ∃ t : Fin cfg0.N, (cfg0.win 3).flush t = true ∧ i ∈ ((cfg0.win 3).blk t).view.set := by
  have hN : cfg0.N = 8 := N_0
  have h0 : (i 0).val < 4096 := (i 0).isLt
  have h1 : (i 1).val < 1024 := (i 1).isLt
  obtain ⟨t, ht⟩ : ∃ t : Fin cfg0.N, t.val = (i 0).val / 512 := ⟨⟨(i 0).val / 512, by omega⟩, rfl⟩
  have e0 : win0_3.index t (0 : Fin 2) = t.val := (idx_facts0 t).2.2.2.2.2.2.1
  have e1 : win0_3.index t (1 : Fin 2) = 0 := (idx_facts0 t).2.2.2.2.2.2.2.1
  refine ⟨t, flush0_3 t, ?_⟩
  rw [mem_blkQ]
  intro a
  match a with
  | ⟨0, _⟩ =>
    show win0_3.index t (0 : Fin 2) * 512 ≤ (i 0).val ∧ (i 0).val < win0_3.index t (0 : Fin 2) * 512 + 512
    rw [e0]; omega
  | ⟨1, _⟩ =>
    show win0_3.index t (1 : Fin 2) * 1024 ≤ (i 1).val ∧ (i 1).val < win0_3.index t (1 : Fin 2) * 1024 + 1024
    rw [e1]; omega

/-- the Q array after region 0: the linear layer of x with the weight's columns 0 … 1023 and the bias there. -/
theorem arr0_Q (c : Dev nD) (W : Cert.Attn.Mat 1024 1024) (b : Cert.Attn.Vct 1024)
    (hW : ∀ (k j : Fin 1024), (V c main_v1) (ix2 k (⟨0 + j.val, by omega⟩ : Fin 3072)) = W (ix2 k j))
    (hb : ∀ j : Fin 1024, (V c main_v3) (ix2 (0 : Fin 1) (⟨0 + j.val, by omega⟩ : Fin 3072)) = b (ix1 j)) :
    (dat0 (F := Ideal) V c).arrAt 3 cfg0.N = fun idx => Cert.Attn.proj (V c main_arg0) W b (idx 0) (idx 1) :=
  (dat0 (F := Ideal) V c).arrAt_eq_of_cover 3
    (fun idx : S4096x1024.Idx => Cert.Attn.proj (V c main_arg0) W b (idx 0) (idx 1))
    (fun t _ => flushedQ_eq V c W b hW hb t) coverQ

/-- What point t writes back to the K array is block t of the linear layer of the weight's columns 1024 … 2047. -/
theorem flushedK_eq (c : Dev nD) (W : Cert.Attn.Mat 1024 1024) (b : Cert.Attn.Vct 1024)
    (hW : ∀ (k j : Fin 1024), (V c main_v1) (ix2 k (⟨1024 + j.val, by omega⟩ : Fin 3072)) = W (ix2 k j))
    (hb : ∀ j : Fin 1024, (V c main_v3) (ix2 (0 : Fin 1) (⟨1024 + j.val, by omega⟩ : Fin 3072)) = b (ix1 j))
    (t : Fin cfg0.N) :
    (dat0 (F := Ideal) V c).flushed 4 t
      = ((cfg0.win 4).blk t).view.read (Elt Ideal)
          (fun idx : S4096x1024.Idx => Cert.Attn.proj (V c main_arg0) W b (idx 0) (idx 1)) := by
  have hN : cfg0.N = 8 := N_0
  have ht : t.val < 8 := by have := t.isLt; omega
  have e0 : win0_4.index t (0 : Fin 2) = t.val := (idx_facts0 t).2.2.2.2.2.2.2.2.1
  have e1 : win0_4.index t (1 : Fin 2) = 0 := (idx_facts0 t).2.2.2.2.2.2.2.2.2.1
  show (cfg0.win 4).cut (grid0.coords t) ((dat0 V c).after 4 t) = _
  rw [after0_4]
  unfold out0_4
  rw [View.canon_unit_zero hz0]
  simp only [View.ld_unit_zero (S := S512x1024) hz0, View.ld_unit_zero (S := S1024x3072) hz0, View.ld_unit_zero (S := S1x3072) hz0]
  funext y
  have hp : (y 0).val < 512 := (y 0).isLt
  have hj : (y 1).val < 1024 := (y 1).isLt
  have hx : (cfg0.win 4).xinj (grid0.coords t) y = ix2 (⟨(y 0).val, hp⟩ : Fin 512) (⟨(y 1).val, hj⟩ : Fin 1024) :=
    funext fun a => match a with | ⟨0, _⟩ => rfl | ⟨1, _⟩ => rfl
  have hr : ((cfg0.win 4).blk t).view.emb y
      = ix2 (⟨512 * t.val + (y 0).val, by omega⟩ : Fin 4096) (⟨(y 1).val, hj⟩ : Fin 1024) :=
    funext fun a => Fin.ext (by
      match a with
      | ⟨0, _⟩ => show win0_4.index t (0 : Fin 2) * 512 + 1 * (y 0).val = 512 * t.val + (y 0).val; rw [e0]; omega
      | ⟨1, _⟩ => show win0_4.index t (1 : Fin 2) * 1024 + 1 * (y 1).val = (y 1).val; rw [e1]; omega)
  refine (congrArg (k0_pay3 (iblk0 V c 0 t) (iblk0 V c 1 t) (iblk0 V c 2 t)) hx).trans ?_
  refine Eq.trans ?_ (congrArg (fun idx : S4096x1024.Idx => Cert.Attn.proj (V c main_arg0) W b (idx 0) (idx 1)) hr).symm
  refine (pay3_apply (iblk0 V c 0 t) (iblk0 V c 1 t) (iblk0 V c 2 t) ⟨(y 0).val, hp⟩ ⟨(y 1).val, hj⟩
    ⟨1024 + (y 1).val, by omega⟩ rfl).trans ?_
  exact proj_of_sum (V c main_arg0) W b (iblk0 V c 0 t) (iblk0 V c 1 t) (iblk0 V c 2 t) ⟨(y 0).val, hp⟩ ⟨(y 1).val, hj⟩
    ⟨512 * t.val + (y 0).val, by omega⟩ ⟨1024 + (y 1).val, by omega⟩
    (fun k => iblk0_x_apply V c t ⟨(y 0).val, hp⟩ k ⟨512 * t.val + (y 0).val, by omega⟩ rfl)
    (fun k => (iblk0_w_apply V c t k ⟨1024 + (y 1).val, by omega⟩).trans (hW k ⟨(y 1).val, hj⟩))
    ((iblk0_b_apply V c t ⟨1024 + (y 1).val, by omega⟩).trans (hb ⟨(y 1).val, hj⟩))

/-- An entry of the K array is in point t's block when its row is among the block's 512 rows. -/
theorem mem_blkK (t : Fin cfg0.N) (i : S4096x1024.Idx) :
    i ∈ ((cfg0.win 4).blk t).view.set ↔ ∀ a : Fin 2, win0_4.index t a * S512x1024.size a ≤ (i a).val
      ∧ (i a).val < win0_4.index t a * S512x1024.size a + S512x1024.size a := by
  show i ∈ ((View.whole main_v4_1).slice (win0_4.rect t)).set ↔ _
  rw [View.set_slice_whole, Rect.mem_set_unit]
  exact Iff.rfl

/-- Every entry of the K array is in the block of the point its row divided by 512 names, and every point writes back. -/
theorem coverK (i : S4096x1024.Idx) :
    ∃ t : Fin cfg0.N, (cfg0.win 4).flush t = true ∧ i ∈ ((cfg0.win 4).blk t).view.set := by
  have hN : cfg0.N = 8 := N_0
  have h0 : (i 0).val < 4096 := (i 0).isLt
  have h1 : (i 1).val < 1024 := (i 1).isLt
  obtain ⟨t, ht⟩ : ∃ t : Fin cfg0.N, t.val = (i 0).val / 512 := ⟨⟨(i 0).val / 512, by omega⟩, rfl⟩
  have e0 : win0_4.index t (0 : Fin 2) = t.val := (idx_facts0 t).2.2.2.2.2.2.2.2.1
  have e1 : win0_4.index t (1 : Fin 2) = 0 := (idx_facts0 t).2.2.2.2.2.2.2.2.2.1
  refine ⟨t, flush0_4 t, ?_⟩
  rw [mem_blkK]
  intro a
  match a with
  | ⟨0, _⟩ =>
    show win0_4.index t (0 : Fin 2) * 512 ≤ (i 0).val ∧ (i 0).val < win0_4.index t (0 : Fin 2) * 512 + 512
    rw [e0]; omega
  | ⟨1, _⟩ =>
    show win0_4.index t (1 : Fin 2) * 1024 ≤ (i 1).val ∧ (i 1).val < win0_4.index t (1 : Fin 2) * 1024 + 1024
    rw [e1]; omega

/-- the K array after region 0: the linear layer of x with the weight's columns 1024 … 2047 and the bias there. -/
theorem arr0_K (c : Dev nD) (W : Cert.Attn.Mat 1024 1024) (b : Cert.Attn.Vct 1024)
    (hW : ∀ (k j : Fin 1024), (V c main_v1) (ix2 k (⟨1024 + j.val, by omega⟩ : Fin 3072)) = W (ix2 k j))
    (hb : ∀ j : Fin 1024, (V c main_v3) (ix2 (0 : Fin 1) (⟨1024 + j.val, by omega⟩ : Fin 3072)) = b (ix1 j)) :
    (dat0 (F := Ideal) V c).arrAt 4 cfg0.N = fun idx => Cert.Attn.proj (V c main_arg0) W b (idx 0) (idx 1) :=
  (dat0 (F := Ideal) V c).arrAt_eq_of_cover 4
    (fun idx : S4096x1024.Idx => Cert.Attn.proj (V c main_arg0) W b (idx 0) (idx 1))
    (fun t _ => flushedK_eq V c W b hW hb t) coverK

/-- What point t writes back to the V array is block t of the linear layer of the weight's columns 2048 … 3071. -/
theorem flushedV_eq (c : Dev nD) (W : Cert.Attn.Mat 1024 1024) (b : Cert.Attn.Vct 1024)
    (hW : ∀ (k j : Fin 1024), (V c main_v1) (ix2 k (⟨2048 + j.val, by omega⟩ : Fin 3072)) = W (ix2 k j))
    (hb : ∀ j : Fin 1024, (V c main_v3) (ix2 (0 : Fin 1) (⟨2048 + j.val, by omega⟩ : Fin 3072)) = b (ix1 j))
    (t : Fin cfg0.N) :
    (dat0 (F := Ideal) V c).flushed 5 t
      = ((cfg0.win 5).blk t).view.read (Elt Ideal)
          (fun idx : S4096x1024.Idx => Cert.Attn.proj (V c main_arg0) W b (idx 0) (idx 1)) := by
  have hN : cfg0.N = 8 := N_0
  have ht : t.val < 8 := by have := t.isLt; omega
  have e0 : win0_5.index t (0 : Fin 2) = t.val := (idx_facts0 t).2.2.2.2.2.2.2.2.2.2.1
  have e1 : win0_5.index t (1 : Fin 2) = 0 := (idx_facts0 t).2.2.2.2.2.2.2.2.2.2.2
  show (cfg0.win 5).cut (grid0.coords t) ((dat0 V c).after 5 t) = _
  rw [after0_5]
  unfold out0_5
  rw [View.canon_unit_zero hz0]
  simp only [View.ld_unit_zero (S := S512x1024) hz0, View.ld_unit_zero (S := S1024x3072) hz0, View.ld_unit_zero (S := S1x3072) hz0]
  funext y
  have hp : (y 0).val < 512 := (y 0).isLt
  have hj : (y 1).val < 1024 := (y 1).isLt
  have hx : (cfg0.win 5).xinj (grid0.coords t) y = ix2 (⟨(y 0).val, hp⟩ : Fin 512) (⟨(y 1).val, hj⟩ : Fin 1024) :=
    funext fun a => match a with | ⟨0, _⟩ => rfl | ⟨1, _⟩ => rfl
  have hr : ((cfg0.win 5).blk t).view.emb y
      = ix2 (⟨512 * t.val + (y 0).val, by omega⟩ : Fin 4096) (⟨(y 1).val, hj⟩ : Fin 1024) :=
    funext fun a => Fin.ext (by
      match a with
      | ⟨0, _⟩ => show win0_5.index t (0 : Fin 2) * 512 + 1 * (y 0).val = 512 * t.val + (y 0).val; rw [e0]; omega
      | ⟨1, _⟩ => show win0_5.index t (1 : Fin 2) * 1024 + 1 * (y 1).val = (y 1).val; rw [e1]; omega)
  refine (congrArg (k0_pay4 (iblk0 V c 0 t) (iblk0 V c 1 t) (iblk0 V c 2 t)) hx).trans ?_
  refine Eq.trans ?_ (congrArg (fun idx : S4096x1024.Idx => Cert.Attn.proj (V c main_arg0) W b (idx 0) (idx 1)) hr).symm
  refine (pay4_apply (iblk0 V c 0 t) (iblk0 V c 1 t) (iblk0 V c 2 t) ⟨(y 0).val, hp⟩ ⟨(y 1).val, hj⟩
    ⟨2048 + (y 1).val, by omega⟩ rfl).trans ?_
  exact proj_of_sum (V c main_arg0) W b (iblk0 V c 0 t) (iblk0 V c 1 t) (iblk0 V c 2 t) ⟨(y 0).val, hp⟩ ⟨(y 1).val, hj⟩
    ⟨512 * t.val + (y 0).val, by omega⟩ ⟨2048 + (y 1).val, by omega⟩
    (fun k => iblk0_x_apply V c t ⟨(y 0).val, hp⟩ k ⟨512 * t.val + (y 0).val, by omega⟩ rfl)
    (fun k => (iblk0_w_apply V c t k ⟨2048 + (y 1).val, by omega⟩).trans (hW k ⟨(y 1).val, hj⟩))
    ((iblk0_b_apply V c t ⟨2048 + (y 1).val, by omega⟩).trans (hb ⟨(y 1).val, hj⟩))

/-- An entry of the V array is in point t's block when its row is among the block's 512 rows. -/
theorem mem_blkV (t : Fin cfg0.N) (i : S4096x1024.Idx) :
    i ∈ ((cfg0.win 5).blk t).view.set ↔ ∀ a : Fin 2, win0_5.index t a * S512x1024.size a ≤ (i a).val
      ∧ (i a).val < win0_5.index t a * S512x1024.size a + S512x1024.size a := by
  show i ∈ ((View.whole main_v4_2).slice (win0_5.rect t)).set ↔ _
  rw [View.set_slice_whole, Rect.mem_set_unit]
  exact Iff.rfl

/-- Every entry of the V array is in the block of the point its row divided by 512 names, and every point writes back. -/
theorem coverV (i : S4096x1024.Idx) :
    ∃ t : Fin cfg0.N, (cfg0.win 5).flush t = true ∧ i ∈ ((cfg0.win 5).blk t).view.set := by
  have hN : cfg0.N = 8 := N_0
  have h0 : (i 0).val < 4096 := (i 0).isLt
  have h1 : (i 1).val < 1024 := (i 1).isLt
  obtain ⟨t, ht⟩ : ∃ t : Fin cfg0.N, t.val = (i 0).val / 512 := ⟨⟨(i 0).val / 512, by omega⟩, rfl⟩
  have e0 : win0_5.index t (0 : Fin 2) = t.val := (idx_facts0 t).2.2.2.2.2.2.2.2.2.2.1
  have e1 : win0_5.index t (1 : Fin 2) = 0 := (idx_facts0 t).2.2.2.2.2.2.2.2.2.2.2
  refine ⟨t, flush0_5 t, ?_⟩
  rw [mem_blkV]
  intro a
  match a with
  | ⟨0, _⟩ =>
    show win0_5.index t (0 : Fin 2) * 512 ≤ (i 0).val ∧ (i 0).val < win0_5.index t (0 : Fin 2) * 512 + 512
    rw [e0]; omega
  | ⟨1, _⟩ =>
    show win0_5.index t (1 : Fin 2) * 1024 ≤ (i 1).val ∧ (i 1).val < win0_5.index t (1 : Fin 2) * 1024 + 1024
    rw [e1]; omega

/-- the V array after region 0: the linear layer of x with the weight's columns 2048 … 3071 and the bias there. -/
theorem arr0_V (c : Dev nD) (W : Cert.Attn.Mat 1024 1024) (b : Cert.Attn.Vct 1024)
    (hW : ∀ (k j : Fin 1024), (V c main_v1) (ix2 k (⟨2048 + j.val, by omega⟩ : Fin 3072)) = W (ix2 k j))
    (hb : ∀ j : Fin 1024, (V c main_v3) (ix2 (0 : Fin 1) (⟨2048 + j.val, by omega⟩ : Fin 3072)) = b (ix1 j)) :
    (dat0 (F := Ideal) V c).arrAt 5 cfg0.N = fun idx => Cert.Attn.proj (V c main_arg0) W b (idx 0) (idx 1) :=
  (dat0 (F := Ideal) V c).arrAt_eq_of_cover 5
    (fun idx : S4096x1024.Idx => Cert.Attn.proj (V c main_arg0) W b (idx 0) (idx 1))
    (fun t _ => flushedV_eq V c W b hW hb t) coverV

end Arrays

end Cert.KernelIdeal.Hand

end
-- ==== Proof.R0ValueHost.lean ====
/-
  The host operations in front of region 0, read at an entry, from any contents of the buffers. The three weight
  matrices are concatenated along the columns and converted to the narrower format (the identity on extended reals):
  the result at column 1024·w + j is weight w at column j. The three bias vectors are concatenated and reshaped to a
  row: the result at (0, 1024·w + j) is bias w at j.
-/
import proofs.«174378_j75565654606299_2_alg».proof.Proof.Gen.KernelIdeal.Launch
import Idealize.ShloMosaic.Lib.StableHlo.Run
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)

open Idealize.ShloMosaic.StableHlo

/-- Three 1024-column matrices side by side, at row k and column 0 + j: matrix 0 at (k, j). -/
theorem concat_cols_0 (A0 A1 A2 : S1024x1024.Idx → EReal) (k j : Fin 1024) (q : Fin 3072) (hq : q.val = 0 + j.val) :
    concatenate S1024x3072 1 [⟨S1024x1024, A0⟩, ⟨S1024x1024, A1⟩, ⟨S1024x1024, A2⟩] concatenates_S1024x1024_S1024x1024_S1024x1024_S1024x3072_d1 (ix2 k q) = A0 (ix2 k j) :=
  concatenate_apply_piece (t := S1024x3072) (1 : Fin 2) [⟨S1024x1024, A0⟩, ⟨S1024x1024, A1⟩, ⟨S1024x1024, A2⟩] concatenates_S1024x1024_S1024x1024_S1024x1024_S1024x3072_d1 (ix2 k q)
    0 (by simp) S1024x1024 A0 rfl rfl 0 (by rfl) (ix2 k j)
    (fun b hb => match b with | ⟨0, _⟩ => rfl | ⟨1, _⟩ => absurd rfl hb)
    (by show 0 + j.val = q.val; omega)

/-- Three 1024-column matrices side by side, at row k and column 1024 + j: matrix 1 at (k, j). -/
theorem concat_cols_1 (A0 A1 A2 : S1024x1024.Idx → EReal) (k j : Fin 1024) (q : Fin 3072) (hq : q.val = 1024 + j.val) :
    concatenate S1024x3072 1 [⟨S1024x1024, A0⟩, ⟨S1024x1024, A1⟩, ⟨S1024x1024, A2⟩] concatenates_S1024x1024_S1024x1024_S1024x1024_S1024x3072_d1 (ix2 k q) = A1 (ix2 k j) :=
  concatenate_apply_piece (t := S1024x3072) (1 : Fin 2) [⟨S1024x1024, A0⟩, ⟨S1024x1024, A1⟩, ⟨S1024x1024, A2⟩] concatenates_S1024x1024_S1024x1024_S1024x1024_S1024x3072_d1 (ix2 k q)
    1 (by simp) S1024x1024 A1 rfl rfl 1024 (by rfl) (ix2 k j)
    (fun b hb => match b with | ⟨0, _⟩ => rfl | ⟨1, _⟩ => absurd rfl hb)
    (by show 1024 + j.val = q.val; omega)

/-- Three 1024-column matrices side by side, at row k and column 2048 + j: matrix 2 at (k, j). -/
theorem concat_cols_2 (A0 A1 A2 : S1024x1024.Idx → EReal) (k j : Fin 1024) (q : Fin 3072) (hq : q.val = 2048 + j.val) :
    concatenate S1024x3072 1 [⟨S1024x1024, A0⟩, ⟨S1024x1024, A1⟩, ⟨S1024x1024, A2⟩] concatenates_S1024x1024_S1024x1024_S1024x1024_S1024x3072_d1 (ix2 k q) = A2 (ix2 k j) :=
  concatenate_apply_piece (t := S1024x3072) (1 : Fin 2) [⟨S1024x1024, A0⟩, ⟨S1024x1024, A1⟩, ⟨S1024x1024, A2⟩] concatenates_S1024x1024_S1024x1024_S1024x1024_S1024x3072_d1 (ix2 k q)
    2 (by simp) S1024x1024 A2 rfl rfl 2048 (by rfl) (ix2 k j)
    (fun b hb => match b with | ⟨0, _⟩ => rfl | ⟨1, _⟩ => absurd rfl hb)
    (by show 2048 + j.val = q.val; omega)

/-- Three 1024-entry vectors end to end, at 0 + j: vector 0 at j. -/
theorem concat_vec_0 (B0 B1 B2 : S1024.Idx → EReal) (j : Fin 1024) (q : Fin 3072) (hq : q.val = 0 + j.val) :
    concatenate S3072 0 [⟨S1024, B0⟩, ⟨S1024, B1⟩, ⟨S1024, B2⟩] concatenates_S1024_S1024_S1024_S3072_d0 (ix1 q) = B0 (ix1 j) :=
  concatenate_apply_piece (t := S3072) (0 : Fin 1) [⟨S1024, B0⟩, ⟨S1024, B1⟩, ⟨S1024, B2⟩] concatenates_S1024_S1024_S1024_S3072_d0 (ix1 q)
    0 (by simp) S1024 B0 rfl rfl 0 (by rfl) (ix1 j)
    (fun b hb => match b with | ⟨0, _⟩ => absurd rfl hb)
    (by show 0 + j.val = q.val; omega)

/-- Three 1024-entry vectors end to end, at 1024 + j: vector 1 at j. -/
theorem concat_vec_1 (B0 B1 B2 : S1024.Idx → EReal) (j : Fin 1024) (q : Fin 3072) (hq : q.val = 1024 + j.val) :
    concatenate S3072 0 [⟨S1024, B0⟩, ⟨S1024, B1⟩, ⟨S1024, B2⟩] concatenates_S1024_S1024_S1024_S3072_d0 (ix1 q) = B1 (ix1 j) :=
  concatenate_apply_piece (t := S3072) (0 : Fin 1) [⟨S1024, B0⟩, ⟨S1024, B1⟩, ⟨S1024, B2⟩] concatenates_S1024_S1024_S1024_S3072_d0 (ix1 q)
    1 (by simp) S1024 B1 rfl rfl 1024 (by rfl) (ix1 j)
    (fun b hb => match b with | ⟨0, _⟩ => absurd rfl hb)
    (by show 1024 + j.val = q.val; omega)

/-- Three 1024-entry vectors end to end, at 2048 + j: vector 2 at j. -/
theorem concat_vec_2 (B0 B1 B2 : S1024.Idx → EReal) (j : Fin 1024) (q : Fin 3072) (hq : q.val = 2048 + j.val) :
    concatenate S3072 0 [⟨S1024, B0⟩, ⟨S1024, B1⟩, ⟨S1024, B2⟩] concatenates_S1024_S1024_S1024_S3072_d0 (ix1 q) = B2 (ix1 j) :=
  concatenate_apply_piece (t := S3072) (0 : Fin 1) [⟨S1024, B0⟩, ⟨S1024, B1⟩, ⟨S1024, B2⟩] concatenates_S1024_S1024_S1024_S3072_d0 (ix1 q)
    2 (by simp) S1024 B2 rfl rfl 2048 (by rfl) (ix1 j)
    (fun b hb => match b with | ⟨0, _⟩ => absurd rfl hb)
    (by show 2048 + j.val = q.val; omega)

/-- A 3072-entry vector reshaped to one row, at (0, q): the vector at q. -/
theorem reshape_row_apply (C : S3072.Idx → EReal) (q : Fin 3072) :
    shapeCast S1x3072 C shapeCasts_S3072_S1x3072 (ix2 (0 : Fin 1) q) = C (ix1 q) :=
  shapeCast_apply C shapeCasts_S3072_S1x3072 (ix2 (0 : Fin 1) q) (ix1 q) (by
    rw [Shape.rowMajor_val_one, Shape.rowMajor_val_two]
    show q.val = 0 * 3072 + q.val
    omega)

section Host
variable (Wv : Valuation τ sig (Elt Ideal))

/-- The concatenated weight after the four operations, as one term over the contents found. -/
theorem host_v1_eq :
    (StableHlo.after (hostOps0 (F := Ideal)) Wv (Proc.devRef .tc main_v1) : S1024x3072.Idx → EReal)
      = truncf (F := Ideal) .bf16 (concatenate S1024x3072 1
          [⟨S1024x1024, Wv (Proc.devRef .tc main_arg2)⟩, ⟨S1024x1024, Wv (Proc.devRef .tc main_arg4)⟩,
            ⟨S1024x1024, Wv (Proc.devRef .tc main_arg6)⟩]
          concatenates_S1024x1024_S1024x1024_S1024x1024_S1024x3072_d1) bitsLt_bf16_f32 := by
  after_results
  rfl

/-- The bias row after the four operations, as one term over the contents found. -/
theorem host_v3_eq :
    (StableHlo.after (hostOps0 (F := Ideal)) Wv (Proc.devRef .tc main_v3) : S1x3072.Idx → EReal)
      = shapeCast S1x3072 (concatenate S3072 0
          [⟨S1024, Wv (Proc.devRef .tc main_arg3)⟩, ⟨S1024, Wv (Proc.devRef .tc main_arg5)⟩,
            ⟨S1024, Wv (Proc.devRef .tc main_arg7)⟩]
          concatenates_S1024_S1024_S1024_S3072_d0) shapeCasts_S3072_S1x3072 := by
  after_results
  beta_reduce
  repeat (first
    | (rw [unary_result_ne]; rotate_left; decide)
    | (rw [nary_result_ne]; rotate_left; decide))
  rfl

/-- The concatenated, converted weight at column 0 + j is weight 0 (main_arg2) at column j. -/
theorem host_weight_q (k j : Fin 1024) :
    (StableHlo.after (hostOps0 (F := Ideal)) Wv (Proc.devRef .tc main_v1)) (ix2 k (⟨0 + j.val, by omega⟩ : Fin 3072))
      = (Wv (Proc.devRef .tc main_arg2)) (ix2 k j) :=
  (congrFun (host_v1_eq Wv) (ix2 k (⟨0 + j.val, by omega⟩ : Fin 3072))).trans
    (concat_cols_0 (Wv (Proc.devRef .tc main_arg2)) (Wv (Proc.devRef .tc main_arg4)) (Wv (Proc.devRef .tc main_arg6))
      k j ⟨0 + j.val, by omega⟩ rfl)

/-- The concatenated, reshaped bias at (0, 0 + j) is bias 0 (main_arg3) at j. -/
theorem host_bias_q (j : Fin 1024) :
    (StableHlo.after (hostOps0 (F := Ideal)) Wv (Proc.devRef .tc main_v3)) (ix2 (0 : Fin 1) (⟨0 + j.val, by omega⟩ : Fin 3072))
      = (Wv (Proc.devRef .tc main_arg3)) (ix1 j) :=
  (congrFun (host_v3_eq Wv) (ix2 (0 : Fin 1) (⟨0 + j.val, by omega⟩ : Fin 3072))).trans
    ((reshape_row_apply _ (⟨0 + j.val, by omega⟩ : Fin 3072)).trans
      (concat_vec_0 (Wv (Proc.devRef .tc main_arg3)) (Wv (Proc.devRef .tc main_arg5)) (Wv (Proc.devRef .tc main_arg7))
        j ⟨0 + j.val, by omega⟩ rfl))

/-- The concatenated, converted weight at column 1024 + j is weight 1 (main_arg4) at column j. -/
theorem host_weight_k (k j : Fin 1024) :
    (StableHlo.after (hostOps0 (F := Ideal)) Wv (Proc.devRef .tc main_v1)) (ix2 k (⟨1024 + j.val, by omega⟩ : Fin 3072))
      = (Wv (Proc.devRef .tc main_arg4)) (ix2 k j) :=
  (congrFun (host_v1_eq Wv) (ix2 k (⟨1024 + j.val, by omega⟩ : Fin 3072))).trans
    (concat_cols_1 (Wv (Proc.devRef .tc main_arg2)) (Wv (Proc.devRef .tc main_arg4)) (Wv (Proc.devRef .tc main_arg6))
      k j ⟨1024 + j.val, by omega⟩ rfl)

/-- The concatenated, reshaped bias at (0, 1024 + j) is bias 1 (main_arg5) at j. -/
theorem host_bias_k (j : Fin 1024) :
    (StableHlo.after (hostOps0 (F := Ideal)) Wv (Proc.devRef .tc main_v3)) (ix2 (0 : Fin 1) (⟨1024 + j.val, by omega⟩ : Fin 3072))
      = (Wv (Proc.devRef .tc main_arg5)) (ix1 j) :=
  (congrFun (host_v3_eq Wv) (ix2 (0 : Fin 1) (⟨1024 + j.val, by omega⟩ : Fin 3072))).trans
    ((reshape_row_apply _ (⟨1024 + j.val, by omega⟩ : Fin 3072)).trans
      (concat_vec_1 (Wv (Proc.devRef .tc main_arg3)) (Wv (Proc.devRef .tc main_arg5)) (Wv (Proc.devRef .tc main_arg7))
        j ⟨1024 + j.val, by omega⟩ rfl))

/-- The concatenated, converted weight at column 2048 + j is weight 2 (main_arg6) at column j. -/
theorem host_weight_v (k j : Fin 1024) :
    (StableHlo.after (hostOps0 (F := Ideal)) Wv (Proc.devRef .tc main_v1)) (ix2 k (⟨2048 + j.val, by omega⟩ : Fin 3072))
      = (Wv (Proc.devRef .tc main_arg6)) (ix2 k j) :=
  (congrFun (host_v1_eq Wv) (ix2 k (⟨2048 + j.val, by omega⟩ : Fin 3072))).trans
    (concat_cols_2 (Wv (Proc.devRef .tc main_arg2)) (Wv (Proc.devRef .tc main_arg4)) (Wv (Proc.devRef .tc main_arg6))
      k j ⟨2048 + j.val, by omega⟩ rfl)

/-- The concatenated, reshaped bias at (0, 2048 + j) is bias 2 (main_arg7) at j. -/
theorem host_bias_v (j : Fin 1024) :
    (StableHlo.after (hostOps0 (F := Ideal)) Wv (Proc.devRef .tc main_v3)) (ix2 (0 : Fin 1) (⟨2048 + j.val, by omega⟩ : Fin 3072))
      = (Wv (Proc.devRef .tc main_arg7)) (ix1 j) :=
  (congrFun (host_v3_eq Wv) (ix2 (0 : Fin 1) (⟨2048 + j.val, by omega⟩ : Fin 3072))).trans
    ((reshape_row_apply _ (⟨2048 + j.val, by omega⟩ : Fin 3072)).trans
      (concat_vec_2 (Wv (Proc.devRef .tc main_arg3)) (Wv (Proc.devRef .tc main_arg5)) (Wv (Proc.devRef .tc main_arg7))
        j ⟨2048 + j.val, by omega⟩ rfl))

end Host

end Cert.KernelIdeal.Hand

end
-- ==== Proof.R1Cases.lean ====
/-
  Region 1 of the kernel program: what each of its three cases leaves in each buffer, as the body's arithmetic of the
  buffers' contents. In every case the block of weights stored is exp(mask ⊙ q·kᵀ) of the point's blocks; the column of
  row sums ends at its previous contents (zero, when the case resets it) plus the block's row sums; and in the last case
  the block of Vs stored is the block of V divided by the column just updated.
-/
import proofs.«174378_j75565654606299_2_alg».proof.Proof.R1Frame
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz2r1 : (![0, 0] : Fin 2 → Nat) = fun _ => 0 := funext fun a => by fin_cases a <;> rfl

theorem out1_A_4_eq (c : Dev nD) (i : grid1.Coords) (arg2 : Memref sig .tc .vmem S512x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x512 .f32) (harg5 : arg5.IsWhole) (arg6 : Memref sig .tc .vmem S512x512 .bf16) (harg6 : arg6.IsWhole) (arg7 : Memref sig .tc .vmem S512x1024 .bf16) (harg7 : arg7.IsWhole) (arg8 : Memref sig .tc .vmem S512x1 .f32) (harg8 : arg8.IsWhole) (hc0 : cond1_0 i) (hc1 : ¬cond1_1 i)
    (x0 : Vec F S512x1024 .bf16) (x1 : Vec F S512x1024 .bf16) (x2 : Vec F S512x1024 .bf16) (x3 : Vec F S512x512 .f32) :
    out1_A_4 c i arg2 harg2 arg3 harg3 arg4 harg4 arg5 harg5 arg6 harg6 arg7 harg7 arg8 harg8 hc0 hc1 x0 x1 x2 x3 = k1_pay4 x0 x1 x3 := by
  unfold out1_A_4
  rw [View.read_writes_eq_canon _ _ _ (cover1_A_4 c i arg2 harg2 arg3 harg3 arg4 harg4 arg5 harg5 arg6 harg6 arg7 harg7 arg8 harg8 hc0 hc1 x0 x1 x2 x3)]
  unfold kernelRun1_A
  dsimp only
  sl_unfold_words
  rw [View.canon_unit_zero hz2r1]
  simp only [View.readAt_eq_ld, harg2.read_unread, harg3.read_unread, harg4.read_unread, harg5.read_unread, harg8.read_unread,
    View.ld_unit_zero (S := S512x1024) hz2r1, View.ld_unit_zero (S := S512x512) hz2r1, View.ld_unit_zero (S := S512x1) hz2r1]

theorem out1_B_4_eq (c : Dev nD) (i : grid1.Coords) (arg2 : Memref sig .tc .vmem S512x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x512 .f32) (harg5 : arg5.IsWhole) (arg6 : Memref sig .tc .vmem S512x512 .bf16) (harg6 : arg6.IsWhole) (arg7 : Memref sig .tc .vmem S512x1024 .bf16) (harg7 : arg7.IsWhole) (arg8 : Memref sig .tc .vmem S512x1 .f32) (harg8 : arg8.IsWhole) (hc0 : ¬cond1_0 i) (hc1 : ¬cond1_1 i)
    (x0 : Vec F S512x1024 .bf16) (x1 : Vec F S512x1024 .bf16) (x2 : Vec F S512x1024 .bf16) (x3 : Vec F S512x512 .f32) (xs0 : Vec F S512x1 .f32) :
    out1_B_4 c i arg2 harg2 arg3 harg3 arg4 harg4 arg5 harg5 arg6 harg6 arg7 harg7 arg8 harg8 hc0 hc1 x0 x1 x2 x3 xs0 = k1_pay4 x0 x1 x3 := by
  unfold out1_B_4
  rw [View.read_writes_eq_canon _ _ _ (cover1_B_4 c i arg2 harg2 arg3 harg3 arg4 harg4 arg5 harg5 arg6 harg6 arg7 harg7 arg8 harg8 hc0 hc1 x0 x1 x2 x3 xs0)]
  unfold kernelRun1_B
  dsimp only
  sl_unfold_words
  rw [View.canon_unit_zero hz2r1]
  simp only [View.readAt_eq_ld, harg2.read_unread, harg3.read_unread, harg4.read_unread, harg5.read_unread, harg8.read_unread,
    View.ld_unit_zero (S := S512x1024) hz2r1, View.ld_unit_zero (S := S512x512) hz2r1, View.ld_unit_zero (S := S512x1) hz2r1]

theorem out1_C_4_eq (c : Dev nD) (i : grid1.Coords) (arg2 : Memref sig .tc .vmem S512x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x512 .f32) (harg5 : arg5.IsWhole) (arg6 : Memref sig .tc .vmem S512x512 .bf16) (harg6 : arg6.IsWhole) (arg7 : Memref sig .tc .vmem S512x1024 .bf16) (harg7 : arg7.IsWhole) (arg8 : Memref sig .tc .vmem S512x1 .f32) (harg8 : arg8.IsWhole) (hc0 : ¬cond1_0 i) (hc1 : cond1_1 i)
    (x0 : Vec F S512x1024 .bf16) (x1 : Vec F S512x1024 .bf16) (x2 : Vec F S512x1024 .bf16) (x3 : Vec F S512x512 .f32) (xs0 : Vec F S512x1 .f32) :
    out1_C_4 c i arg2 harg2 arg3 harg3 arg4 harg4 arg5 harg5 arg6 harg6 arg7 harg7 arg8 harg8 hc0 hc1 x0 x1 x2 x3 xs0 = k1_pay4 x0 x1 x3 := by
  unfold out1_C_4
  rw [View.read_writes_eq_canon _ _ _ (cover1_C_4 c i arg2 harg2 arg3 harg3 arg4 harg4 arg5 harg5 arg6 harg6 arg7 harg7 arg8 harg8 hc0 hc1 x0 x1 x2 x3 xs0)]
  unfold kernelRun1_C
  dsimp only
  sl_unfold_words
  rw [View.canon_unit_zero hz2r1]
  simp only [View.readAt_eq_ld, harg2.read_unread, harg3.read_unread, harg4.read_unread, harg5.read_unread, harg8.read_unread,
    View.ld_unit_zero (S := S512x1024) hz2r1, View.ld_unit_zero (S := S512x512) hz2r1, View.ld_unit_zero (S := S512x1) hz2r1]

theorem sout1_A_0_eq (c : Dev nD) (i : grid1.Coords) (arg2 : Memref sig .tc .vmem S512x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x512 .f32) (harg5 : arg5.IsWhole) (arg6 : Memref sig .tc .vmem S512x512 .bf16) (harg6 : arg6.IsWhole) (arg7 : Memref sig .tc .vmem S512x1024 .bf16) (harg7 : arg7.IsWhole) (arg8 : Memref sig .tc .vmem S512x1 .f32) (harg8 : arg8.IsWhole) (hc0 : cond1_0 i) (hc1 : ¬cond1_1 i)
    (x0 : Vec F S512x1024 .bf16) (x1 : Vec F S512x1024 .bf16) (x2 : Vec F S512x1024 .bf16) (x3 : Vec F S512x512 .f32) :
    sout1_A_0 c i arg2 harg2 arg3 harg3 arg4 harg4 arg5 harg5 arg6 harg6 arg7 harg7 arg8 harg8 hc0 hc1 x0 x1 x2 x3 = k1_pay3 x0 x1 x3 (k1_pay1 (F := F)) := by
  unfold sout1_A_0
  rw [View.read_writes_eq_canon _ _ _ (scover1_A_0 c i arg2 harg2 arg3 harg3 arg4 harg4 arg5 harg5 arg6 harg6 arg7 harg7 arg8 harg8 hc0 hc1 x0 x1 x2 x3)]
  unfold kernelRun1_A
  dsimp only
  sl_unfold_words
  rw [View.canon_cons_unit_zero (S := S512x1) hz2r1, View.readCov_unit_zero (S := S512x1) _ hz2r1]
  simp only [View.readAt_eq_ld, harg2.read_unread, harg3.read_unread, harg4.read_unread, harg5.read_unread, harg8.read_unread,
    View.ld_unit_zero (S := S512x1024) hz2r1, View.ld_unit_zero (S := S512x512) hz2r1, View.ld_unit_zero (S := S512x1) hz2r1]

theorem sout1_B_0_eq (c : Dev nD) (i : grid1.Coords) (arg2 : Memref sig .tc .vmem S512x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x512 .f32) (harg5 : arg5.IsWhole) (arg6 : Memref sig .tc .vmem S512x512 .bf16) (harg6 : arg6.IsWhole) (arg7 : Memref sig .tc .vmem S512x1024 .bf16) (harg7 : arg7.IsWhole) (arg8 : Memref sig .tc .vmem S512x1 .f32) (harg8 : arg8.IsWhole) (hc0 : ¬cond1_0 i) (hc1 : ¬cond1_1 i)
    (x0 : Vec F S512x1024 .bf16) (x1 : Vec F S512x1024 .bf16) (x2 : Vec F S512x1024 .bf16) (x3 : Vec F S512x512 .f32) (xs0 : Vec F S512x1 .f32) :
    sout1_B_0 c i arg2 harg2 arg3 harg3 arg4 harg4 arg5 harg5 arg6 harg6 arg7 harg7 arg8 harg8 hc0 hc1 x0 x1 x2 x3 xs0 = k1_pay3 x0 x1 x3 xs0 := by
  unfold sout1_B_0
  rw [View.read_writes_eq_canon _ _ _ (scover1_B_0 c i arg2 harg2 arg3 harg3 arg4 harg4 arg5 harg5 arg6 harg6 arg7 harg7 arg8 harg8 hc0 hc1 x0 x1 x2 x3 xs0)]
  unfold kernelRun1_B
  dsimp only
  sl_unfold_words
  rw [View.canon_unit_zero hz2r1]
  simp only [View.readAt_eq_ld, harg2.read_unread, harg3.read_unread, harg4.read_unread, harg5.read_unread, harg8.read_unread,
    View.ld_unit_zero (S := S512x1024) hz2r1, View.ld_unit_zero (S := S512x512) hz2r1, View.ld_unit_zero (S := S512x1) hz2r1]

theorem sout1_C_0_eq (c : Dev nD) (i : grid1.Coords) (arg2 : Memref sig .tc .vmem S512x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x512 .f32) (harg5 : arg5.IsWhole) (arg6 : Memref sig .tc .vmem S512x512 .bf16) (harg6 : arg6.IsWhole) (arg7 : Memref sig .tc .vmem S512x1024 .bf16) (harg7 : arg7.IsWhole) (arg8 : Memref sig .tc .vmem S512x1 .f32) (harg8 : arg8.IsWhole) (hc0 : ¬cond1_0 i) (hc1 : cond1_1 i)
    (x0 : Vec F S512x1024 .bf16) (x1 : Vec F S512x1024 .bf16) (x2 : Vec F S512x1024 .bf16) (x3 : Vec F S512x512 .f32) (xs0 : Vec F S512x1 .f32) :
    sout1_C_0 c i arg2 harg2 arg3 harg3 arg4 harg4 arg5 harg5 arg6 harg6 arg7 harg7 arg8 harg8 hc0 hc1 x0 x1 x2 x3 xs0 = k1_pay3 x0 x1 x3 xs0 := by
  unfold sout1_C_0
  rw [View.read_writes_eq_canon _ _ _ (scover1_C_0 c i arg2 harg2 arg3 harg3 arg4 harg4 arg5 harg5 arg6 harg6 arg7 harg7 arg8 harg8 hc0 hc1 x0 x1 x2 x3 xs0)]
  unfold kernelRun1_C
  dsimp only
  sl_unfold_words
  rw [View.canon_unit_zero hz2r1]
  simp only [View.readAt_eq_ld, harg2.read_unread, harg3.read_unread, harg4.read_unread, harg5.read_unread, harg8.read_unread,
    View.ld_unit_zero (S := S512x1024) hz2r1, View.ld_unit_zero (S := S512x512) hz2r1, View.ld_unit_zero (S := S512x1) hz2r1]

theorem out1_C_5_eq (c : Dev nD) (i : grid1.Coords) (arg2 : Memref sig .tc .vmem S512x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x512 .f32) (harg5 : arg5.IsWhole) (arg6 : Memref sig .tc .vmem S512x512 .bf16) (harg6 : arg6.IsWhole) (arg7 : Memref sig .tc .vmem S512x1024 .bf16) (harg7 : arg7.IsWhole) (arg8 : Memref sig .tc .vmem S512x1 .f32) (harg8 : arg8.IsWhole) (hc0 : ¬cond1_0 i) (hc1 : cond1_1 i)
    (x0 : Vec F S512x1024 .bf16) (x1 : Vec F S512x1024 .bf16) (x2 : Vec F S512x1024 .bf16) (x3 : Vec F S512x512 .f32) (xs0 : Vec F S512x1 .f32) :
    out1_C_5 c i arg2 harg2 arg3 harg3 arg4 harg4 arg5 harg5 arg6 harg6 arg7 harg7 arg8 harg8 hc0 hc1 x0 x1 x2 x3 xs0 = k1_pay5 (k1_pay3 x0 x1 x3 xs0) x2 := by
  unfold out1_C_5
  rw [View.read_writes_eq_canon _ _ _ (cover1_C_5 c i arg2 harg2 arg3 harg3 arg4 harg4 arg5 harg5 arg6 harg6 arg7 harg7 arg8 harg8 hc0 hc1 x0 x1 x2 x3 xs0)]
  unfold kernelRun1_C
  dsimp only
  sl_unfold_words
  rw [View.canon_unit_zero hz2r1, View.readCov_unit_zero (S := S512x1) _ hz2r1]
  simp only [View.readAt_eq_ld, harg2.read_unread, harg3.read_unread, harg4.read_unread, harg5.read_unread, harg8.read_unread,
    View.ld_unit_zero (S := S512x1024) hz2r1, View.ld_unit_zero (S := S512x512) hz2r1, View.ld_unit_zero (S := S512x1) hz2r1]

end Cert.KernelIdeal.Hand

end
-- ==== Proof.R1Pay.lean ====
/-
  Region 1's arithmetic read entry by entry at the ideal values. The block of weights at (p, l) is
  exp(mask[p,l] · Σₖ q[p,k]·k[l,k]); the column of row sums gains, at row p, the sum over l of that block's row; the block
  of Vs at (p, d) is v[p,d] divided by the column's entry at p. Format changes are the identity on extended reals.
-/
import proofs.«174378_j75565654606299_2_alg».proof.Proof.Gen.KernelIdeal.Skeleton
import proofs.«174378_j75565654606299_2_alg».proof.Proof.LibPlainDot
import Idealize.ShloMosaic.Lib.ValueLayout
import Idealize.ShloMosaic.Lib.Pipeline.Value
import Idealize.ShloMosaic.PureOps.Ideal.Laws

noncomputable section

namespace Cert.KernelIdeal.Hand

open Cert.KernelIdeal Cert.KernelIdeal.Gen
open Idealize.ShloMosaic Idealize.ShloMosaic.ValueIdx

/-! ## Two layout forms of a column -/

/-- A length-`a` vector cast to an `[a, 1]` column reads, at `(i, u)`, the vector at `i`. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at `(p, 0)`. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## A row's lane sum -/

/-- The lane reduction of a 512×512 block, at row `p`, is the sum of that row. -/
theorem rowsum_apply (src : FVec Ideal S512x512 .f32) (p : Fin 512) :
    multiReduction .add [1] S512 src 0x00000000#32 reduces_S512x512_S512 (.inl rfl) rfl (ix1 p) = ∑ l : Fin 512, src (ix2 p l) := by
  refine (Ideal.multiReduction_add_single src 0x00000000#32 reduces_S512x512_S512 (.inl rfl) rfl (ix1 p)).trans ?_
  refine Finset.sum_congr rfl fun l _ => congrArg src ?_
  funext a
  match a with
  | ⟨0, _⟩ => rfl
  | ⟨1, _⟩ => rfl

/-! ## The payloads at an entry -/

/-- The block of weights: exp(mask · q·kᵀ). -/
theorem k1_pay2_apply (v3 v5 : FVec Ideal S512x1024 .bf16) (v9 : FVec Ideal S512x512 .f32) (p l : Fin 512) :
    k1_pay2 (F := Ideal) v3 v5 v9 (ix2 p l) = Ideal.exp (v9 (ix2 p l) * ∑ k : Fin 1024, v3 (ix2 p k) * v5 (ix2 l k)) := by
  unfold k1_pay2
  show Ideal.exp (v9 (ix2 p l) * (matmul dot_S512x1024_S1024x512_S512x512_1_0_0_1_n_n none (shapeCast S512x1024 v3 shapeCasts_S512x1024_S512x1024)
    (transpose S1024x512 [1, 0] (shapeCast S512x1024 v5 shapeCasts_S512x1024_S512x1024) transposes_S512x1024_p1_0_S1024x512) (constant S512x512 .f32 0x00000000#32)) (ix2 p l)) = _
  refine congrArg (fun z => Ideal.exp (v9 (ix2 p l) * z)) ?_
  refine (matmul_plain_zero_apply _ rfl none _ _ p l).trans ?_
  refine Finset.sum_congr rfl fun k _ => ?_
  rw [shapeCast_self, shapeCast_self, transpose_ix2_apply]

/-- The stored block of weights is the same (the format change is the identity). -/
theorem k1_pay4_apply (v3 v5 : FVec Ideal S512x1024 .bf16) (v9 : FVec Ideal S512x512 .f32) (p l : Fin 512) :
    k1_pay4 (F := Ideal) v3 v5 v9 (ix2 p l) = Ideal.exp (v9 (ix2 p l) * ∑ k : Fin 1024, v3 (ix2 p k) * v5 (ix2 l k)) :=
  k1_pay2_apply v3 v5 v9 p l

/-- The column after the point: what it held plus the block's row sum. -/
theorem k1_pay3_apply (v3 v5 : FVec Ideal S512x1024 .bf16) (v9 : FVec Ideal S512x512 .f32) (v12 : FVec Ideal S512x1 .f32) (p : Fin 512) :
    k1_pay3 (F := Ideal) v3 v5 v9 v12 (ix2 p (0 : Fin 1))
      = v12 (ix2 p (0 : Fin 1)) + ∑ l : Fin 512, Ideal.exp (v9 (ix2 p l) * ∑ k : Fin 1024, v3 (ix2 p k) * v5 (ix2 l k)) := by
  unfold k1_pay3
  rw [shapeCast_self]
  show v12 (ix2 p (0 : Fin 1)) + shapeCast S512x1 (multiReduction .add [1] S512 (k1_pay2 v3 v5 v9) 0x00000000#32 reduces_S512x512_S512 (.inl rfl) rfl) shapeCasts_S512_S512x1 (ix2 p (0 : Fin 1)) = _
  refine congrArg (v12 (ix2 p (0 : Fin 1)) + ·) ?_
  refine (shapeCast_a_a1_apply _ _ p 0).trans ?_
  refine (rowsum_apply _ p).trans ?_
  exact Finset.sum_congr rfl fun l _ => k1_pay2_apply v3 v5 v9 p l

/-- The zero column the reset stores. -/
theorem k1_pay1_apply (j : S512x1.Idx) : k1_pay1 (F := Ideal) j = 0 := by
  unfold k1_pay1
  rw [shapeCast_self]
  show Ideal.ofBits .f32 0x00000000#32 = 0
  exact Ideal.ofBits_zero_f32

/-- The block of Vs: v divided by the column's entry of its row. -/
theorem k1_pay5_apply (v24 : FVec Ideal S512x1 .f32) (v25 : FVec Ideal S512x1024 .bf16) (p : Fin 512) (d : Fin 1024) :
    k1_pay5 (F := Ideal) v24 v25 (ix2 p d) = Ideal.div (v25 (ix2 p d)) (v24 (ix2 p (0 : Fin 1))) := by
  unfold k1_pay5
  rw [shapeCast_self]
  show Ideal.div (v25 (ix2 p d)) (broadcastTo S512x1024 v24 broadcasts_S512x1_S512x1024 (ix2 p d)) = _
  rw [broadcastTo_a1_ab_apply]

end Cert.KernelIdeal.Hand

end
-- ==== Proof.R1Blocks.lean ====
/-
  Region 1 at the ideal values: where each window's block sits in its array, and the weights as one function of the
  buffers the region is entered with. At point t = 8·qi + ki the Q and V blocks are rows 512·qi … of their arrays, the K
  block rows 512·ki …, the mask block and the block of weights the 512×512 tile at (512·qi, 512·ki).
-/
import proofs.«174378_j75565654606299_2_alg».proof.Proof.R1Cases
import proofs.«174378_j75565654606299_2_alg».proof.Proof.R1Pay
import proofs.«174378_j75565654606299_2_alg».proof.Proof.Spec

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

/-- The printed index maps, decided over the grid. -/
theorem idx_facts1 : ∀ t : Fin cfg1.N,
    win1_0.index t (0 : Fin 2) = t.val / 8 ∧ win1_0.index t (1 : Fin 2) = 0
    ∧ win1_1.index t (0 : Fin 2) = t.val % 8 ∧ win1_1.index t (1 : Fin 2) = 0
    ∧ win1_2.index t (0 : Fin 2) = t.val / 8 ∧ win1_2.index t (1 : Fin 2) = 0
    ∧ win1_3.index t (0 : Fin 2) = t.val / 8 ∧ win1_3.index t (1 : Fin 2) = t.val % 8
    ∧ win1_4.index t (0 : Fin 2) = t.val / 8 ∧ win1_4.index t (1 : Fin 2) = t.val % 8
    ∧ win1_5.index t (0 : Fin 2) = t.val / 8 ∧ win1_5.index t (1 : Fin 2) = 0 :=
  (by decide +kernel : ∀ t : Fin grid1.N, _)

/-- The array row of row `p` of the query block at point `t`. -/
def rowOf (t : Fin cfg1.N) (p : Fin 512) : Fin 4096 :=
  ⟨512 * (t.val / 8) + p.val, by have h := t.isLt; have hN : cfg1.N = 64 := N_1; omega⟩
/-- The array row (of K) or column (of the mask and the weights) of entry `l` of the key block at point `t`. -/
def colOf (t : Fin cfg1.N) (l : Fin 512) : Fin 4096 :=
  ⟨512 * (t.val % 8) + l.val, by omega⟩

section Reads
variable (V : (c : Dev nD) → (b : Ref sig .tc) → Buf (Elt Ideal) ((c : Thread nD τ).loc b))

/-- The buffers region 1 reads, as matrices of extended reals. -/
abbrev Qa (c : Dev nD) : Cert.Attn.Mat 4096 1024 := V c main_v4_0
abbrev Ka (c : Dev nD) : Cert.Attn.Mat 4096 1024 := V c main_v4_1
abbrev Va (c : Dev nD) : Cert.Attn.Mat 4096 1024 := V c main_v4_2
abbrev Ma (c : Dev nD) : Cert.Attn.Mat 4096 4096 := V c main_arg1
/-- The four input blocks at a point, likewise. -/
abbrev qb (c : Dev nD) (t : Fin cfg1.N) : Cert.Attn.Mat 512 1024 := iblk1 V c 0 t
abbrev kb (c : Dev nD) (t : Fin cfg1.N) : Cert.Attn.Mat 512 1024 := iblk1 V c 1 t
abbrev vb (c : Dev nD) (t : Fin cfg1.N) : Cert.Attn.Mat 512 1024 := iblk1 V c 2 t
abbrev mb (c : Dev nD) (t : Fin cfg1.N) : Cert.Attn.Mat 512 512 := iblk1 V c 3 t

theorem iblk1_0_apply (c : Dev nD) (t : Fin cfg1.N) (p : Fin 512) (k : Fin 1024) :
    qb V c t (ix2 p k) = Qa V c (ix2 (rowOf t p) k) := by
  dsimp only [qb, kb, vb, mb, Qa, Ka, Va, Ma]
  unfold iblk1
  rw [View.read_apply]
  show V c main_v4_0 _ = V c main_v4_0 _
  refine congrArg (V c main_v4_0) ?_
  obtain ⟨e00, e01, -⟩ := idx_facts1 t
  funext a; apply Fin.ext
  match a with
  | ⟨0, _⟩ => show win1_0.index t (0 : Fin 2) * 512 + 1 * p.val = 512 * (t.val / 8) + p.val; rw [e00]; omega
  | ⟨1, _⟩ => show win1_0.index t (1 : Fin 2) * 1024 + 1 * k.val = k.val; rw [e01]; omega

theorem iblk1_1_apply (c : Dev nD) (t : Fin cfg1.N) (l : Fin 512) (k : Fin 1024) :
    kb V c t (ix2 l k) = Ka V c (ix2 (colOf t l) k) := by
  dsimp only [qb, kb, vb, mb, Qa, Ka, Va, Ma]
  unfold iblk1
  rw [View.read_apply]
  show V c main_v4_1 _ = V c main_v4_1 _
  refine congrArg (V c main_v4_1) ?_
  obtain ⟨-, -, e10, e11, -⟩ := idx_facts1 t
  funext a; apply Fin.ext
  match a with
  | ⟨0, _⟩ => show win1_1.index t (0 : Fin 2) * 512 + 1 * l.val = 512 * (t.val % 8) + l.val; rw [e10]; omega
  | ⟨1, _⟩ => show win1_1.index t (1 : Fin 2) * 1024 + 1 * k.val = k.val; rw [e11]; omega

theorem iblk1_2_apply (c : Dev nD) (t : Fin cfg1.N) (p : Fin 512) (d : Fin 1024) :
    vb V c t (ix2 p d) = Va V c (ix2 (rowOf t p) d) := by
  dsimp only [qb, kb, vb, mb, Qa, Ka, Va, Ma]
  unfold iblk1
  rw [View.read_apply]
  show V c main_v4_2 _ = V c main_v4_2 _
  refine congrArg (V c main_v4_2) ?_
  obtain ⟨-, -, -, -, e20, e21, -⟩ := idx_facts1 t
  funext a; apply Fin.ext
  match a with
  | ⟨0, _⟩ => show win1_2.index t (0 : Fin 2) * 512 + 1 * p.val = 512 * (t.val / 8) + p.val; rw [e20]; omega
  | ⟨1, _⟩ => show win1_2.index t (1 : Fin 2) * 1024 + 1 * d.val = d.val; rw [e21]; omega

theorem iblk1_3_apply (c : Dev nD) (t : Fin cfg1.N) (p l : Fin 512) :
    mb V c t (ix2 p l) = Ma V c (ix2 (rowOf t p) (colOf t l)) := by
  dsimp only [qb, kb, vb, mb, Qa, Ka, Va, Ma]
  unfold iblk1
  rw [View.read_apply]
  show V c main_arg1 _ = V c main_arg1 _
  refine congrArg (V c main_arg1) ?_
  obtain ⟨-, -, -, -, -, -, e30, e31, -⟩ := idx_facts1 t
  funext a; apply Fin.ext
  match a with
  | ⟨0, _⟩ => show win1_3.index t (0 : Fin 2) * 512 + 1 * p.val = 512 * (t.val / 8) + p.val; rw [e30]; omega
  | ⟨1, _⟩ => show win1_3.index t (1 : Fin 2) * 512 + 1 * l.val = 512 * (t.val % 8) + l.val; rw [e31]; omega

/-- The weights, as a function of the buffers region 1 is entered with: exp(mask[i,j] · Σₖ Q[i,k]·K[j,k]). -/
def E1 (c : Dev nD) (i j : Fin 4096) : EReal :=
  Ideal.exp (Ma V c (ix2 i j) * ∑ k : Fin 1024, Qa V c (ix2 i k) * Ka V c (ix2 j k))

/-- The same on natural numbers, zero outside the array: sums over blocks are then sums over ranges. -/
def En (c : Dev nD) (i j : ℕ) : EReal := if h : i < 4096 ∧ j < 4096 then E1 V c ⟨i, h.1⟩ ⟨j, h.2⟩ else 0

theorem En_of (c : Dev nD) (i j : Fin 4096) : En V c i.val j.val = E1 V c i j := by
  unfold En; rw [dif_pos ⟨i.isLt, j.isLt⟩]

/-- An entry of the point's block of weights. -/
theorem blockE (c : Dev nD) (t : Fin cfg1.N) (p l : Fin 512) :
    Ideal.exp (mb V c t (ix2 p l) * ∑ k : Fin 1024, qb V c t (ix2 p k) * kb V c t (ix2 l k))
      = En V c (512 * (t.val / 8) + p.val) (512 * (t.val % 8) + l.val) := by
  rw [iblk1_3_apply]
  simp only [iblk1_0_apply, iblk1_1_apply]
  exact (En_of V c (rowOf t p) (colOf t l)).symm

end Reads

end Cert.KernelIdeal.Hand

end
-- ==== Proof.LibBlockSum.lean ====
/-
  A sum over m consecutive blocks of n is the sum over the m·n positions: for any function f of a position,
  Σ_{k < m} Σ_{l < n} f (n·k + l) = Σ_{j < m·n} f j, in any additive commutative monoid. This is how an accumulation
  over the blocks of a tiled axis becomes one sum over the axis.
-/
import Mathlib.Algebra.BigOperators.Fin
import Mathlib.Logic.Equiv.Fin.Basic

namespace Cert.BlockSum

/-- Blocks indexed by a range, positions inside a block by `Fin n`. -/
theorem sum_range_blocks {M : Type*} [AddCommMonoid M] (m n : ℕ) (f : ℕ → M) :
    ∑ k ∈ Finset.range m, ∑ l : Fin n, f (n * k + l.val) = ∑ j : Fin (m * n), f j.val := by
  rw [← Fin.sum_univ_eq_sum_range (fun k => ∑ l : Fin n, f (n * k + l.val)) m,
    ← Equiv.sum_comp (finProdFinEquiv (m := m) (n := n)) (fun j : Fin (m * n) => f j.val), Fintype.sum_prod_type]
  refine Finset.sum_congr rfl fun k _ => Finset.sum_congr rfl fun l _ => ?_
  show f (n * k.val + l.val) = f ((finProdFinEquiv (k, l)).val)
  rw [finProdFinEquiv_apply_val, Nat.add_comm]

/-- The same with the blocks indexed by `Fin m`. -/
theorem sum_fin_blocks {M : Type*} [AddCommMonoid M] (m n : ℕ) (f : ℕ → M) :
    ∑ k : Fin m, ∑ l : Fin n, f (n * k.val + l.val) = ∑ j : Fin (m * n), f j.val := by
  rw [← sum_range_blocks m n f, ← Fin.sum_univ_eq_sum_range (fun k => ∑ l : Fin n, f (n * k + l.val)) m]

end Cert.BlockSum
-- ==== Proof.R1Value.lean ====
/-
  Region 1's value at the ideal values. The column of row sums after point t = 8·qi + ki holds, at row p, the sum over the
  key blocks 0 … ki of the sums of row 512·qi + p of the weights across that block; after ki = 7 that is the whole row's
  sum. Hence the array of weights ends at exp(mask ⊙ Q·Kᵀ) entry by entry, and the array of Vs at V[i,d] divided by the
  sum of row i of the weights.
-/
import proofs.«174378_j75565654606299_2_alg».proof.Proof.R1Blocks
import proofs.«174378_j75565654606299_2_alg».proof.Proof.LibBlockSum

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

section
variable (V : (c : Dev nD) → (b : Ref sig .tc) → Buf (Elt Ideal) ((c : Thread nD τ).loc b))

/-! ## The column of row sums, point by point -/

/-- Row `p` of query block `qi`: the weights summed over the key blocks 0 … r. -/
def colSum (c : Dev nD) (qi r : ℕ) (p : Fin 512) : EReal :=
  ∑ k ∈ Finset.range (r + 1), ∑ l : Fin 512, En V c (512 * qi + p.val) (512 * k + l.val)

/-- One point's update: what the column held plus the sums of the block's rows. -/
theorem col_step (c : Dev nD) (t : Fin cfg1.N) (p : Fin 512) (xs : Vec Ideal S512x1 .f32) :
    (k1_pay3 (F := Ideal) (iblk1 V c 0 t) (iblk1 V c 1 t) (iblk1 V c 3 t) xs : Cert.Attn.Mat 512 1) (ix2 p (0 : Fin 1))
      = (xs : Cert.Attn.Mat 512 1) (ix2 p (0 : Fin 1)) + ∑ l : Fin 512, En V c (512 * (t.val / 8) + p.val) (512 * (t.val % 8) + l.val) :=
  (k1_pay3_apply (qb V c t) (kb V c t) (mb V c t) xs p).trans
    (congrArg ((xs : Cert.Attn.Mat 512 1) (ix2 p (0 : Fin 1)) + ·) (Finset.sum_congr rfl fun l _ => blockE V c t p l))

/-- THE INVARIANT: the column after position `n` is the partial row sums up to its key block. -/
theorem col_eq (c : Dev nD) : ∀ (n : ℕ) (h : n < cfg1.N) (p : Fin 512),
    ((outsAt1 V c n h).2.2 : Cert.Attn.Mat 512 1) (ix2 p (0 : Fin 1)) = colSum V c (n / 8) (n % 8) p
  | 0, h, p => by
    rw [outsAt1_A V c ⟨0, h⟩ (Nat.zero_mod _)]
    unfold point1A; dsimp only
    rw [sout1_A_0_eq]
    refine (col_step V c ⟨0, h⟩ p _).trans ?_
    rw [k1_pay1_apply, zero_add]
    unfold colSum
    show ∑ l : Fin 512, En V c (512 * (0 / 8) + p.val) (512 * (0 % 8) + l.val) = ∑ k ∈ Finset.range (0 % 8 + 1), ∑ l : Fin 512, En V c (512 * (0 / 8) + p.val) (512 * k + l.val)
    rw [Nat.zero_mod, Finset.sum_range_one]
  | n + 1, h, p => by
    have hN : cfg1.N = 64 := N_1
    by_cases h0 : (n + 1) % 8 = 0
    · rw [outsAt1_A V c ⟨n + 1, h⟩ h0]
      unfold point1A; dsimp only
      rw [sout1_A_0_eq]
      refine (col_step V c ⟨n + 1, h⟩ p _).trans ?_
      rw [k1_pay1_apply, zero_add]
      unfold colSum
      show ∑ l : Fin 512, En V c (512 * ((n + 1) / 8) + p.val) (512 * ((n + 1) % 8) + l.val) = _
      rw [h0, Finset.sum_range_one]
    · have hq : (n + 1) / 8 = n / 8 := by omega
      have hr : (n + 1) % 8 = n % 8 + 1 := by omega
      by_cases h1 : (n + 1) % 8 = 7
      · rw [outsAt1_C V c ⟨n + 1, h⟩ h0 h1]
        unfold point1C; dsimp only
        rw [sout1_C_0_eq]
        refine (col_step V c ⟨n + 1, h⟩ p _).trans ?_
        show ((outsAt1 V c n _).2.2 : Cert.Attn.Mat 512 1) (ix2 p (0 : Fin 1)) + ∑ l : Fin 512, En V c (512 * ((n + 1) / 8) + p.val) (512 * ((n + 1) % 8) + l.val) = _
        rw [col_eq c n (Nat.lt_of_succ_lt h) p]
        unfold colSum
        rw [hq, hr]
        exact (Finset.sum_range_succ _ _).symm
      · rw [outsAt1_B V c ⟨n + 1, h⟩ h0 h1]
        unfold point1B; dsimp only
        rw [sout1_B_0_eq]
        refine (col_step V c ⟨n + 1, h⟩ p _).trans ?_
        show ((outsAt1 V c n _).2.2 : Cert.Attn.Mat 512 1) (ix2 p (0 : Fin 1)) + ∑ l : Fin 512, En V c (512 * ((n + 1) / 8) + p.val) (512 * ((n + 1) % 8) + l.val) = _
        rw [col_eq c n (Nat.lt_of_succ_lt h) p]
        unfold colSum
        rw [hq, hr]
        exact (Finset.sum_range_succ _ _).symm

/-- After the last key block the column holds the whole row's sum of weights. -/
theorem colSum_full (c : Dev nD) (qi : ℕ) (p : Fin 512) (hi : 512 * qi + p.val < 4096) :
    colSum V c qi 7 p = ∑ j : Fin 4096, E1 V c ⟨512 * qi + p.val, hi⟩ j := by
  unfold colSum
  rw [Cert.BlockSum.sum_range_blocks 8 512 (fun j => En V c (512 * qi + p.val) j)]
  show ∑ j : Fin 4096, En V c (512 * qi + p.val) j.val = _
  exact Finset.sum_congr rfl fun j _ => En_of V c ⟨512 * qi + p.val, hi⟩ j

/-! ## The block of weights is the same in every case -/

theorem out4_all (c : Dev nD) (t : Fin cfg1.N) :
    (outsAt1 V c t.val t.isLt).1 = k1_pay4 (iblk1 V c 0 t) (iblk1 V c 1 t) (iblk1 V c 3 t) := by
  by_cases h0 : t.val % 8 = 0
  · rw [outsAt1_A V c t h0]; unfold point1A; dsimp only; rw [out1_A_4_eq]
  · by_cases h1 : t.val % 8 = 7
    · rw [outsAt1_C V c t h0 h1]; unfold point1C; dsimp only; rw [out1_C_4_eq]
    · rw [outsAt1_B V c t h0 h1]; unfold point1B; dsimp only; rw [out1_B_4_eq]

/-! ## The array of weights -/

/-- The weights as an array. -/
def Earr (c : Dev nD) : Cert.Attn.Mat 4096 4096 := fun idx => E1 V c (idx 0) (idx 1)

theorem mem_blk1_4 (t : Fin cfg1.N) (i : S4096x4096.Idx) :
    i ∈ ((cfg1.win 4).blk t).view.set ↔ ∀ a : Fin 2, win1_4.index t a * S512x512.size a ≤ (i a).val ∧ (i a).val < win1_4.index t a * S512x512.size a + S512x512.size a := by
  show i ∈ ((View.whole main_v5_0).slice (win1_4.rect t)).set ↔ _
  rw [View.set_slice_whole, Rect.mem_set_unit]
  exact Iff.rfl

theorem flushed1_4_eq (c : Dev nD) (t : Fin cfg1.N) :
    (dat1 V c).flushed 4 t = ((cfg1.win 4).blk t).view.read (Elt Ideal) (Earr V c) := by
  show (cfg1.win 4).cut (grid1.coords t) ((dat1 V c).after 4 t) = _
  rw [after1_4, out4_all]
  obtain ⟨-, -, -, -, -, -, -, -, e40, e41, -⟩ := idx_facts1 t
  funext y
  obtain ⟨p, l, rfl⟩ : ∃ (p l : Fin 512), y = ix2 p l := ⟨y 0, y 1, eq_ix2 y⟩
  rw [View.read_apply]
  show (k1_pay4 (F := Ideal) (iblk1 V c 0 t) (iblk1 V c 1 t) (iblk1 V c 3 t) : Cert.Attn.Mat 512 512) (ix2 p l) = Earr V c _
  refine (k1_pay4_apply (qb V c t) (kb V c t) (mb V c t) p l).trans ?_
  refine (blockE V c t p l).trans ?_
  unfold Earr
  have e0 : (((cfg1.win 4).blk t).view.emb (ix2 p l)) 0 = rowOf t p := Fin.ext (by
    show win1_4.index t (0 : Fin 2) * 512 + 1 * p.val = 512 * (t.val / 8) + p.val; rw [e40]; omega)
  have e1 : (((cfg1.win 4).blk t).view.emb (ix2 p l)) 1 = colOf t l := Fin.ext (by
    show win1_4.index t (1 : Fin 2) * 512 + 1 * l.val = 512 * (t.val % 8) + l.val; rw [e41]; omega)
  rw [e0, e1]
  exact En_of V c (rowOf t p) (colOf t l)

/-- THE ARRAY OF WEIGHTS after region 1. -/
theorem arr1_E (c : Dev nD) : (dat1 V c).arrAt 4 cfg1.N = Earr V c :=
  (dat1 V c).arrAt_eq_of_cover 4 (Earr V c) (fun t _ => flushed1_4_eq V c t) fun i => by
    have hi0 : (i 0).val < 4096 := (i 0).isLt
    have hi1 : (i 1).val < 4096 := (i 1).isLt
    have hN : cfg1.N = 64 := N_1
    let t : Fin cfg1.N := ⟨8 * ((i 0).val / 512) + (i 1).val / 512, by omega⟩
    obtain ⟨-, -, -, -, -, -, -, -, e40, e41, -⟩ := idx_facts1 t
    have ht : t.val = 8 * ((i 0).val / 512) + (i 1).val / 512 := rfl
    refine ⟨t, flush1_4 t, ?_⟩
    rw [mem_blk1_4]
    intro a
    match a with
    | ⟨0, _⟩ => show win1_4.index t (0 : Fin 2) * 512 ≤ (i 0).val ∧ (i 0).val < win1_4.index t (0 : Fin 2) * 512 + 512; rw [e40, ht]; omega
    | ⟨1, _⟩ => show win1_4.index t (1 : Fin 2) * 512 ≤ (i 1).val ∧ (i 1).val < win1_4.index t (1 : Fin 2) * 512 + 512; rw [e41, ht]; omega

/-! ## The array of Vs -/

/-- V's rows divided by the row sums of the weights, as an array. -/
def VsArr (c : Dev nD) : Cert.Attn.Mat 4096 1024 := fun idx => Ideal.div (Va V c idx) (∑ j : Fin 4096, E1 V c (idx 0) j)

theorem mem_blk1_5 (t : Fin cfg1.N) (i : S4096x1024.Idx) :
    i ∈ ((cfg1.win 5).blk t).view.set ↔ ∀ a : Fin 2, win1_5.index t a * S512x1024.size a ≤ (i a).val ∧ (i a).val < win1_5.index t a * S512x1024.size a + S512x1024.size a := by
  show i ∈ ((View.whole main_v5_1).slice (win1_5.rect t)).set ↔ _
  rw [View.set_slice_whole, Rect.mem_set_unit]
  exact Iff.rfl

theorem flushed1_5_eq (c : Dev nD) (t : Fin cfg1.N) (hf : (cfg1.win 5).flush t = true) :
    (dat1 V c).flushed 5 t = ((cfg1.win 5).blk t).view.read (Elt Ideal) (VsArr V c) := by
  have h7 : t.val % 8 = 7 := (flush1_5 t).mp hf
  have h0 : ¬t.val % 8 = 0 := by omega
  have hN : cfg1.N = 64 := N_1
  have hcol := fun p => col_eq V c t.val t.isLt p
  rw [outsAt1_C V c t h0 h7] at hcol
  unfold point1C at hcol; dsimp only at hcol
  rw [sout1_C_0_eq] at hcol
  show (cfg1.win 5).cut (grid1.coords t) ((dat1 V c).after 5 t) = _
  rw [after1_5, outsAt1_C V c t h0 h7]
  unfold point1C; dsimp only
  rw [out1_C_5_eq]
  obtain ⟨-, -, -, -, -, -, -, -, -, -, e50, e51⟩ := idx_facts1 t
  funext y
  obtain ⟨p, d, rfl⟩ : ∃ (p : Fin 512) (d : Fin 1024), y = ix2 p d := ⟨y 0, y 1, eq_ix2 y⟩
  rw [View.read_apply]
  refine (k1_pay5_apply _ (vb V c t) p d).trans ?_
  rw [hcol p, h7, colSum_full V c (t.val / 8) p (by have := t.isLt; omega), iblk1_2_apply]
  unfold VsArr
  have e0 : (((cfg1.win 5).blk t).view.emb (ix2 p d)) 0 = rowOf t p := Fin.ext (by
    show win1_5.index t (0 : Fin 2) * 512 + 1 * p.val = 512 * (t.val / 8) + p.val; rw [e50]; omega)
  have ei : ((cfg1.win 5).blk t).view.emb (ix2 p d) = ix2 (rowOf t p) d := by
    funext a; apply Fin.ext
    match a with
    | ⟨0, _⟩ => show win1_5.index t (0 : Fin 2) * 512 + 1 * p.val = 512 * (t.val / 8) + p.val; rw [e50]; omega
    | ⟨1, _⟩ => show win1_5.index t (1 : Fin 2) * 1024 + 1 * d.val = d.val; rw [e51]; omega
  rw [ei]
  rfl

/-- THE ARRAY OF Vs after region 1. -/
theorem arr1_Vs (c : Dev nD) : (dat1 V c).arrAt 5 cfg1.N = VsArr V c :=
  (dat1 V c).arrAt_eq_of_cover 5 (VsArr V c) (flushed1_5_eq V c) fun i => by
    have hi0 : (i 0).val < 4096 := (i 0).isLt
    have hi1 : (i 1).val < 1024 := (i 1).isLt
    have hN : cfg1.N = 64 := N_1
    let t : Fin cfg1.N := ⟨8 * ((i 0).val / 512) + 7, by omega⟩
    obtain ⟨-, -, -, -, -, -, -, -, -, -, e50, e51⟩ := idx_facts1 t
    have ht : t.val = 8 * ((i 0).val / 512) + 7 := rfl
    refine ⟨t, (flush1_5 t).mpr (by rw [ht]; omega), ?_⟩
    rw [mem_blk1_5]
    intro a
    match a with
    | ⟨0, _⟩ => show win1_5.index t (0 : Fin 2) * 512 ≤ (i 0).val ∧ (i 0).val < win1_5.index t (0 : Fin 2) * 512 + 512; rw [e50, ht]; omega
    | ⟨1, _⟩ => show win1_5.index t (1 : Fin 2) * 1024 ≤ (i 1).val ∧ (i 1).val < win1_5.index t (1 : Fin 2) * 1024 + 1024; rw [e51]; omega

end

end Cert.KernelIdeal.Hand

end
-- ==== Proof.R2ValueCases.lean ====
/-
  Region 2 (the product e · Vs accumulated over the key blocks): what each of the three cases of the body leaves,
  read back as a value. Whatever the case, the accumulator is left at

      acc' = acc + (e block) · (Vs block),

  where acc is the zero block when the key-block coordinate is 0 and what the point before left otherwise; at the
  last key block the output's staging buffer receives that same acc'. So the accumulator after each grid point is a
  plain recursion on the point, restarting from zero at every multiple of 8.
-/
import proofs.«174378_j75565654606299_2_alg».proof.Proof.R2Frame
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

theorem hz2 : (![0, 0] : Fin 2 → Nat) = fun _ => 0 := funext fun a => by fin_cases a <;> rfl

/-! ## The three cases -/

/-- Key block 0: the accumulator is zeroed, read back, and left at zero block + (e block) · (Vs block). -/
theorem sout2_A_0_eq (c : Dev nD) (i : grid2.Coords) (arg2 : Memref sig .tc .vmem S512x512 .bf16) (harg2 : arg2.IsWhole) (arg3 : Memref sig .tc .vmem S512x1024 .bf16) (harg3 : arg3.IsWhole) (arg4 : Memref sig .tc .vmem S512x1024 .f32) (harg4 : arg4.IsWhole) (arg5 : Memref sig .tc .vmem S512x1024 .f32) (harg5 : arg5.IsWhole) (hc0 : cond2_0 i) (hc1 : ¬cond2_1 i)
    (x0 : Vec F S512x512 .bf16) (x1 : Vec F S512x1024 .bf16) :
    sout2_A_0 c i arg2 harg2 arg3 harg3 arg4 harg4 arg5 harg5 hc0 hc1 x0 x1 = k2_pay2 k2_pay1 x0 x1 := by
  unfold sout2_A_0
  rw [View.read_writes_eq_canon _ _ _ (scover2_A_0 c i arg2 harg2 arg3 harg3 arg4 harg4 arg5 harg5 hc0 hc1 x0 x1)]
  unfold kernelRun2_A
  dsimp only
  sl_unfold_words
  rw [View.canon_cons_unit_zero (S := S512x1024) hz2, View.readCov_unit_zero (S := S512x1024) _ hz2]
  simp only [View.readAt_eq_ld, harg2.read_unread, harg3.read_unread, harg5.read_unread, View.ld_unit_zero (S := S512x1024) hz2, View.ld_unit_zero (S := S512x512) hz2]

/-- Key blocks 1 … 6: the accumulator, found at xs0, is left at xs0 + (e block) · (Vs block). -/
theorem sout2_B_0_eq (c : Dev nD) (i : grid2.Coords) (arg2 : Memref sig .tc .vmem S512x512 .bf16) (harg2 : arg2.IsWhole) (arg3 : Memref sig .tc .vmem S512x1024 .bf16) (harg3 : arg3.IsWhole) (arg4 : Memref sig .tc .vmem S512x1024 .f32) (harg4 : arg4.IsWhole) (arg5 : Memref sig .tc .vmem S512x1024 .f32) (harg5 : arg5.IsWhole) (hc0 : ¬cond2_0 i) (hc1 : ¬cond2_1 i)
    (x0 : Vec F S512x512 .bf16) (x1 : Vec F S512x1024 .bf16) (xs0 : Vec F S512x1024 .f32) :
    sout2_B_0 c i arg2 harg2 arg3 harg3 arg4 harg4 arg5 harg5 hc0 hc1 x0 x1 xs0 = k2_pay2 xs0 x0 x1 := by
  unfold sout2_B_0
  rw [View.read_writes_eq_canon _ _ _ (scover2_B_0 c i arg2 harg2 arg3 harg3 arg4 harg4 arg5 harg5 hc0 hc1 x0 x1 xs0)]
  unfold kernelRun2_B
  dsimp only
  sl_unfold_words
  rw [View.canon_unit_zero (S := S512x1024) hz2]
  simp only [View.readAt_eq_ld, harg2.read_unread, harg3.read_unread, harg5.read_unread, View.ld_unit_zero (S := S512x1024) hz2, View.ld_unit_zero (S := S512x512) hz2]

/-- Key block 7: the accumulator likewise, -/
theorem sout2_C_0_eq (c : Dev nD) (i : grid2.Coords) (arg2 : Memref sig .tc .vmem S512x512 .bf16) (harg2 : arg2.IsWhole) (arg3 : Memref sig .tc .vmem S512x1024 .bf16) (harg3 : arg3.IsWhole) (arg4 : Memref sig .tc .vmem S512x1024 .f32) (harg4 : arg4.IsWhole) (arg5 : Memref sig .tc .vmem S512x1024 .f32) (harg5 : arg5.IsWhole) (hc0 : ¬cond2_0 i) (hc1 : cond2_1 i)
    (x0 : Vec F S512x512 .bf16) (x1 : Vec F S512x1024 .bf16) (xs0 : Vec F S512x1024 .f32) :
    sout2_C_0 c i arg2 harg2 arg3 harg3 arg4 harg4 arg5 harg5 hc0 hc1 x0 x1 xs0 = k2_pay2 xs0 x0 x1 := by
  unfold sout2_C_0
  rw [View.read_writes_eq_canon _ _ _ (scover2_C_0 c i arg2 harg2 arg3 harg3 arg4 harg4 arg5 harg5 hc0 hc1 x0 x1 xs0)]
  unfold kernelRun2_C
  dsimp only
  sl_unfold_words
  rw [View.canon_unit_zero (S := S512x1024) hz2]
  simp only [View.readAt_eq_ld, harg2.read_unread, harg3.read_unread, harg5.read_unread, View.ld_unit_zero (S := S512x1024) hz2, View.ld_unit_zero (S := S512x512) hz2]

/-- and the output's staging buffer receives the accumulator just stored (a store read back). -/
theorem out2_C_2_eq (c : Dev nD) (i : grid2.Coords) (arg2 : Memref sig .tc .vmem S512x512 .bf16) (harg2 : arg2.IsWhole) (arg3 : Memref sig .tc .vmem S512x1024 .bf16) (harg3 : arg3.IsWhole) (arg4 : Memref sig .tc .vmem S512x1024 .f32) (harg4 : arg4.IsWhole) (arg5 : Memref sig .tc .vmem S512x1024 .f32) (harg5 : arg5.IsWhole) (hc0 : ¬cond2_0 i) (hc1 : cond2_1 i)
    (x0 : Vec F S512x512 .bf16) (x1 : Vec F S512x1024 .bf16) (xs0 : Vec F S512x1024 .f32) :
    out2_C_2 c i arg2 harg2 arg3 harg3 arg4 harg4 arg5 harg5 hc0 hc1 x0 x1 xs0 = k2_pay2 xs0 x0 x1 := by
  unfold out2_C_2
  rw [View.read_writes_eq_canon _ _ _ (cover2_C_2 c i arg2 harg2 arg3 harg3 arg4 harg4 arg5 harg5 hc0 hc1 x0 x1 xs0)]
  unfold kernelRun2_C
  dsimp only
  sl_unfold_words
  rw [View.canon_unit_zero (S := S512x1024) hz2, View.readCov_unit_zero (S := S512x1024) _ hz2]
  simp only [View.readAt_eq_ld, harg2.read_unread, harg3.read_unread, harg5.read_unread, View.ld_unit_zero (S := S512x1024) hz2, View.ld_unit_zero (S := S512x512) hz2]

end Cert.KernelIdeal.Hand

end
-- ==== Proof.R2ValueAcc.lean ====
/-
  Region 2: the accumulator after each grid point, as a recursion on the point. The point t = 8·qi + ki leaves the
  accumulator at acc + (e block (qi, ki)) · (Vs block ki), acc being the zero block when ki = 0 and what point t − 1
  left otherwise; at ki = 7 the output's staging buffer holds the same contents.
-/
import proofs.«174378_j75565654606299_2_alg».proof.Proof.R2ValueCases

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

section Points
variable (V : (c : Dev nD) → (b : Ref sig .tc) → Buf (Elt F) ((c : Thread nD τ).loc b))

/-! ## The same, per grid point -/

theorem pointA_snd (c : Dev nD) (t : Fin cfg2.N) (h0 : t.val % 8 = 0) :
    (pointA V c t h0).2 = k2_pay2 k2_pay1 (iblk2 V c 0 t) (iblk2 V c 1 t) := by
  unfold pointA
  dsimp only
  exact sout2_A_0_eq c (grid2.coords t) (ms2_0 t) (hs2_0 t) (ms2_1 t) (hs2_1 t) (ms2_2 t) (hs2_2 t) scM2_0 (Memref.isWhole_whole _) ((hcond2_0 t).mpr h0) (notC_of_A t h0) (iblk2 V c 0 t) (iblk2 V c 1 t)

theorem pointB_snd (c : Dev nD) (t : Fin cfg2.N) (h0 : ¬t.val % 8 = 0) (h1 : ¬t.val % 8 = 7) (xs : Vec F S512x1024 .f32) :
    (pointB V c t h0 h1 xs).2 = k2_pay2 xs (iblk2 V c 0 t) (iblk2 V c 1 t) := by
  unfold pointB
  dsimp only
  exact sout2_B_0_eq c (grid2.coords t) (ms2_0 t) (hs2_0 t) (ms2_1 t) (hs2_1 t) (ms2_2 t) (hs2_2 t) scM2_0 (Memref.isWhole_whole _) (fun h => h0 ((hcond2_0 t).mp h)) (fun h => h1 ((hcond2_1 t).mp h)) (iblk2 V c 0 t) (iblk2 V c 1 t) xs

theorem pointC_snd (c : Dev nD) (t : Fin cfg2.N) (h0 : ¬t.val % 8 = 0) (h1 : t.val % 8 = 7) (xs : Vec F S512x1024 .f32) :
    (pointC V c t h0 h1 xs).2 = k2_pay2 xs (iblk2 V c 0 t) (iblk2 V c 1 t) := by
  unfold pointC
  dsimp only
  exact sout2_C_0_eq c (grid2.coords t) (ms2_0 t) (hs2_0 t) (ms2_1 t) (hs2_1 t) (ms2_2 t) (hs2_2 t) scM2_0 (Memref.isWhole_whole _) (fun h => h0 ((hcond2_0 t).mp h)) ((hcond2_1 t).mpr h1) (iblk2 V c 0 t) (iblk2 V c 1 t) xs

theorem pointC_fst (c : Dev nD) (t : Fin cfg2.N) (h0 : ¬t.val % 8 = 0) (h1 : t.val % 8 = 7) (xs : Vec F S512x1024 .f32) :
    (pointC V c t h0 h1 xs).1 = k2_pay2 xs (iblk2 V c 0 t) (iblk2 V c 1 t) := by
  unfold pointC
  dsimp only
  exact out2_C_2_eq c (grid2.coords t) (ms2_0 t) (hs2_0 t) (ms2_1 t) (hs2_1 t) (ms2_2 t) (hs2_2 t) scM2_0 (Memref.isWhole_whole _) (fun h => h0 ((hcond2_0 t).mp h)) ((hcond2_1 t).mpr h1) (iblk2 V c 0 t) (iblk2 V c 1 t) xs

/-! ## The accumulator after each point -/

/-- The accumulator after point n: from the zero block at every multiple of 8, from what the point before left
    otherwise, plus the point's block product. -/
def acc2 (c : Dev nD) : (n : ℕ) → n < cfg2.N → Vec F S512x1024 .f32
  | 0, h => k2_pay2 k2_pay1 (iblk2 V c 0 ⟨0, h⟩) (iblk2 V c 1 ⟨0, h⟩)
  | n + 1, h =>
    if (n + 1) % 8 = 0 then k2_pay2 k2_pay1 (iblk2 V c 0 ⟨n + 1, h⟩) (iblk2 V c 1 ⟨n + 1, h⟩)
    else k2_pay2 (acc2 c n (Nat.lt_of_succ_lt h)) (iblk2 V c 0 ⟨n + 1, h⟩) (iblk2 V c 1 ⟨n + 1, h⟩)

theorem acc2_zero (c : Dev nD) (h : 0 < cfg2.N) :
    acc2 V c 0 h = k2_pay2 k2_pay1 (iblk2 V c 0 ⟨0, h⟩) (iblk2 V c 1 ⟨0, h⟩) := rfl

theorem acc2_reset (c : Dev nD) (n : ℕ) (h : n + 1 < cfg2.N) (h0 : (n + 1) % 8 = 0) :
    acc2 V c (n + 1) h = k2_pay2 k2_pay1 (iblk2 V c 0 ⟨n + 1, h⟩) (iblk2 V c 1 ⟨n + 1, h⟩) := if_pos h0

theorem acc2_step (c : Dev nD) (n : ℕ) (h : n + 1 < cfg2.N) (h0 : ¬(n + 1) % 8 = 0) :
    acc2 V c (n + 1) h = k2_pay2 (acc2 V c n (Nat.lt_of_succ_lt h)) (iblk2 V c 0 ⟨n + 1, h⟩) (iblk2 V c 1 ⟨n + 1, h⟩) := if_neg h0

/-- What the point-by-point recursion carries in the accumulator is that. -/
theorem outsAt2_snd (c : Dev nD) : ∀ (n : ℕ) (h : n < cfg2.N), (outsAt2 V c n h).2 = acc2 V c n h
  | 0, h => (congrArg Prod.snd (outsAt2_A V c ⟨0, h⟩ (Nat.zero_mod _))).trans (pointA_snd V c ⟨0, h⟩ (Nat.zero_mod _))
  | n + 1, h => by
    by_cases h0 : (n + 1) % 8 = 0
    · rw [acc2_reset V c n h h0]
      exact (congrArg Prod.snd (outsAt2_A V c ⟨n + 1, h⟩ h0)).trans (pointA_snd V c ⟨n + 1, h⟩ h0)
    · rw [acc2_step V c n h h0, ← outsAt2_snd c n (Nat.lt_of_succ_lt h)]
      by_cases h1 : (n + 1) % 8 = 7
      · exact (congrArg Prod.snd (outsAt2_C V c ⟨n + 1, h⟩ h0 h1)).trans (pointC_snd V c ⟨n + 1, h⟩ h0 h1 _)
      · exact (congrArg Prod.snd (outsAt2_B V c ⟨n + 1, h⟩ h0 h1)).trans (pointB_snd V c ⟨n + 1, h⟩ h0 h1 _)

/-- At the last key block the output's staging buffer is left at the accumulator's contents. -/
theorem outsAt2_fst (c : Dev nD) (t : Fin cfg2.N) (h1 : t.val % 8 = 7) :
    (outsAt2 V c t.val t.isLt).1 = acc2 V c t.val t.isLt := by
  have h0 : ¬t.val % 8 = 0 := by omega
  rw [← outsAt2_snd V c t.val t.isLt]
  exact (congrArg Prod.fst (outsAt2_C V c t h0 h1)).trans
    ((pointC_fst V c t h0 h1 _).trans ((pointC_snd V c t h0 h1 _).symm.trans (congrArg Prod.snd (outsAt2_C V c t h0 h1)).symm))

end Points

end Cert.KernelIdeal.Hand

end
-- ==== Proof.R2ValueSum.lean ====
/-
  Region 2 at the ideal values: the accumulator after grid point t = 8·qi + ki, at entry (p, d), is

      ∑ over the key blocks s = 0 … ki of  ∑ over l < 512 of  e[512·qi + p, 512·s + l] · Vs[512·s + l, d],

  e and Vs being the two arrays as the region finds them. One point adds one key block's products (a 512-term matrix
  product into the zero accumulator, added to what was there); the zero block stored at ki = 0 is the real 0; a block's
  entry sits in its array at block index × 512 + the entry's own coordinate. By induction on the point.
-/
import proofs.«174378_j75565654606299_2_alg».proof.Proof.R2ValueAcc
import proofs.«174378_j75565654606299_2_alg».proof.Proof.LibPlainDot
import Idealize.ShloMosaic.Lib.Pipeline.Value
import Idealize.ShloMosaic.Lib.ValueIdx
import Idealize.ShloMosaic.PureOps.Ideal.Laws
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

/-- Row l of block s of an axis cut into blocks of 512 (the remainder keeps the expression total; it is the identity for s < 8). -/
def rowN (s : ℕ) (l : Fin 512) : Fin 4096 := ⟨(512 * s + l.val) % 4096, Nat.mod_lt _ (by decide)⟩

theorem sum_blocks {M : Type*} [AddCommMonoid M] (f : Fin 4096 → M) :
    ∑ s ∈ Finset.range 8, ∑ l : Fin 512, f (rowN s l) = ∑ j : Fin 4096, f j := by
  rw [Finset.sum_range, ← Fintype.sum_prod_type']
  refine Fintype.sum_equiv (finProdFinEquiv (m := 8) (n := 512)) _ _ fun x => congrArg f (Fin.ext ?_)
  have h1 := x.1.isLt
  have h2 := x.2.isLt
  show (512 * x.1.val + x.2.val) % 4096 = x.2.val + 512 * x.1.val
  omega

theorem k2_pay1_apply (j : S512x1024.Idx) : k2_pay1 (F := Ideal) j = 0 := by
  unfold k2_pay1
  simp only [shapeCast_self]
  exact Ideal.ofBits_zero_f32

theorem k2_pay2_apply (xs : FVec Ideal S512x1024 .f32) (x0 : FVec Ideal S512x512 .bf16) (x1 : FVec Ideal S512x1024 .bf16)
    (p : Fin 512) (d : Fin 1024) :
    k2_pay2 (F := Ideal) xs x0 x1 (ix2 p d) = xs (ix2 p d) + ∑ l : Fin 512, x0 (ix2 p l) * x1 (ix2 l d) := by
  unfold k2_pay2
  simp only [shapeCast_self]
  exact congrArg (xs (ix2 p d) + ·) (matmul_plain_zero_apply dot_S512x512_S512x1024_S512x1024_1_0_0_1_n_n rfl none x0 x1 p d)

theorem idx_facts2 : ∀ t : Fin cfg2.N, win2_0.index t (0 : Fin 2) = t.val / 8 ∧ win2_0.index t (1 : Fin 2) = t.val % 8
    ∧ win2_1.index t (0 : Fin 2) = t.val % 8 ∧ win2_1.index t (1 : Fin 2) = 0
    ∧ win2_2.index t (0 : Fin 2) = t.val / 8 ∧ win2_2.index t (1 : Fin 2) = 0 :=
  (by decide +kernel : ∀ t : Fin grid2.N, _)

section
variable (V : (c : Dev nD) → (b : Ref sig .tc) → Buf (Elt Ideal) ((c : Thread nD τ).loc b))

/-- The two arrays as region 2 finds them, as real-valued functions of their indices: e, -/
abbrev arrE (c : Dev nD) : S4096x4096.Idx → EReal := V c main_v5_0
/-- and Vs. -/
abbrev arrVs (c : Dev nD) : S4096x1024.Idx → EReal := V c main_v5_1

theorem iblk2_0_apply (c : Dev nD) (t : Fin cfg2.N) (p l : Fin 512) :
    (iblk2 V c 0 t : S512x512.Idx → EReal) (ix2 p l) = arrE V c (ix2 (rowN (t.val / 8) p) (rowN (t.val % 8) l)) := by
  have hN : t.val < 64 := lt_of_lt_of_eq t.isLt (show cfg2.N = 64 from N_2)
  obtain ⟨e0, e1, -, -, -, -⟩ := idx_facts2 t
  unfold iblk2
  rw [View.read_apply]
  show V c main_v5_0 (((cfg2.win 0).blk t).view.emb (ix2 p l)) = V c main_v5_0 _
  congr 1
  funext a
  apply Fin.ext
  match a with
  | ⟨0, _⟩ => show win2_0.index t (0 : Fin 2) * 512 + 1 * p.val = (512 * (t.val / 8) + p.val) % 4096; rw [e0]; omega
  | ⟨1, _⟩ => show win2_0.index t (1 : Fin 2) * 512 + 1 * l.val = (512 * (t.val % 8) + l.val) % 4096; rw [e1]; omega

theorem iblk2_1_apply (c : Dev nD) (t : Fin cfg2.N) (l : Fin 512) (d : Fin 1024) :
    (iblk2 V c 1 t : S512x1024.Idx → EReal) (ix2 l d) = arrVs V c (ix2 (rowN (t.val % 8) l) d) := by
  have hN : t.val < 64 := lt_of_lt_of_eq t.isLt (show cfg2.N = 64 from N_2)
  obtain ⟨-, -, e0, e1, -, -⟩ := idx_facts2 t
  unfold iblk2
  rw [View.read_apply]
  show V c main_v5_1 (((cfg2.win 1).blk t).view.emb (ix2 l d)) = V c main_v5_1 _
  congr 1
  funext a
  apply Fin.ext
  match a with
  | ⟨0, _⟩ => show win2_1.index t (0 : Fin 2) * 512 + 1 * l.val = (512 * (t.val % 8) + l.val) % 4096; rw [e0]; omega
  | ⟨1, _⟩ => show win2_1.index t (1 : Fin 2) * 1024 + 1 * d.val = d.val; rw [e1]; omega

/-- Key block s's products at entry (p, d) of query block q's accumulator. -/
def partN (c : Dev nD) (q s : ℕ) (p : Fin 512) (d : Fin 1024) : EReal :=
  ∑ l : Fin 512, arrE V c (ix2 (rowN q p) (rowN s l)) * arrVs V c (ix2 (rowN s l) d)

/-- One point adds its key block's products to what the accumulator held. -/
theorem pay_point (c : Dev nD) (t : Fin cfg2.N) (xs : FVec Ideal S512x1024 .f32) (p : Fin 512) (d : Fin 1024) :
    k2_pay2 (F := Ideal) xs (iblk2 V c 0 t) (iblk2 V c 1 t) (ix2 p d) = xs (ix2 p d) + partN V c (t.val / 8) (t.val % 8) p d :=
  (k2_pay2_apply xs (iblk2 V c 0 t) (iblk2 V c 1 t) p d).trans
    (congrArg (xs (ix2 p d) + ·) (Finset.sum_congr rfl fun l _ =>
      congrArg₂ (fun a b : EReal => a * b) (iblk2_0_apply V c t p l) (iblk2_1_apply V c t l d)))

/-- THE INVARIANT: after point n the accumulator holds the products of the key blocks 0 … n % 8 of query block n / 8. -/
theorem acc2_apply (c : Dev nD) (p : Fin 512) (d : Fin 1024) : ∀ (n : ℕ) (h : n < cfg2.N),
    acc2 V c n h (ix2 p d) = ∑ s ∈ Finset.range (n % 8 + 1), partN V c (n / 8) s p d
  | 0, h => by
    rw [acc2_zero]
    refine (pay_point V c ⟨0, h⟩ k2_pay1 p d).trans ?_
    rw [show k2_pay1 (F := Ideal) (ix2 p d) = 0 from k2_pay1_apply _, zero_add]
    show partN V c (0 / 8) (0 % 8) p d = ∑ s ∈ Finset.range (0 % 8 + 1), partN V c (0 / 8) s p d
    exact (Finset.sum_range_one fun s => partN V c (0 / 8) s p d).symm
  | n + 1, h => by
    by_cases h0 : (n + 1) % 8 = 0
    · rw [acc2_reset V c n h h0]
      refine (pay_point V c ⟨n + 1, h⟩ k2_pay1 p d).trans ?_
      rw [show k2_pay1 (F := Ideal) (ix2 p d) = 0 from k2_pay1_apply _, zero_add]
      show partN V c ((n + 1) / 8) ((n + 1) % 8) p d = _
      rw [h0, Finset.sum_range_one]
    · rw [acc2_step V c n h h0]
      refine (pay_point V c ⟨n + 1, h⟩ _ p d).trans ?_
      rw [acc2_apply c p d n (Nat.lt_of_succ_lt h)]
      show _ + partN V c ((n + 1) / 8) ((n + 1) % 8) p d = _
      have e1 : (n + 1) / 8 = n / 8 := by omega
      have e2 : (n + 1) % 8 = n % 8 + 1 := by omega
      rw [e1, e2, Finset.sum_range_succ _ (n % 8 + 1)]

/-- At the last key block that is the whole row of e against the whole column of Vs. -/
theorem acc2_last (c : Dev nD) (t : Fin cfg2.N) (h7 : t.val % 8 = 7) (p : Fin 512) (d : Fin 1024) :
    acc2 V c t.val t.isLt (ix2 p d)
      = ∑ j : Fin 4096, arrE V c (ix2 (rowN (t.val / 8) p) j) * arrVs V c (ix2 j d) := by
  rw [acc2_apply V c p d t.val t.isLt, h7]
  unfold partN
  exact sum_blocks fun j => arrE V c (ix2 (rowN (t.val / 8) p) j) * arrVs V c (ix2 j d)

end

end Cert.KernelIdeal.Hand

end
-- ==== Proof.R2Value.lean ====
/-
  Region 2's value at the ideal values: the output array ends holding e · Vs,

      out[r, d] = ∑ over j < 4096 of e[r, j] · Vs[j, d],

  for any contents e and Vs the two arrays have when the region is entered. The output block of query block qi is
  written back once, at the last key block (point 8·qi + 7), and holds the accumulator there: the products of all
  eight key blocks, that is the whole row of e against the whole column of Vs. The eight output blocks tile the array's
  rows (row r lies in the block of query block r / 512).
-/
import proofs.«174378_j75565654606299_2_alg».proof.Proof.R2ValueSum

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

/-- The product of a [4096, 4096] array and a [4096, 1024] array, entry by entry. -/
abbrev matProd (E : S4096x4096.Idx → EReal) (Vs : S4096x1024.Idx → EReal) : S4096x1024.Idx → EReal :=
  fun idx => ∑ j : Fin 4096, E (ix2 (idx 0 : Fin 4096) j) * Vs (ix2 j (idx 1 : Fin 1024))

section
variable (V : (c : Dev nD) → (b : Ref sig .tc) → Buf (Elt Ideal) ((c : Thread nD τ).loc b))

/-- What the point 8·qi + 7 leaves in the output's staging buffer, entry by entry: the product at the entry's place in
    the array (row 512·qi + p, column d). -/
theorem out2_last_apply (c : Dev nD) (t : Fin cfg2.N) (h7 : t.val % 8 = 7) (y : S512x1024.Idx) :
    (outsAt2 V c t.val t.isLt).1 y
      = matProd (V c main_v5_0) (V c main_v5_1) (((cfg2.win 2).blk t).view.emb y) := by
  have hN : t.val < 64 := lt_of_lt_of_eq t.isLt (show cfg2.N = 64 from N_2)
  obtain ⟨-, -, -, -, e0, e1⟩ := idx_facts2 t
  obtain ⟨p, d, rfl⟩ : ∃ (p : Fin 512) (d : Fin 1024), y = ix2 p d := ⟨y 0, y 1, eq_ix2 y⟩
  rw [outsAt2_fst V c t h7]
  refine (acc2_last V c t h7 p d).trans ?_
  have r0 : rowN (t.val / 8) p = ((((cfg2.win 2).blk t).view.emb (ix2 p d)) 0 : Fin 4096) := Fin.ext (by
    show (512 * (t.val / 8) + p.val) % 4096 = win2_2.index t (0 : Fin 2) * 512 + 1 * p.val; rw [e0]; omega)
  have r1 : d = ((((cfg2.win 2).blk t).view.emb (ix2 p d)) 1 : Fin 1024) := Fin.ext (by
    show d.val = win2_2.index t (1 : Fin 2) * 1024 + 1 * d.val; rw [e1]; omega)
  show _ = ∑ j : Fin 4096, arrE V c (ix2 ((((cfg2.win 2).blk t).view.emb (ix2 p d)) 0 : Fin 4096) j)
    * arrVs V c (ix2 j ((((cfg2.win 2).blk t).view.emb (ix2 p d)) 1 : Fin 1024))
  rw [← r0, ← r1]

/-- So every write-back writes its block of the product. -/
theorem flushed2_eq (c : Dev nD) (t : Fin cfg2.N) (hf : (cfg2.win 2).flush t = true) :
    (dat2 V c).flushed 2 t = ((cfg2.win 2).blk t).view.read (Elt Ideal) (matProd (V c main_v5_0) (V c main_v5_1)) := by
  have h7 : t.val % 8 = 7 := (flush2_2 t).mp hf
  show (cfg2.win 2).cut (grid2.coords t) ((dat2 V c).after 2 t) = _
  rw [after2_2]
  funext y
  exact out2_last_apply V c t h7 y

/-- Row r of the output lies in the block written back at point 8·(r / 512) + 7. -/
theorem cover2 (i : S4096x1024.Idx) :
    ∃ t : Fin cfg2.N, (cfg2.win 2).flush t = true ∧ i ∈ ((cfg2.win 2).blk t).view.set := by
  have hN : cfg2.N = 64 := N_2
  have h0 : (i 0 : Nat) < 4096 := (i 0).isLt
  have h1 : (i 1 : Nat) < 1024 := (i 1).isLt
  let t : Fin cfg2.N := ⟨8 * ((i 0 : Nat) / 512) + 7, by rw [hN]; omega⟩
  have ht : t.val = 8 * ((i 0 : Nat) / 512) + 7 := rfl
  obtain ⟨-, -, -, -, e0, e1⟩ := idx_facts2 t
  refine ⟨t, (flush2_2 t).mpr (by rw [ht]; omega), ?_⟩
  show i ∈ ((View.whole main_v6).slice (win2_2.rect t)).set
  rw [View.set_slice_whole, Rect.mem_set_unit]
  intro a
  match a with
  | ⟨0, _⟩ =>
    show win2_2.index t (0 : Fin 2) * 512 ≤ (i 0 : Nat) ∧ (i 0 : Nat) < win2_2.index t (0 : Fin 2) * 512 + 512
    rw [e0, ht]; omega
  | ⟨1, _⟩ =>
    show win2_2.index t (1 : Fin 2) * 1024 ≤ (i 1 : Nat) ∧ (i 1 : Nat) < win2_2.index t (1 : Fin 2) * 1024 + 1024
    rw [e1]; omega

/-- THE VALUE of region 2: the output array ends at the product of the two arrays it was entered with. -/
theorem arr2_out (c : Dev nD) :
    (dat2 (F := Ideal) V c).arrAt 2 cfg2.N = matProd (V c main_v5_0) (V c main_v5_1) :=
  (dat2 V c).arrAt_eq_of_cover 2 (matProd (V c main_v5_0) (V c main_v5_1)) (flushed2_eq V c) (cover2)

end

end Cert.KernelIdeal.Hand

end
-- ==== Proof.KValue.lean ====
/-
  The kernel program's result, at the ideal values, as one function of the launch contents. Through the four segments:
  the host operations lay the three weights side by side and the three biases end to end; region 0 leaves Q, K, V at the
  linear layers of x; region 1 leaves the weights e = exp(mask ⊙ Q·Kᵀ) and Vs = V / (row sums of e); region 2 leaves
  e·Vs. Entry by entry that is Σⱼ e[i,j]·(V[j,d] / den[j]): the kernel's arrangement of the attention output.
-/
import proofs.«174378_j75565654606299_2_alg».proof.Proof.KRun
import proofs.«174378_j75565654606299_2_alg».proof.Proof.R0Value
import proofs.«174378_j75565654606299_2_alg».proof.Proof.R0ValueHost
import proofs.«174378_j75565654606299_2_alg».proof.Proof.R1Value
import proofs.«174378_j75565654606299_2_alg».proof.Proof.R2Value
import proofs.«174378_j75565654606299_2_alg».proof.Proof.Spec

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (m : (ℓ : Loc nD τ sig) → Buf (Elt Ideal) ℓ) (ρ : Dev nD → PrngReg)

/-- The host operations leave x as launched. -/
theorem V1_x (c : Dev nD) : V1 m ρ c main_arg0 = m ((c : Thread nD τ).loc main_arg0) :=
  W1_keeps m ρ c main_arg0 (by decide)

/-- Region 0 and the host operations leave the mask as launched. -/
theorem mask_eq (c : Dev nD) : (V2 m ρ c main_arg1 : Cert.Attn.Mat 4096 4096) = m ((c : Thread nD τ).loc main_arg1) :=
  (W2_of_ne m ρ c main_arg1 (by decide)).trans (W1_keeps m ρ c main_arg1 (by decide))

/-- The Q array region 0 leaves is the linear layer of the launch contents. -/
theorem Q_eq (c : Dev nD) :
    (V2 m ρ c main_v4_0 : Cert.Attn.Mat 4096 1024) = fun idx => Cert.Attn.proj (m ((c : Thread nD τ).loc main_arg0)) (m ((c : Thread nD τ).loc main_arg2)) (m ((c : Thread nD τ).loc main_arg3)) (idx 0) (idx 1) := by
  refine (W2_arr m ρ c 3).trans ?_
  rw [arr0_Q (V1 m ρ) c (m ((c : Thread nD τ).loc main_arg2)) (m ((c : Thread nD τ).loc main_arg3))
    (fun k j => host_weight_q (W0 m ρ c) k j) (fun j => host_bias_q (W0 m ρ c) j), V1_x]

/-- The K array region 0 leaves is the linear layer of the launch contents. -/
theorem K_eq (c : Dev nD) :
    (V2 m ρ c main_v4_1 : Cert.Attn.Mat 4096 1024) = fun idx => Cert.Attn.proj (m ((c : Thread nD τ).loc main_arg0)) (m ((c : Thread nD τ).loc main_arg4)) (m ((c : Thread nD τ).loc main_arg5)) (idx 0) (idx 1) := by
  refine (W2_arr m ρ c 4).trans ?_
  rw [arr0_K (V1 m ρ) c (m ((c : Thread nD τ).loc main_arg4)) (m ((c : Thread nD τ).loc main_arg5))
    (fun k j => host_weight_k (W0 m ρ c) k j) (fun j => host_bias_k (W0 m ρ c) j), V1_x]

/-- The V array region 0 leaves is the linear layer of the launch contents. -/
theorem V_eq (c : Dev nD) :
    (V2 m ρ c main_v4_2 : Cert.Attn.Mat 4096 1024) = fun idx => Cert.Attn.proj (m ((c : Thread nD τ).loc main_arg0)) (m ((c : Thread nD τ).loc main_arg6)) (m ((c : Thread nD τ).loc main_arg7)) (idx 0) (idx 1) := by
  refine (W2_arr m ρ c 5).trans ?_
  rw [arr0_V (V1 m ρ) c (m ((c : Thread nD τ).loc main_arg6)) (m ((c : Thread nD τ).loc main_arg7))
    (fun k j => host_weight_v (W0 m ρ c) k j) (fun j => host_bias_v (W0 m ρ c) j), V1_x]

/-- The weights region 1 computes are the specification's weights of the launch contents. -/
theorem E1_weights (c : Dev nD) (i j : Fin 4096) :
    E1 (V2 m ρ) c i j = Cert.Attn.weights (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) i j := by
  unfold E1 Cert.Attn.weights Cert.Attn.expo Cert.Attn.score
  rw [show Ma (V2 m ρ) c = _ from mask_eq m ρ c, show Qa (V2 m ρ) c = _ from Q_eq m ρ c, show Ka (V2 m ρ) c = _ from K_eq m ρ c]
  rfl

/-- The array of weights region 2 is entered with. -/
theorem Earr_eq (c : Dev nD) : (V3 m ρ c main_v5_0 : Cert.Attn.Mat 4096 4096) = Earr (V2 m ρ) c :=
  (W3_arr m ρ c 4).trans (arr1_E (V2 m ρ) c)

/-- The array of Vs region 2 is entered with. -/
theorem VsArr_eq (c : Dev nD) : (V3 m ρ c main_v5_1 : Cert.Attn.Mat 4096 1024) = VsArr (V2 m ρ) c :=
  (W3_arr m ρ c 5).trans (arr1_Vs (V2 m ρ) c)

/-- THE KERNEL'S VALUE: the result array after the run is the kernel's arrangement of the attention output of the
    argument arrays as launched. -/
theorem kernel_value (c : Dev nD) :
    W4 m ρ c (Proc.devRef .tc main_v6) = Cert.Attn.kerArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  rw [W4_result, arr2_out (V3 m ρ) c, Earr_eq, VsArr_eq]
  funext idx
  obtain ⟨i, d, rfl⟩ : ∃ (i : Fin 4096) (d : Fin 1024), idx = ix2 i d := ⟨idx 0, idx 1, eq_ix2 idx⟩
  show ∑ j : Fin 4096, Earr (V2 m ρ) c (ix2 i j) * VsArr (V2 m ρ) c (ix2 j d)
    = Cert.Attn.kerOut (Cert.Attn.weights (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (Cert.Attn.proj (m ((c : Thread nD τ).loc main_arg0)) (m ((c : Thread nD τ).loc main_arg6)) (m ((c : Thread nD τ).loc main_arg7))) i d
  unfold Cert.Attn.kerOut Earr VsArr
  refine Finset.sum_congr rfl fun j _ => ?_
  show E1 (V2 m ρ) c i j * Ideal.div (Va (V2 m ρ) c (ix2 j d)) (∑ n : Fin 4096, E1 (V2 m ρ) c j n) = _
  rw [E1_weights, show Va (V2 m ρ) c = _ from V_eq m ρ c]
  unfold Cert.Attn.den
  simp only [E1_weights]
  rfl

end Cert.KernelIdeal.Hand

end
-- ==== Proof.RefSpec.lean ====
/-
  The reference program computes the specification's reference arrangement.

  Read at an index (i, d), the reference's last operation is the sum over j of (its quotient array at (i, j)) times (its
  third linear layer at (j, d)). The quotient array at (i, j) is the weight e[i,j] divided by the row sums broadcast along
  the rows, that is, by den[j]: the row sum of the COLUMN index. The weight is exp(mask[i,j]·(1·s[i,j])), the constant 1
  being the reference's scale; the score s[i,j] contracts the first layer's row i with the TRANSPOSE of the second layer,
  whose (k, j) entry is the second layer's (j, k) entry; each layer at (i, j) is Σ_k x[i,k]·W[k,j] plus the bias b[j],
  which the program broadcasts first to a row and then down the rows. The row sum starts from the constant 0. Every
  step is one operation of the program read at an index; the index of each operand is a literal pair of coordinates.
-/
import proofs.«174378_j75565654606299_2_alg».proof.Proof.Spec
import proofs.«174378_j75565654606299_2_alg».proof.Proof.Gen.ReferenceIdeal.Read

noncomputable section

namespace Cert.ReferenceIdeal.RefValue

open Cert.ReferenceIdeal Cert.ReferenceIdeal.Read Cert.Attn Idealize.ShloMosaic Idealize.ShloMosaic.ValueIdx

/-- Two indices of rank 2 are equal when both coordinates are. -/
local macro "idx2" : tactic => `(tactic| (funext a; match a with | ⟨0, _⟩ => rfl | ⟨1, _⟩ => rfl))
/-- Two indices of rank 1 are equal when their coordinate is. -/
local macro "idx1" : tactic => `(tactic| (funext a; match a with | ⟨0, _⟩ => rfl))

/-- The word 0x3F800000 denotes the real number 1. -/
theorem ofBits_one_f32 : Ideal.ofBits .f32 0x3F800000#32 = (1 : EReal) := by
  simp [Ideal.ofBits, Ideal.ieee, -EReal.coe_mul]; norm_num

variable (x0 : (⟨S4096x1024, .f32⟩ : BufTy).Contents (Elt Ideal)) (x1 : (⟨S4096x4096, .f32⟩ : BufTy).Contents (Elt Ideal))
  (x2 : (⟨S1024x1024, .f32⟩ : BufTy).Contents (Elt Ideal)) (x3 : (⟨S1024, .f32⟩ : BufTy).Contents (Elt Ideal))
  (x4 : (⟨S1024x1024, .f32⟩ : BufTy).Contents (Elt Ideal)) (x5 : (⟨S1024, .f32⟩ : BufTy).Contents (Elt Ideal))
  (x6 : (⟨S1024x1024, .f32⟩ : BufTy).Contents (Elt Ideal)) (x7 : (⟨S1024, .f32⟩ : BufTy).Contents (Elt Ideal))

/-! ## The three linear layers -/

/-- The first layer at (i, j): the contraction reads x at (i, k) and the weight at (k, j); the bias, broadcast to a row
    and then down the rows, is read at j. -/
theorem layer_q (i : Fin 4096) (j : Fin 1024) :
    val_main_v3 (F := Ideal) x0 x2 x3 (ix2 i j) = proj x0 x2 x3 i j := by
  have el : ∀ k : Fin 1024, lidx_main_v0 (ix2 i j) k = ix2 i k := fun k => by idx2
  have er : ∀ k : Fin 1024, ridx_main_v0 (ix2 i j) k = ix2 k j := fun k => by idx2
  have eb : idx_main_v1 (idx_main_v2 (ix2 i j)) = ix1 j := by idx1
  rw [val_main_v3_apply, val_main_v0_apply, val_main_v2_apply, val_main_v1_apply, eb, Ideal.addf_def]
  unfold proj
  refine congrArg (· + x3 (ix1 j)) (Finset.sum_congr rfl fun k _ => ?_)
  rw [el, er]

/-- The second layer at (i, j), in the same way. -/
theorem layer_k (i : Fin 4096) (j : Fin 1024) :
    val_main_v7 (F := Ideal) x0 x4 x5 (ix2 i j) = proj x0 x4 x5 i j := by
  have el : ∀ k : Fin 1024, lidx_main_v4 (ix2 i j) k = ix2 i k := fun k => by idx2
  have er : ∀ k : Fin 1024, ridx_main_v4 (ix2 i j) k = ix2 k j := fun k => by idx2
  have eb : idx_main_v5 (idx_main_v6 (ix2 i j)) = ix1 j := by idx1
  rw [val_main_v7_apply, val_main_v4_apply, val_main_v6_apply, val_main_v5_apply, eb, Ideal.addf_def]
  unfold proj
  refine congrArg (· + x5 (ix1 j)) (Finset.sum_congr rfl fun k _ => ?_)
  rw [el, er]

/-- The third layer at (i, j), in the same way. -/
theorem layer_v (i : Fin 4096) (j : Fin 1024) :
    val_main_v11 (F := Ideal) x0 x6 x7 (ix2 i j) = proj x0 x6 x7 i j := by
  have el : ∀ k : Fin 1024, lidx_main_v8 (ix2 i j) k = ix2 i k := fun k => by idx2
  have er : ∀ k : Fin 1024, ridx_main_v8 (ix2 i j) k = ix2 k j := fun k => by idx2
  have eb : idx_main_v9 (idx_main_v10 (ix2 i j)) = ix1 j := by idx1
  rw [val_main_v11_apply, val_main_v8_apply, val_main_v10_apply, val_main_v9_apply, eb, Ideal.addf_def]
  unfold proj
  refine congrArg (· + x7 (ix1 j)) (Finset.sum_congr rfl fun k _ => ?_)
  rw [el, er]

/-! ## Scores, weights and row sums -/

/-- The score at (i, j): the contraction reads the first layer at (i, k) and the transposed second layer at (k, j),
    which is the second layer at (j, k). -/
theorem scores_at (i j : Fin 4096) :
    val_main_v13 (F := Ideal) x0 x2 x3 x4 x5 (ix2 i j) = score (proj x0 x2 x3) (proj x0 x4 x5) i j := by
  have el : ∀ k : Fin 1024, lidx_main_v13 (ix2 i j) k = ix2 i k := fun k => by idx2
  have er : ∀ k : Fin 1024, idx_main_v12 (ridx_main_v13 (ix2 i j) k) = ix2 j k := fun k => by idx2
  rw [val_main_v13_apply]
  unfold score
  refine Finset.sum_congr rfl fun k _ => ?_
  rw [val_main_v12_apply, el, er, layer_q, layer_k]

/-- The weight at (i, j): the exponential of the mask entry times (the constant 1 times the score). -/
theorem weights_at (i j : Fin 4096) :
    val_main_v17 (F := Ideal) x0 x1 x2 x3 x4 x5 (ix2 i j) = weights x0 x1 x2 x3 x4 x5 i j := by
  rw [val_main_v17_apply, val_main_v16_apply, val_main_v15_apply, val_main_v14_apply, val_main_cst_apply, scores_at,
    Ideal.hostUnary_exp_def, Ideal.mulf_def, Ideal.mulf_def, Ideal.ofBits_def, ofBits_one_f32, one_mul]
  rfl

/-- The row sum at j: the constant 0 plus the sum over n of the weights at (j, n). -/
theorem rowsum_at (j : Fin 4096) :
    val_main_v18 (F := Ideal) x0 x1 x2 x3 x4 x5 (ix1 j) = den (weights x0 x1 x2 x3 x4 x5) j := by
  have e : ∀ n : Fin 4096, idx_main_v18 (ix1 j) n = ix2 j n := fun n => by idx2
  rw [val_main_v18_apply, val_main_cst_0_apply, Ideal.ofBits_def, Ideal.ofBits_zero_f32, zero_add]
  unfold den
  refine Finset.sum_congr rfl fun n _ => ?_
  rw [e, weights_at]

/-! ## The result -/

/-- The reference's result array is the specification's reference arrangement: at (p, q) the last contraction reads the
    quotient array at (p, j) and the third layer at (j, q); the quotient's divisor, the row sums broadcast to a row and
    then down the rows, is read at the column j. -/
theorem val_is_refArr :
    val_main_v22 (F := Ideal) x0 x1 x2 x3 x4 x5 x6 x7 = refArr x0 x1 x2 x3 x4 x5 x6 x7 := by
  funext idx
  obtain ⟨p, q, rfl⟩ : ∃ (p : Fin 4096) (q : Fin 1024), idx = ix2 p q := ⟨idx 0, idx 1, eq_ix2 idx⟩
  have el : ∀ j : Fin 4096, lidx_main_v22 (ix2 p q) j = ix2 p j := fun j => by idx2
  have er : ∀ j : Fin 4096, ridx_main_v22 (ix2 p q) j = ix2 j q := fun j => by idx2
  have ed : ∀ j : Fin 4096, idx_main_v19 (idx_main_v20 (ix2 p j)) = ix1 j := fun j => by idx1
  rw [val_main_v22_apply]
  show _ = refOut (weights x0 x1 x2 x3 x4 x5) (proj x0 x6 x7) p q
  unfold refOut
  refine Finset.sum_congr rfl fun j _ => ?_
  rw [el, er, val_main_v21_apply, val_main_v20_apply, val_main_v19_apply, ed, weights_at, rowsum_at, layer_v,
    Ideal.hostDivf_def]

end Cert.ReferenceIdeal.RefValue

end
-- ==== Proof.AttnLaw.lean ====
/-
  The law between the two arrangements of the attention layer.

  Both arrangements form the weights e[i,j] = exp(mask[i,j]·s[i,j]) and the row sums den[j] = Σ_n e[j,n]; the reference
  sums (e[i,j] / den[j]) · V[j,d] over j and the kernel sums e[i,j] · (V[j,d] / den[j]). Over the extended reals the two
  summands differ in general (a zero or infinite row sum, an infinite weight), so the law is proved where every input is a
  real number. Then every projection x·W + b is a finite sum of products of reals plus a real, hence real; every score is a
  finite sum of products of reals, hence real; every weight is the exponential of a real, hence a POSITIVE real; every row
  sum is a sum of positive reals over a nonempty range, hence a positive real and in particular not zero. Among reals with
  b ≠ 0 the division is multiplication by 1/b, and (a·(1/b))·c = a·(c·(1/b)) by commutativity: the summands agree term by
  term, so the sums do.
-/
import proofs.«174378_j75565654606299_2_alg».proof.Proof.Spec

noncomputable section

namespace Cert.Attn

open Idealize.ShloMosaic Idealize.ShloMosaic.ValueIdx

/-! ## Real numbers inside the extended reals: closed under finite sums and products -/

/-- The inclusion of the reals commutes with a finite sum (by induction on the range of summation). -/
theorem coe_finsum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite sum of real numbers is a real number: choose a real for each term and sum them. -/
theorem real_sum {ι : Type*} [Fintype ι] (f : ι → EReal) (h : ∀ i, ∃ r : ℝ, f i = (r : EReal)) :
    ∃ r : ℝ, ∑ i, f i = (r : EReal) := by
  choose g hg using h
  exact ⟨∑ i, g i, by rw [coe_finsum]; exact Finset.sum_congr rfl (fun i _ => hg i)⟩

/-- A finite sum of positive reals over a nonempty range is a positive real. -/
theorem pos_real_sum {ι : Type*} [Fintype ι] [Nonempty ι] (f : ι → EReal)
    (h : ∀ i, ∃ r : ℝ, 0 < r ∧ f i = (r : EReal)) : ∃ r : ℝ, 0 < r ∧ ∑ i, f i = (r : EReal) := by
  choose g hg using h
  refine ⟨∑ i, g i, Finset.sum_pos (fun i _ => (hg i).1) Finset.univ_nonempty, ?_⟩
  rw [coe_finsum]; exact Finset.sum_congr rfl (fun i _ => (hg i).2)

/-- The product of two reals is a real. -/
theorem real_mul {a b : EReal} (ha : ∃ r : ℝ, a = (r : EReal)) (hb : ∃ r : ℝ, b = (r : EReal)) :
    ∃ r : ℝ, a * b = (r : EReal) := by
  obtain ⟨r, rfl⟩ := ha; obtain ⟨s, rfl⟩ := hb; exact ⟨r * s, (EReal.coe_mul r s).symm⟩

/-- The sum of two reals is a real. -/
theorem real_add {a b : EReal} (ha : ∃ r : ℝ, a = (r : EReal)) (hb : ∃ r : ℝ, b = (r : EReal)) :
    ∃ r : ℝ, a + b = (r : EReal) := by
  obtain ⟨r, rfl⟩ := ha; obtain ⟨s, rfl⟩ := hb; exact ⟨r + s, (EReal.coe_add r s).symm⟩

/-- Among reals with b ≠ 0, division is multiplication by 1/b, so (a / b)·c = a·(c / b). -/
theorem div_mul_eq_mul_div (a b c : ℝ) (hb : b ≠ 0) :
    Ideal.div (a : EReal) (b : EReal) * (c : EReal) = (a : EReal) * Ideal.div (c : EReal) (b : EReal) := by
  rw [Ideal.div_coe hb, Ideal.div_coe hb]
  simp only [← EReal.coe_mul]
  congr 1; ring

/-! ## The layer's intermediate values on real inputs -/

/-- A linear layer of real arrays is real: Σ_k x[i,k]·W[k,j] is a finite sum of products of reals, and b[j] is real. -/
theorem proj_real (x : Mat 4096 1024) (W : Mat 1024 1024) (b : Vct 1024) (hx : RealM x) (hW : RealM W) (hb : RealV b)
    (i : Fin 4096) (j : Fin 1024) : ∃ r : ℝ, proj x W b i j = (r : EReal) := by
  unfold proj
  exact real_add (real_sum _ (fun k => real_mul (hx (ix2 i k)) (hW (ix2 k j)))) (hb (ix1 j))

/-- A score Σ_k Q[i,k]·K[j,k] of real Q and K is real. -/
theorem score_real (Q K : Fin 4096 → Fin 1024 → EReal) (hQ : ∀ i k, ∃ r : ℝ, Q i k = (r : EReal))
    (hK : ∀ i k, ∃ r : ℝ, K i k = (r : EReal)) (i j : Fin 4096) : ∃ r : ℝ, score Q K i j = (r : EReal) := by
  unfold score
  exact real_sum _ (fun k => real_mul (hQ i k) (hK j k))

/-- A weight exp(mask[i,j]·s[i,j]) of a real mask and real Q, K is the exponential of a real: a positive real. -/
theorem expo_pos (mask : Mat 4096 4096) (hmask : RealM mask) (Q K : Fin 4096 → Fin 1024 → EReal)
    (hQ : ∀ i k, ∃ r : ℝ, Q i k = (r : EReal)) (hK : ∀ i k, ∃ r : ℝ, K i k = (r : EReal)) (i j : Fin 4096) :
    ∃ r : ℝ, 0 < r ∧ expo mask Q K i j = (r : EReal) := by
  unfold expo
  obtain ⟨r, hr⟩ := real_mul (hmask (ix2 i j)) (score_real Q K hQ hK i j)
  exact ⟨Real.exp r, Real.exp_pos r, by rw [hr, Ideal.exp_coe]⟩

/-- A row sum of positive real weights, over the nonempty range of 4096 columns, is a positive real. -/
theorem den_pos (E : Fin 4096 → Fin 4096 → EReal) (hE : ∀ i j, ∃ r : ℝ, 0 < r ∧ E i j = (r : EReal)) (i : Fin 4096) :
    ∃ r : ℝ, 0 < r ∧ den E i = (r : EReal) := by
  haveI : Nonempty (Fin 4096) := ⟨⟨0, by decide⟩⟩
  unfold den
  exact pos_real_sum _ (hE i)

/-! ## The two arrangements agree -/

/-- With positive real weights and a real V, the reference's sum of (e[i,j] / den[j])·V[j,d] and the kernel's sum of
    e[i,j]·(V[j,d] / den[j]) agree term by term: den[j] is a nonzero real. -/
theorem refOut_eq_kerOut (E : Fin 4096 → Fin 4096 → EReal) (V : Fin 4096 → Fin 1024 → EReal)
    (hE : ∀ i j, ∃ r : ℝ, 0 < r ∧ E i j = (r : EReal)) (hV : ∀ j d, ∃ r : ℝ, V j d = (r : EReal))
    (i : Fin 4096) (d : Fin 1024) : refOut E V i d = kerOut E V i d := by
  unfold refOut kerOut
  refine Finset.sum_congr rfl (fun j _ => ?_)
  obtain ⟨a, _, ha⟩ := hE i j
  obtain ⟨b, hb, hbe⟩ := den_pos E hE j
  obtain ⟨c, hc⟩ := hV j d
  rw [ha, hbe, hc]
  exact div_mul_eq_mul_div a b c hb.ne'

/-- On real argument arrays the reference's result array is the kernel's. -/
theorem refArr_eq_kerArr (x : Mat 4096 1024) (mask : Mat 4096 4096) (Wq : Mat 1024 1024) (bq : Vct 1024)
    (Wk : Mat 1024 1024) (bk : Vct 1024) (Wv : Mat 1024 1024) (bv : Vct 1024)
    (hx : RealM x) (hmask : RealM mask) (hWq : RealM Wq) (hbq : RealV bq) (hWk : RealM Wk) (hbk : RealV bk)
    (hWv : RealM Wv) (hbv : RealV bv) :
    refArr x mask Wq bq Wk bk Wv bv = kerArr x mask Wq bq Wk bk Wv bv := by
  funext idx
  unfold refArr kerArr weights
  exact refOut_eq_kerOut _ _
    (fun i j => expo_pos mask hmask _ _ (proj_real x Wq bq hx hWq hbq) (proj_real x Wk bk hx hWk hbk) i j)
    (proj_real x Wv bv hx hWv hbv) (idx 0) (idx 1)

end Cert.Attn

end
-- ==== Proof.FiniteInputs.lean ====
/-
  From the precondition to "every input entry is a real number".

  The precondition is the conjunction, over the eight argument arrays, of "every entry x satisfies |x| < +∞", each
  conjunct an `and`-reduction of the entrywise comparisons over the whole array, and the claim assumes that the
  conjunction is the bit 1. A conjunction of bits that is 1 has every conjunct 1; an `and`-reduction over every axis
  that is 1 met a 1 at every entry; and over the extended reals |x| = max x (-x) is below +∞ exactly when x is neither
  -∞ nor +∞ (for either infinity max x (-x) = +∞), that is, when x is a real number.
-/
import proofs.«174378_j75565654606299_2_alg».proof.Proof.Spec
import proofs.«174378_j75565654606299_2_alg».proof.Pre_finite_inputs
import Idealize.ShloMosaic.Lib.ReduceAll
import Idealize.ShloMosaic.Lib.Pipeline.Value
import Idealize.ShloMosaic.PureOps.Ideal.Laws

noncomputable section

namespace Cert.Attn

open Idealize.ShloMosaic Idealize.ShloMosaic.ValueIdx

/-- The scalar shape has one index. -/
instance subsingleton_scalar_idx : Subsingleton Cert.Pre_finite_inputs.S_.Idx := ⟨fun a b => funext fun d => d.elim0⟩

/-- The word 0x7F800000 denotes +∞. -/
theorem ofBits_inf_f32 : Ideal.ofBits .f32 0x7F800000#32 = (⊤ : EReal) := by
  simp [Ideal.ofBits, Ideal.ieee]

/-- An extended real whose absolute value max x (-x) is below +∞ is a real number: for x = -∞ and for x = +∞ the
    maximum is +∞ itself. -/
theorem real_of_abs_lt_top (x : EReal) (h : max x (-x) < (⊤ : EReal)) : ∃ r : ℝ, x = (r : EReal) := by
  induction x using EReal.rec with
  | bot => simp at h
  | coe r => exact ⟨r, rfl⟩
  | top => simp at h

/-- The entrywise comparison |x| < +∞ that came out 1, read back. -/
theorem real_of_cmp (x : EReal)
    (h : FloatOps.cmpf (F := Ideal) (φ := .f32) .olt (FloatOps.hostAbsf x) (Ideal.ofBits .f32 0x7F800000#32) = 1#1) :
    ∃ r : ℝ, x = (r : EReal) := by
  rw [Ideal.cmpf_def, Ideal.hostAbsf_def, Ideal.absf_def, ofBits_inf_f32] at h
  refine real_of_abs_lt_top x ?_
  by_contra hn
  simp [Ideal.cmp, hn] at h

/-- One array's conjunct: if the `and`-reduction over every axis of the comparisons |a[i]| < +∞ is 1, every entry of
    `a` is a real number. The comparison's right operand is the scalar +∞ broadcast to the array's shape. -/
theorem real_of_all {s : Shape} {axes : List (Fin s.rank)} (red : s.ReducesTo axes Cert.Pre_finite_inputs.S_)
    (bc : Cert.Pre_finite_inputs.S_.BroadcastsInDim s (![] : Fin 0 → Fin s.rank))
    (hu : 0 < Cert.Pre_finite_inputs.S_.numel) (a : FVec Ideal s .f32)
    (e : Host.reduce IntOp.andi
          (cmpf .olt (Host.absf a)
            (broadcastInDim s ![] bc (constant (F := Ideal) Cert.Pre_finite_inputs.S_ .f32 0x7F800000#32)))
          (constantI Cert.Pre_finite_inputs.S_ 1 1#1) red hu ix0 = 1#1) (i : s.Idx) :
    ∃ r : ℝ, a i = (r : EReal) := by
  have hi := Host.reduce_andi_all _ _ red hu ix0 e i
  refine real_of_cmp (a i) ?_
  rw [← hi]
  show _ = FloatOps.cmpf .olt (FloatOps.hostAbsf (a i)) (broadcastInDim s ![] bc (constant (F := Ideal) Cert.Pre_finite_inputs.S_ .f32 0x7F800000#32) i)
  rw [broadcastInDim_apply _ bc _ i ix0 (fun d => d.elim0)]
  rfl

/-- The conjunction of two bit vectors of one shape, read at an index. -/
theorem andi_at {s : Shape} {w : Nat} (x y : IVec s w) (i : s.Idx) : andi x y i = IntOp.andi (x i) (y i) := rfl

open Cert.Pre_finite_inputs in
/-- The precondition makes every entry of the eight argument arrays a real number. -/
theorem real_of_pre [Cert.Pre_finite_inputs.Facts]
    (a0 : FVec Ideal S4096x1024 .f32) (a1 : FVec Ideal S4096x4096 .f32) (a2 : FVec Ideal S1024x1024 .f32)
    (a3 : FVec Ideal S1024 .f32) (a4 : FVec Ideal S1024x1024 .f32) (a5 : FVec Ideal S1024 .f32)
    (a6 : FVec Ideal S1024x1024 .f32) (a7 : FVec Ideal S1024 .f32)
    (h : Cert.Pre_finite_inputs.fn (F := Ideal) a0 a1 a2 a3 a4 a5 a6 a7 = (fun _ => 1#1)) :
    RealM a0 ∧ RealM a1 ∧ RealM a2 ∧ RealV a3 ∧ RealM a4 ∧ RealV a5 ∧ RealM a6 ∧ RealV a7 := by
  have h0 := congrFun h ix0
  dsimp only [Cert.Pre_finite_inputs.fn, Cert.Pre_finite_inputs.fn_part1, Cert.Pre_finite_inputs.fn_part2] at h0
  simp only [andi_at, IntOp.andi_eq_one] at h0
  obtain ⟨⟨⟨⟨⟨⟨⟨e0, e1⟩, e2⟩, e3⟩, e4⟩, e5⟩, e6⟩, e7⟩ := h0
  exact ⟨real_of_all _ _ _ a0 e0, real_of_all _ _ _ a1 e1, real_of_all _ _ _ a2 e2, real_of_all _ _ _ a3 e3,
    real_of_all _ _ _ a4 e4, real_of_all _ _ _ a5 e5, real_of_all _ _ _ a6 e6, real_of_all _ _ _ a7 e7⟩

end Cert.Attn

end
-- ==== Proof.lean ====
/-
  The certificate of the attention kernel against its reference.
  The kernel program runs three regions — the fused projections Q, K, V = x·[Wq | Wk | Wv] + [bq | bk | bv]; the weights
  e = exp(mask ⊙ Q·Kᵀ) with their row sums and Vs = V / (row sums); and out = e·Vs — after host operations that only
  concatenate the three weights and the three biases. Its frame (at the word level and at the ideal values alike) is the
  run of those four segments; the value the run leaves in the result array is, entry by entry,
  Σⱼ e[i,j]·(V[j,d] / den[j]) with den[j] = Σₙ e[j,n]. The reference computes Σⱼ (e[i,j] / den[j])·V[j,d]. Under the
  precondition every input is a real number, so every e[i,j] and every den[j] is a positive real, and the two sums agree
  term by term because (a / b)·c = a·(c / b) among reals. The ideal pass rewrote nothing, so the kernel's idealization is
  its own text read at the ideal values.
-/
import proofs.«174378_j75565654606299_2_alg».proof.Defs
import proofs.«174378_j75565654606299_2_alg».proof.Proof.Gen.Kernel
import proofs.«174378_j75565654606299_2_alg».proof.Proof.Gen.KernelIdeal
import proofs.«174378_j75565654606299_2_alg».proof.Proof.Gen.ReferenceIdeal
import proofs.«174378_j75565654606299_2_alg».proof.Proof.Gen.Pre_finite_inputs
import proofs.«174378_j75565654606299_2_alg».proof.Proof.Gen.ReferenceIdeal.Run
import proofs.«174378_j75565654606299_2_alg».proof.Proof.KbKRun
import proofs.«174378_j75565654606299_2_alg».proof.Proof.KValue
import proofs.«174378_j75565654606299_2_alg».proof.Proof.RefSpec
import proofs.«174378_j75565654606299_2_alg».proof.Proof.AttnLaw
import proofs.«174378_j75565654606299_2_alg».proof.Proof.FiniteInputs
import Idealize.ShloMosaic.Adequacy
import Idealize.ShloMosaic.Init

noncomputable section

namespace Cert.Proof

open Idealize.ShloMosaic Idealize.SL.Sem

/-- The kernel program as printed: its argument arrays end as launched. -/
theorem frame_k : Cert.frame_Kernel := fun m ρ _ => Cert.Kernel.Hand.frame m ρ

/-- The same program read at the ideal values. -/
theorem frame_ki : Cert.frame_KernelIdeal := fun m ρ _ => Cert.KernelIdeal.Hand.frame m ρ

/-- The reference is host operations only: its run leaves every argument as launched. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- At the ideal values both programs end with the result array at the kernel's arrangement of the attention output
    of the argument arrays: the kernel by its run read region by region, the reference by its operations read entry by
    entry and the law that joins the two arrangements when every input is real. -/
theorem algebraic : Cert.algebraic_KernelIdeal_ReferenceIdeal := by
  intro m ρ m' ρ' hpre hagree
  refine ⟨fun c => Cert.Attn.kerArr (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono
      (fun _ h c => ⟨(h c).1.trans (Cert.KernelIdeal.Hand.kernel_value m ρ c), (h c).2⟩)
      (Cert.KernelIdeal.Hand.run_all m ρ)
  · refine (θ_run Cert.ReferenceIdeal.defs _ _).mono (fun _ h c => ⟨(h c).1.trans ?_, (h c).2⟩)
      (Cert.ReferenceIdeal.Value.run (F := Ideal) m' ρ')
    obtain ⟨h0, h1, h2, h3, h4, h5, h6, h7⟩ := Cert.Attn.real_of_pre _ _ _ _ _ _ _ _ (hpre c)
    obtain ⟨a0, a1, a2, a3, a4, a5, a6, a7⟩ := hagree c
    rw [Cert.ReferenceIdeal.Read.val_main_v22_eq, a0, a1, a2, a3, a4, a5, a6, a7, Cert.ReferenceIdeal.RefValue.val_is_refArr]
    exact Cert.Attn.refArr_eq_kerArr _ _ _ _ _ _ _ _ h0 h1 h2 h3 h4 h5 h6 h7

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
